-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x2668 : Shape := ⟨2, ![32768, 2668]⟩
abbrev S1x64 : Shape := ⟨2, ![1, 64]⟩
abbrev S2x64 : Shape := ⟨2, ![2, 64]⟩
abbrev S21x64 : Shape := ⟨2, ![21, 64]⟩
abbrev S19x64 : Shape := ⟨2, ![19, 64]⟩
abbrev S943x64 : Shape := ⟨2, ![943, 64]⟩
abbrev S1682x64 : Shape := ⟨2, ![1682, 64]⟩
abbrev S1x2668 : Shape := ⟨2, ![1, 2668]⟩
abbrev S1 : Shape := ⟨1, ![1]⟩
abbrev S_ : Shape := ⟨0, ![]⟩

class Facts : Prop where
  bcast_S_S32768x2668 : S_.BroadcastsInDim S32768x2668 (![] : Fin 0 → Fin S32768x2668.rank)
  reducesTo_S32768x2668_S_d0_1 : S32768x2668.ReducesTo [0, 1] S_
  h_S_ : 0 < S_.numel
  bcast_S_S1x64 : S_.BroadcastsInDim S1x64 (![] : Fin 0 → Fin S1x64.rank)
  reducesTo_S1x64_S_d0_1 : S1x64.ReducesTo [0, 1] S_
  bcast_S_S2x64 : S_.BroadcastsInDim S2x64 (![] : Fin 0 → Fin S2x64.rank)
  reducesTo_S2x64_S_d0_1 : S2x64.ReducesTo [0, 1] S_
  bcast_S_S21x64 : S_.BroadcastsInDim S21x64 (![] : Fin 0 → Fin S21x64.rank)
  reducesTo_S21x64_S_d0_1 : S21x64.ReducesTo [0, 1] S_
  bcast_S_S19x64 : S_.BroadcastsInDim S19x64 (![] : Fin 0 → Fin S19x64.rank)
  reducesTo_S19x64_S_d0_1 : S19x64.ReducesTo [0, 1] S_
  bcast_S_S943x64 : S_.BroadcastsInDim S943x64 (![] : Fin 0 → Fin S943x64.rank)
  reducesTo_S943x64_S_d0_1 : S943x64.ReducesTo [0, 1] S_
  bcast_S_S1682x64 : S_.BroadcastsInDim S1682x64 (![] : Fin 0 → Fin S1682x64.rank)
  reducesTo_S1682x64_S_d0_1 : S1682x64.ReducesTo [0, 1] S_
  bcast_S_S1x2668 : S_.BroadcastsInDim S1x2668 (![] : Fin 0 → Fin S1x2668.rank)
  reducesTo_S1x2668_S_d0_1 : S1x2668.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg14 : FVec F S1 .f32) (main_v63 : IVec S_ 1) (main_v67 : IVec S_ 1) : IVec S_ 1 :=
  let main_v68 : IVec S_ 1 := andi main_v63 main_v67
  let main_v69 : FVec F S1 .f32 := Host.absf main_arg14
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  main_v73

def fn_part3 {F : FTy → Type} [FloatOps F] (main_arg11 : FVec F S1682x64 .f32) (main_arg12 : FVec F S1682x64 .f32) (main_arg13 : FVec F S1x2668 .f32) (main_arg14 : FVec F S1 .f32) (main_v48 : IVec S_ 1) (main_v49 : FVec F S943x64 .f32) (main_v50 : FVec F S943x64 .f32) : IVec S_ 1 :=
  let main_v51 : IVec S943x64 1 := cmpf .olt main_v49 main_v50
  let main_c_19 : IVec S_ 1 := constantI S_ 1 1#1
  let main_v52 : IVec S_ 1 := (fun x v => Host.reduce IntOp.andi x v reducesTo_S943x64_S_d0_1 h_S_) main_v51 main_c_19
  let main_v53 : IVec S_ 1 := andi main_v48 main_v52
  let main_v54 : FVec F S1682x64 .f32 := Host.absf main_arg11
  let main_cst_20 : FVec F S_ .f32 := constant S_ .f32 0x7F800000#32
  let main_v55 : FVec F S1682x64 .f32 := broadcastInDim S1682x64 ![] bcast_S_S1682x64 main_cst_20
  let main_v56 : IVec S1682x64 1 := cmpf .olt main_v54 main_v55
  let main_c_21 : IVec S_ 1 := constantI S_ 1 1#1
  let main_v57 : IVec S_ 1 := (fun x v => Host.reduce IntOp.andi x v reducesTo_S1682x64_S_d0_1 h_S_) main_v56 main_c_21
  let main_v58 : IVec S_ 1 := andi main_v53 main_v57
  let main_v59 : FVec F S1682x64 .f32 := Host.absf main_arg12
  let main_cst_22 : FVec F S_ .f32 := constant S_ .f32 0x7F800000#32
  let main_v60 : FVec F S1682x64 .f32 := broadcastInDim S1682x64 ![] bcast_S_S1682x64 main_cst_22
  let main_v61 : IVec S1682x64 1 := cmpf .olt main_v59 main_v60
  let main_c_23 : IVec S_ 1 := constantI S_ 1 1#1
  let main_v62 : IVec S_ 1 := (fun x v => Host.reduce IntOp.andi x v reducesTo_S1682x64_S_d0_1 h_S_) main_v61 main_c_23
  let main_v63 : IVec S_ 1 := andi main_v58 main_v62
  let main_v64 : FVec F S1x2668 .f32 := Host.absf main_arg13
  let main_cst_24 : FVec F S_ .f32 := constant S_ .f32 0x7F800000#32
  let main_v65 : FVec F S1x2668 .f32 := broadcastInDim S1x2668 ![] bcast_S_S1x2668 main_cst_24
  let main_v66 : IVec S1x2668 1 := cmpf .olt main_v64 main_v65
  let main_c_25 : IVec S_ 1 := constantI S_ 1 1#1
  let main_v67 : IVec S_ 1 := (fun x v => Host.reduce IntOp.andi x v reducesTo_S1x2668_S_d0_1 h_S_) main_v66 main_c_25
  fn_part4 (F := F) main_arg14 main_v63 main_v67

def fn_part2 {F : FTy → Type} [FloatOps F] (main_arg7 : FVec F S19x64 .f32) (main_arg8 : FVec F S19x64 .f32) (main_arg9 : FVec F S943x64 .f32) (main_arg10 : FVec F S943x64 .f32) (main_arg11 : FVec F S1682x64 .f32) (main_arg12 : FVec F S1682x64 .f32) (main_arg13 : FVec F S1x2668 .f32) (main_arg14 : FVec F S1 .f32) (main_v33 : IVec S_ 1) : IVec S_ 1 :=
  let main_v34 : FVec F S19x64 .f32 := Host.absf main_arg7
  let main_cst_12 : FVec F S_ .f32 := constant S_ .f32 0x7F800000#32
  let main_v35 : FVec F S19x64 .f32 := broadcastInDim S19x64 ![] bcast_S_S19x64 main_cst_12
  let main_v36 : IVec S19x64 1 := cmpf .olt main_v34 main_v35
  let main_c_13 : IVec S_ 1 := constantI S_ 1 1#1
  let main_v37 : IVec S_ 1 := (fun x v => Host.reduce IntOp.andi x v reducesTo_S19x64_S_d0_1 h_S_) main_v36 main_c_13
  let main_v38 : IVec S_ 1 := andi main_v33 main_v37
  let main_v39 : FVec F S19x64 .f32 := Host.absf main_arg8
  let main_cst_14 : FVec F S_ .f32 := constant S_ .f32 0x7F800000#32
  let main_v40 : FVec F S19x64 .f32 := broadcastInDim S19x64 ![] bcast_S_S19x64 main_cst_14
  let main_v41 : IVec S19x64 1 := cmpf .olt main_v39 main_v40
  let main_c_15 : IVec S_ 1 := constantI S_ 1 1#1
  let main_v42 : IVec S_ 1 := (fun x v => Host.reduce IntOp.andi x v reducesTo_S19x64_S_d0_1 h_S_) main_v41 main_c_15
  let main_v43 : IVec S_ 1 := andi main_v38 main_v42
  let main_v44 : FVec F S943x64 .f32 := Host.absf main_arg9
  let main_cst_16 : FVec F S_ .f32 := constant S_ .f32 0x7F800000#32
  let main_v45 : FVec F S943x64 .f32 := broadcastInDim S943x64 ![] bcast_S_S943x64 main_cst_16
  let main_v46 : IVec S943x64 1 := cmpf .olt main_v44 main_v45
  let main_c_17 : IVec S_ 1 := constantI S_ 1 1#1
  let main_v47 : IVec S_ 1 := (fun x v => Host.reduce IntOp.andi x v reducesTo_S943x64_S_d0_1 h_S_) main_v46 main_c_17
  let main_v48 : IVec S_ 1 := andi main_v43 main_v47
  let main_v49 : FVec F S943x64 .f32 := Host.absf main_arg10
  let main_cst_18 : FVec F S_ .f32 := constant S_ .f32 0x7F800000#32
  let main_v50 : FVec F S943x64 .f32 := broadcastInDim S943x64 ![] bcast_S_S943x64 main_cst_18
  fn_part3 (F := F) main_arg11 main_arg12 main_arg13 main_arg14 main_v48 main_v49 main_v50

def fn_part1 {F : FTy → Type} [FloatOps F] (main_arg4 : FVec F S2x64 .f32) (main_arg5 : FVec F S21x64 .f32) (main_arg6 : FVec F S21x64 .f32) (main_arg7 : FVec F S19x64 .f32) (main_arg8 : FVec F S19x64 .f32) (main_arg9 : FVec F S943x64 .f32) (main_arg10 : FVec F S943x64 .f32) (main_arg11 : FVec F S1682x64 .f32) (main_arg12 : FVec F S1682x64 .f32) (main_arg13 : FVec F S1x2668 .f32) (main_arg14 : FVec F S1 .f32) (main_v13 : IVec S_ 1) (main_v16 : IVec S2x64 1) : IVec S_ 1 :=
  let main_c_5 : IVec S_ 1 := constantI S_ 1 1#1
  let main_v17 : IVec S_ 1 := (fun x v => Host.reduce IntOp.andi x v reducesTo_S2x64_S_d0_1 h_S_) main_v16 main_c_5
  let main_v18 : IVec S_ 1 := andi main_v13 main_v17
  let main_v19 : FVec F S2x64 .f32 := Host.absf main_arg4
  let main_cst_6 : FVec F S_ .f32 := constant S_ .f32 0x7F800000#32
  let main_v20 : FVec F S2x64 .f32 := broadcastInDim S2x64 ![] bcast_S_S2x64 main_cst_6
  let main_v21 : IVec S2x64 1 := cmpf .olt main_v19 main_v20
  let main_c_7 : IVec S_ 1 := constantI S_ 1 1#1
  let main_v22 : IVec S_ 1 := (fun x v => Host.reduce IntOp.andi x v reducesTo_S2x64_S_d0_1 h_S_) main_v21 main_c_7
  let main_v23 : IVec S_ 1 := andi main_v18 main_v22
  let main_v24 : FVec F S21x64 .f32 := Host.absf main_arg5
  let main_cst_8 : FVec F S_ .f32 := constant S_ .f32 0x7F800000#32
  let main_v25 : FVec F S21x64 .f32 := broadcastInDim S21x64 ![] bcast_S_S21x64 main_cst_8
  let main_v26 : IVec S21x64 1 := cmpf .olt main_v24 main_v25
  let main_c_9 : IVec S_ 1 := constantI S_ 1 1#1
  let main_v27 : IVec S_ 1 := (fun x v => Host.reduce IntOp.andi x v reducesTo_S21x64_S_d0_1 h_S_) main_v26 main_c_9
  let main_v28 : IVec S_ 1 := andi main_v23 main_v27
  let main_v29 : FVec F S21x64 .f32 := Host.absf main_arg6
  let main_cst_10 : FVec F S_ .f32 := constant S_ .f32 0x7F800000#32
  let main_v30 : FVec F S21x64 .f32 := broadcastInDim S21x64 ![] bcast_S_S21x64 main_cst_10
  let main_v31 : IVec S21x64 1 := cmpf .olt main_v29 main_v30
  let main_c_11 : IVec S_ 1 := constantI S_ 1 1#1
  let main_v32 : IVec S_ 1 := (fun x v => Host.reduce IntOp.andi x v reducesTo_S21x64_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S32768x2668 .f32) (main_arg1 : FVec F S1x64 .f32) (main_arg2 : FVec F S1x64 .f32) (main_arg3 : FVec F S2x64 .f32) (main_arg4 : FVec F S2x64 .f32) (main_arg5 : FVec F S21x64 .f32) (main_arg6 : FVec F S21x64 .f32) (main_arg7 : FVec F S19x64 .f32) (main_arg8 : FVec F S19x64 .f32) (main_arg9 : FVec F S943x64 .f32) (main_arg10 : FVec F S943x64 .f32) (main_arg11 : FVec F S1682x64 .f32) (main_arg12 : FVec F S1682x64 .f32) (main_arg13 : FVec F S1x2668 .f32) (main_arg14 : FVec F S1 .f32) : IVec S_ 1 :=
  let main_v0 : FVec F S32768x2668 .f32 := Host.absf main_arg0
  let main_cst : FVec F S_ .f32 := constant S_ .f32 0x7F800000#32
  let main_v1 : FVec F S32768x2668 .f32 := broadcastInDim S32768x2668 ![] bcast_S_S32768x2668 main_cst
  let main_v2 : IVec S32768x2668 1 := cmpf .olt main_v0 main_v1
  let main_c : IVec S_ 1 := constantI S_ 1 1#1
  let main_v3 : IVec S_ 1 := (fun x v => Host.reduce IntOp.andi x v reducesTo_S32768x2668_S_d0_1 h_S_) main_v2 main_c
  let main_v4 : FVec F S1x64 .f32 := Host.absf main_arg1
  let main_cst_0 : FVec F S_ .f32 := constant S_ .f32 0x7F800000#32
  let main_v5 : FVec F S1x64 .f32 := broadcastInDim S1x64 ![] bcast_S_S1x64 main_cst_0
  let main_v6 : IVec S1x64 1 := cmpf .olt main_v4 main_v5
  let main_c_1 : IVec S_ 1 := constantI S_ 1 1#1
  let main_v7 : IVec S_ 1 := (fun x v => Host.reduce IntOp.andi x v reducesTo_S1x64_S_d0_1 h_S_) main_v6 main_c_1
  let main_v8 : IVec S_ 1 := andi main_v3 main_v7
  let main_v9 : FVec F S1x64 .f32 := Host.absf main_arg2
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_c_3 : IVec S_ 1 := constantI S_ 1 1#1
  let main_v12 : IVec S_ 1 := (fun x v => Host.reduce IntOp.andi x v reducesTo_S1x64_S_d0_1 h_S_) main_v11 main_c_3
  let main_v13 : IVec S_ 1 := andi main_v8 main_v12
  let main_v14 : FVec F S2x64 .f32 := Host.absf main_arg3
  let main_cst_4 : FVec F S_ .f32 := constant S_ .f32 0x7F800000#32
  let main_v15 : FVec F S2x64 .f32 := broadcastInDim S2x64 ![] bcast_S_S2x64 main_cst_4
  let main_v16 : IVec S2x64 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S32768x2668 : Shape := ⟨2, ![32768, 2668]⟩
abbrev S1x64 : Shape := ⟨2, ![1, 64]⟩
abbrev S2x64 : Shape := ⟨2, ![2, 64]⟩
abbrev S21x64 : Shape := ⟨2, ![21, 64]⟩
abbrev S19x64 : Shape := ⟨2, ![19, 64]⟩
abbrev S943x64 : Shape := ⟨2, ![943, 64]⟩
abbrev S1682x64 : Shape := ⟨2, ![1682, 64]⟩
abbrev S1x2668 : Shape := ⟨2, ![1, 2668]⟩
abbrev S1 : Shape := ⟨1, ![1]⟩
abbrev S_ : Shape := ⟨0, ![]⟩
abbrev S1x1 : Shape := ⟨2, ![1, 1]⟩
abbrev S1x129 : Shape := ⟨2, ![1, 129]⟩
abbrev S1x2 : Shape := ⟨2, ![1, 2]⟩
abbrev S2x1 : Shape := ⟨2, ![2, 1]⟩
abbrev S2x129 : Shape := ⟨2, ![2, 129]⟩
abbrev S1x21 : Shape := ⟨2, ![1, 21]⟩
abbrev S21x1 : Shape := ⟨2, ![21, 1]⟩
abbrev S21x129 : Shape := ⟨2, ![21, 129]⟩
abbrev S1x19 : Shape := ⟨2, ![1, 19]⟩
abbrev S19x1 : Shape := ⟨2, ![19, 1]⟩
abbrev S19x129 : Shape := ⟨2, ![19, 129]⟩
abbrev S1x943 : Shape := ⟨2, ![1, 943]⟩
abbrev S943x1 : Shape := ⟨2, ![943, 1]⟩
abbrev S943x129 : Shape := ⟨2, ![943, 129]⟩
abbrev S1x1682 : Shape := ⟨2, ![1, 1682]⟩
abbrev S1682x1 : Shape := ⟨2, ![1682, 1]⟩
abbrev S1682x129 : Shape := ⟨2, ![1682, 129]⟩
abbrev S47x129 : Shape := ⟨2, ![47, 129]⟩
abbrev S1729x129 : Shape := ⟨2, ![1729, 129]⟩
abbrev S32768x1 : Shape := ⟨2, ![32768, 1]⟩
abbrev S512x2668 : Shape := ⟨2, ![512, 2668]⟩
abbrev S512x1 : Shape := ⟨2, ![512, 1]⟩
abbrev S512x943 : Shape := ⟨2, ![512, 943]⟩
abbrev S512x1729 : Shape := ⟨2, ![512, 1729]⟩
abbrev S512x2 : Shape := ⟨2, ![512, 2]⟩
abbrev S512x21 : Shape := ⟨2, ![512, 21]⟩
abbrev S512x19 : Shape := ⟨2, ![512, 19]⟩
abbrev S512x129 : Shape := ⟨2, ![512, 129]⟩
abbrev S512x64 : Shape := ⟨2, ![512, 64]⟩
abbrev S512 : Shape := ⟨1, ![512]⟩

abbrev nBuf : Space → Nat
  | .hbm => 47
  | .vmem => 12
  | .smem => 0
  | _ => 0

abbrev bufTy : (tb : Table) → Fin (tcTables nBuf tb) → BufTy
  | .hbm, ⟨0, _⟩ => ⟨S32768x2668, .f32⟩
  | .hbm, ⟨1, _⟩ => ⟨S1x64, .f32⟩
  | .hbm, ⟨2, _⟩ => ⟨S1x64, .f32⟩
  | .hbm, ⟨3, _⟩ => ⟨S2x64, .f32⟩
  | .hbm, ⟨4, _⟩ => ⟨S2x64, .f32⟩
  | .hbm, ⟨5, _⟩ => ⟨S21x64, .f32⟩
  | .hbm, ⟨6, _⟩ => ⟨S21x64, .f32⟩
  | .hbm, ⟨7, _⟩ => ⟨S19x64, .f32⟩
  | .hbm, ⟨8, _⟩ => ⟨S19x64, .f32⟩
  | .hbm, ⟨9, _⟩ => ⟨S943x64, .f32⟩
  | .hbm, ⟨10, _⟩ => ⟨S943x64, .f32⟩
  | .hbm, ⟨11, _⟩ => ⟨S1682x64, .f32⟩
  | .hbm, ⟨12, _⟩ => ⟨S1682x64, .f32⟩
  | .hbm, ⟨13, _⟩ => ⟨S1x2668, .f32⟩
  | .hbm, ⟨14, _⟩ => ⟨S1, .f32⟩
  | .hbm, ⟨15, _⟩ => ⟨S_, .f32⟩
  | .hbm, ⟨16, _⟩ => ⟨S1x1, .f32⟩
  | .hbm, ⟨17, _⟩ => ⟨S1x129, .f32⟩
  | .hbm, ⟨18, _⟩ => ⟨S1x129, .bf16⟩
  | .hbm, ⟨19, _⟩ => ⟨S1x2, .f32⟩
  | .hbm, ⟨20, _⟩ => ⟨S2x1, .f32⟩
  | .hbm, ⟨21, _⟩ => ⟨S2x129, .f32⟩
  | .hbm, ⟨22, _⟩ => ⟨S2x129, .bf16⟩
  | .hbm, ⟨23, _⟩ => ⟨S1x21, .f32⟩
  | .hbm, ⟨24, _⟩ => ⟨S21x1, .f32⟩
  | .hbm, ⟨25, _⟩ => ⟨S21x129, .f32⟩
  | .hbm, ⟨26, _⟩ => ⟨S21x129, .bf16⟩
  | .hbm, ⟨27, _⟩ => ⟨S1x19, .f32⟩
  | .hbm, ⟨28, _⟩ => ⟨S19x1, .f32⟩
  | .hbm, ⟨29, _⟩ => ⟨S19x129, .f32⟩
  | .hbm, ⟨30, _⟩ => ⟨S19x129, .bf16⟩
  | .hbm, ⟨31, _⟩ => ⟨S1x943, .f32⟩
  | .hbm, ⟨32, _⟩ => ⟨S943x1, .f32⟩
  | .hbm, ⟨33, _⟩ => ⟨S943x129, .f32⟩
  | .hbm, ⟨34, _⟩ => ⟨S943x129, .bf16⟩
  | .hbm, ⟨35, _⟩ => ⟨S1x1682, .f32⟩
  | .hbm, ⟨36, _⟩ => ⟨S1682x1, .f32⟩
  | .hbm, ⟨37, _⟩ => ⟨S1682x129, .f32⟩
  | .hbm, ⟨38, _⟩ => ⟨S_, .f32⟩
  | .hbm, ⟨39, _⟩ => ⟨S47x129, .f32⟩
  | .hbm, ⟨40, _⟩ => ⟨S1729x129, .f32⟩
  | .hbm, ⟨41, _⟩ => ⟨S1729x129, .bf16⟩
  | .hbm, ⟨42, _⟩ => ⟨S1x1, .f32⟩
  | .hbm, ⟨43, _⟩ => ⟨S1x1, .f32⟩
  | .hbm, ⟨44, _⟩ => ⟨S1x1, .bf16⟩
  | .hbm, ⟨45, _⟩ => ⟨S1x1, .f32⟩
  | .hbm, ⟨46, _⟩ => ⟨S32768x1, .f32⟩
  | .local _ .vmem, ⟨0, _⟩ => ⟨S512x2668, .f32⟩
  | .local _ .vmem, ⟨1, _⟩ => ⟨S512x2668, .f32⟩
  | .local _ .vmem, ⟨2, _⟩ => ⟨S1x129, .bf16⟩
  | .local _ .vmem, ⟨3, _⟩ => ⟨S2x129, .bf16⟩
  | .local _ .vmem, ⟨4, _⟩ => ⟨S21x129, .bf16⟩
  | .local _ .vmem, ⟨5, _⟩ => ⟨S19x129, .bf16⟩
  | .local _ .vmem, ⟨6, _⟩ => ⟨S943x129, .bf16⟩
  | .local _ .vmem, ⟨7, _⟩ => ⟨S1729x129, .bf16⟩
  | .local _ .vmem, ⟨8, _⟩ => ⟨S1x1, .bf16⟩
  | .local _ .vmem, ⟨9, _⟩ => ⟨S1x1, .f32⟩
  | .local _ .vmem, ⟨10, _⟩ => ⟨S512x1, .f32⟩
  | .local _ .vmem, ⟨11, _⟩ => ⟨S512x1, .f32⟩
  | _, _ => ⟨S32768x2668, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_0 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2668 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x129 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x129 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S21x129 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S19x129 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S943x129 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1729x129 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S_S1x1 : S_.BroadcastsInDim S1x1 (![] : Fin 0 → Fin S1x1.rank)
  concatenates_S1x64_S1x64_S1x1_S1x129_d1 : Shape.Concatenates [S1x64, S1x64, S1x1] S1x129 1
  bitsLt_bf16_f32 : FTy.bits .bf16 < FTy.bits .f32
  slices_S1x2668_S1x2_0_2626 : S1x2668.Slices ![0, 2626] S1x2
  transposes_S1x2_S2x1_1_0 : S1x2.Transposes [1, 0] S2x1
  concatenates_S2x64_S2x64_S2x1_S2x129_d1 : Shape.Concatenates [S2x64, S2x64, S2x1] S2x129 1
  slices_S1x2668_S1x21_0_2628 : S1x2668.Slices ![0, 2628] S1x21
  transposes_S1x21_S21x1_1_0 : S1x21.Transposes [1, 0] S21x1
  concatenates_S21x64_S21x64_S21x1_S21x129_d1 : Shape.Concatenates [S21x64, S21x64, S21x1] S21x129 1
  slices_S1x2668_S1x19_0_2649 : S1x2668.Slices ![0, 2649] S1x19
  transposes_S1x19_S19x1_1_0 : S1x19.Transposes [1, 0] S19x1
  concatenates_S19x64_S19x64_S19x1_S19x129_d1 : Shape.Concatenates [S19x64, S19x64, S19x1] S19x129 1
  slices_S1x2668_S1x943_0_0 : S1x2668.Slices ![0, 0] S1x943
  transposes_S1x943_S943x1_1_0 : S1x943.Transposes [1, 0] S943x1
  concatenates_S943x64_S943x64_S943x1_S943x129_d1 : Shape.Concatenates [S943x64, S943x64, S943x1] S943x129 1
  slices_S1x2668_S1x1682_0_943 : S1x2668.Slices ![0, 943] S1x1682
  transposes_S1x1682_S1682x1_1_0 : S1x1682.Transposes [1, 0] S1682x1
  concatenates_S1682x64_S1682x64_S1682x1_S1682x129_d1 : Shape.Concatenates [S1682x64, S1682x64, S1682x1] S1682x129 1
  bcast_S_S47x129 : S_.BroadcastsInDim S47x129 (![] : Fin 0 → Fin S47x129.rank)
  concatenates_S47x129_S1682x129_S1729x129_d0 : Shape.Concatenates [S47x129, S1682x129] S1729x129 0
  slices_S1x2668_S1x1_0_2625 : S1x2668.Slices ![0, 2625] S1x1
  transposes_S1x1_S1x1_1_0 : S1x1.Transposes [1, 0] S1x1
  shapeCasts_S1_S1x1 : S1.ShapeCasts S1x1
  inb_S512x2668_S512x943_0_0 : ∀ a, (![0, 0] : Fin 2 → Nat) a + S512x943.size a ≤ S512x2668.size a
  h_S512x943 : 0 < S512x943.numel
  inb_S512x2668_S512x1729_0_896 : ∀ a, (![0, 896] : Fin 2 → Nat) a + S512x1729.size a ≤ S512x2668.size a
  h_S512x1729 : 0 < S512x1729.numel
  inb_S512x2668_S512x1_0_2625 : ∀ a, (![0, 2625] : Fin 2 → Nat) a + S512x1.size a ≤ S512x2668.size a
  h_S512x1 : 0 < S512x1.numel
  inb_S512x2668_S512x1_0_2626 : ∀ a, (![0, 2626] : Fin 2 → Nat) a + S512x1.size a ≤ S512x2668.size a
  inb_S512x2668_S512x2_0_2626 : ∀ a, (![0, 2626] : Fin 2 → Nat) a + S512x2.size a ≤ S512x2668.size a
  h_S512x2 : 0 < S512x2.numel
  inb_S512x2668_S512x21_0_2628 : ∀ a, (![0, 2628] : Fin 2 → Nat) a + S512x21.size a ≤ S512x2668.size a
  h_S512x21 : 0 < S512x21.numel
  inb_S512x2668_S512x19_0_2649 : ∀ a, (![0, 2649] : Fin 2 → Nat) a + S512x19.size a ≤ S512x2668.size a
  h_S512x19 : 0 < S512x19.numel
  inb_S1x129_S1x129_0_0 : ∀ a, (![0, 0] : Fin 2 → Nat) a + S1x129.size a ≤ S1x129.size a
  h_S1x129 : 0 < S1x129.numel
  shapeCasts_S1x129_S1x129 : S1x129.ShapeCasts S1x129
  inb_S2x129_S2x129_0_0 : ∀ a, (![0, 0] : Fin 2 → Nat) a + S2x129.size a ≤ S2x129.size a
  h_S2x129 : 0 < S2x129.numel
  shapeCasts_S2x129_S2x129 : S2x129.ShapeCasts S2x129
  inb_S21x129_S21x129_0_0 : ∀ a, (![0, 0] : Fin 2 → Nat) a + S21x129.size a ≤ S21x129.size a
  h_S21x129 : 0 < S21x129.numel
  shapeCasts_S21x129_S21x129 : S21x129.ShapeCasts S21x129
  inb_S19x129_S19x129_0_0 : ∀ a, (![0, 0] : Fin 2 → Nat) a + S19x129.size a ≤ S19x129.size a
  h_S19x129 : 0 < S19x129.numel
  shapeCasts_S19x129_S19x129 : S19x129.ShapeCasts S19x129
  inb_S943x129_S943x129_0_0 : ∀ a, (![0, 0] : Fin 2 → Nat) a + S943x129.size a ≤ S943x129.size a
  h_S943x129 : 0 < S943x129.numel
  shapeCasts_S943x129_S943x129 : S943x129.ShapeCasts S943x129
  inb_S1729x129_S1729x129_0_0 : ∀ a, (![0, 0] : Fin 2 → Nat) a + S1729x129.size a ≤ S1729x129.size a
  h_S1729x129 : 0 < S1729x129.numel
  shapeCasts_S1729x129_S1729x129 : S1729x129.ShapeCasts S1729x129
  slices_S512x129_o0_0_S512x64 : S512x129.Slices ![0, 0] S512x64
  slices_S512x129_o0_64_S512x64 : S512x129.Slices ![0, 64] S512x64
  reduces_S512x64_S512 : S512x64.Reduces [1] S512
  shapeCasts_S512_S512x1 : S512.ShapeCasts S512x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  slices_S512x129_o0_128_S512x1 : S512x129.Slices ![0, 128] S512x1
  inpos_S1x1_p0_0 : ∀ a, (![0, 0] : Fin 2 → Nat) a < S1x1.size a
  inb_S512x1_S512x1_0_0 : ∀ a, (![0, 0] : Fin 2 → Nat) a + S512x1.size a ≤ S512x1.size a
  dot_S512x1_S1x129_S512x129_1_0_0_1_n_n_wf : DotDims.WF S512x1 S1x129 S512x129 [1] [0] [0] [1] [] []
  dot_S512x2_S2x129_S512x129_1_0_0_1_n_n_wf : DotDims.WF S512x2 S2x129 S512x129 [1] [0] [0] [1] [] []
  dot_S512x21_S21x129_S512x129_1_0_0_1_n_n_wf : DotDims.WF S512x21 S21x129 S512x129 [1] [0] [0] [1] [] []
  dot_S512x19_S19x129_S512x129_1_0_0_1_n_n_wf : DotDims.WF S512x19 S19x129 S512x129 [1] [0] [0] [1] [] []
  dot_S512x943_S943x129_S512x129_1_0_0_1_n_n_wf : DotDims.WF S512x943 S943x129 S512x129 [1] [0] [0] [1] [] []
  dot_S512x1729_S1729x129_S512x129_1_0_0_1_n_n_wf : DotDims.WF S512x1729 S1729x129 S512x129 [1] [0] [0] [1] [] []
  dot_S512x1_S1x1_S512x1_1_0_0_1_n_n_wf : DotDims.WF S512x1 S1x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2668.size a ≤ S32768x2668.size a
  hwx0_0 : ∀ i : grid0.Coords, EltTy.bits .f32 = 32 ∨ (Rect.block (s := S32768x2668) S512x2668.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x129.size a ≤ S1x129.size a
  hwx0_1 : ∀ i : grid0.Coords, EltTy.bits .bf16 = 32 ∨ (Rect.block (s := S1x129) S1x129.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x129.size a ≤ S2x129.size a
  hwx0_2 : ∀ i : grid0.Coords, EltTy.bits .bf16 = 32 ∨ (Rect.block (s := S2x129) S2x129.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S21x129.size a ≤ S21x129.size a
  hwx0_3 : ∀ i : grid0.Coords, EltTy.bits .bf16 = 32 ∨ (Rect.block (s := S21x129) S21x129.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S19x129.size a ≤ S19x129.size a
  hwx0_4 : ∀ i : grid0.Coords, EltTy.bits .bf16 = 32 ∨ (Rect.block (s := S19x129) S19x129.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S943x129.size a ≤ S943x129.size a
  hwx0_5 : ∀ i : grid0.Coords, EltTy.bits .bf16 = 32 ∨ (Rect.block (s := S943x129) S943x129.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1729x129.size a ≤ S1729x129.size a
  hwx0_6 : ∀ i : grid0.Coords, EltTy.bits .bf16 = 32 ∨ (Rect.block (s := S1729x129) S1729x129.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .bf16 = 32 ∨ (Rect.block (s := S1x1) S1x1.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x1.size a ≤ S32768x1.size a
  hwx0_9 : ∀ i : grid0.Coords, EltTy.bits .f32 = 32 ∨ (Rect.block (s := S32768x1) S512x1.size (cc0_transform_9 i) (hinb0_9 i)).WholeWords (EltTy.packing .f32)

variable [Facts₀]

def dot_S512x1_S1x129_S512x129_1_0_0_1_n_n : DotDims S512x1 S1x129 S512x129 where
  lhsContracting := [1]
  rhsContracting := [0]
  lhsNonContracting := [0]
  rhsNonContracting := [1]
  lhsBatch := []
  rhsBatch := []
  wf := dot_S512x1_S1x129_S512x129_1_0_0_1_n_n_wf
def dot_S512x2_S2x129_S512x129_1_0_0_1_n_n : DotDims S512x2 S2x129 S512x129 where
  lhsContracting := [1]
  rhsContracting := [0]
  lhsNonContracting := [0]
  rhsNonContracting := [1]
  lhsBatch := []
  rhsBatch := []
  wf := dot_S512x2_S2x129_S512x129_1_0_0_1_n_n_wf
def dot_S512x21_S21x129_S512x129_1_0_0_1_n_n : DotDims S512x21 S21x129 S512x129 where
  lhsContracting := [1]
  rhsContracting := [0]
  lhsNonContracting := [0]
  rhsNonContracting := [1]
  lhsBatch := []
  rhsBatch := []
  wf := dot_S512x21_S21x129_S512x129_1_0_0_1_n_n_wf
def dot_S512x19_S19x129_S512x129_1_0_0_1_n_n : DotDims S512x19 S19x129 S512x129 where
  lhsContracting := [1]
  rhsContracting := [0]
  lhsNonContracting := [0]
  rhsNonContracting := [1]
  lhsBatch := []
  rhsBatch := []
  wf := dot_S512x19_S19x129_S512x129_1_0_0_1_n_n_wf
def dot_S512x943_S943x129_S512x129_1_0_0_1_n_n : DotDims S512x943 S943x129 S512x129 where
  lhsContracting := [1]
  rhsContracting := [0]
  lhsNonContracting := [0]
  rhsNonContracting := [1]
  lhsBatch := []
  rhsBatch := []
  wf := dot_S512x943_S943x129_S512x129_1_0_0_1_n_n_wf
def dot_S512x1729_S1729x129_S512x129_1_0_0_1_n_n : DotDims S512x1729 S1729x129 S512x129 where
  lhsContracting := [1]
  rhsContracting := [0]
  lhsNonContracting := [0]
  rhsNonContracting := [1]
  lhsBatch := []
  rhsBatch := []
  wf := dot_S512x1729_S1729x129_S512x129_1_0_0_1_n_n_wf
def dot_S512x1_S1x1_S512x1_1_0_0_1_n_n : DotDims S512x1 S1x1 S512x1 where
  lhsContracting := [1]
  rhsContracting := [0]
  lhsNonContracting := [0]
  rhsNonContracting := [1]
  lhsBatch := []
  rhsBatch := []
  wf := dot_S512x1_S1x1_S512x1_1_0_0_1_n_n_wf

abbrev win0_0 : Pipeline.Window sig grid0 :=
  Pipeline.Window.ofSpec (Memref.whole main_arg0) S512x2668.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x129.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S2x129.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S21x129.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S19x129.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S943x129.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S1729x129.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v27) S1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v28) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v29) S512x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S32768x2668 : Shape := ⟨2, ![32768, 2668]⟩
abbrev S1x64 : Shape := ⟨2, ![1, 64]⟩
abbrev S2x64 : Shape := ⟨2, ![2, 64]⟩
abbrev S21x64 : Shape := ⟨2, ![21, 64]⟩
abbrev S19x64 : Shape := ⟨2, ![19, 64]⟩
abbrev S943x64 : Shape := ⟨2, ![943, 64]⟩
abbrev S1682x64 : Shape := ⟨2, ![1682, 64]⟩
abbrev S1x2668 : Shape := ⟨2, ![1, 2668]⟩
abbrev S1 : Shape := ⟨1, ![1]⟩
abbrev S32768x1 : Shape := ⟨2, ![32768, 1]⟩
abbrev S32768x64 : Shape := ⟨2, ![32768, 64]⟩
abbrev S32768x2 : Shape := ⟨2, ![32768, 2]⟩
abbrev S32768x21 : Shape := ⟨2, ![32768, 21]⟩
abbrev S32768x19 : Shape := ⟨2, ![32768, 19]⟩
abbrev S32768x943 : Shape := ⟨2, ![32768, 943]⟩
abbrev S32768x1682 : Shape := ⟨2, ![32768, 1682]⟩
abbrev S_ : Shape := ⟨0, ![]⟩
abbrev S32768 : Shape := ⟨1, ![32768]⟩
abbrev S2668x1 : Shape := ⟨2, ![2668, 1]⟩
abbrev S1x1 : Shape := ⟨2, ![1, 1]⟩

abbrev nBuf : Space → Nat
  | .hbm => 85
  | .vmem => 0
  | .smem => 0
  | _ => 0

abbrev bufTy : (tb : Table) → Fin (tcTables nBuf tb) → BufTy
  | .hbm, ⟨0, _⟩ => ⟨S32768x2668, .f32⟩
  | .hbm, ⟨1, _⟩ => ⟨S1x64, .f32⟩
  | .hbm, ⟨2, _⟩ => ⟨S1x64, .f32⟩
  | .hbm, ⟨3, _⟩ => ⟨S2x64, .f32⟩
  | .hbm, ⟨4, _⟩ => ⟨S2x64, .f32⟩
  | .hbm, ⟨5, _⟩ => ⟨S21x64, .f32⟩
  | .hbm, ⟨6, _⟩ => ⟨S21x64, .f32⟩
  | .hbm, ⟨7, _⟩ => ⟨S19x64, .f32⟩
  | .hbm, ⟨8, _⟩ => ⟨S19x64, .f32⟩
  | .hbm, ⟨9, _⟩ => ⟨S943x64, .f32⟩
  | .hbm, ⟨10, _⟩ => ⟨S943x64, .f32⟩
  | .hbm, ⟨11, _⟩ => ⟨S1682x64, .f32⟩
  | .hbm, ⟨12, _⟩ => ⟨S1682x64, .f32⟩
  | .hbm, ⟨13, _⟩ => ⟨S1x2668, .f32⟩
  | .hbm, ⟨14, _⟩ => ⟨S1, .f32⟩
  | .hbm, ⟨15, _⟩ => ⟨S32768x1, .f32⟩
  | .hbm, ⟨16, _⟩ => ⟨S32768x64, .f32⟩
  | .hbm, ⟨17, _⟩ => ⟨S32768x1, .f32⟩
  | .hbm, ⟨18, _⟩ => ⟨S32768x64, .f32⟩
  | .hbm, ⟨19, _⟩ => ⟨S32768x2, .f32⟩
  | .hbm, ⟨20, _⟩ => ⟨S32768x64, .f32⟩
  | .hbm, ⟨21, _⟩ => ⟨S32768x2, .f32⟩
  | .hbm, ⟨22, _⟩ => ⟨S32768x64, .f32⟩
  | .hbm, ⟨23, _⟩ => ⟨S32768x21, .f32⟩
  | .hbm, ⟨24, _⟩ => ⟨S32768x64, .f32⟩
  | .hbm, ⟨25, _⟩ => ⟨S32768x21, .f32⟩
  | .hbm, ⟨26, _⟩ => ⟨S32768x64, .f32⟩
  | .hbm, ⟨27, _⟩ => ⟨S32768x19, .f32⟩
  | .hbm, ⟨28, _⟩ => ⟨S32768x64, .f32⟩
  | .hbm, ⟨29, _⟩ => ⟨S32768x19, .f32⟩
  | .hbm, ⟨30, _⟩ => ⟨S32768x64, .f32⟩
  | .hbm, ⟨31, _⟩ => ⟨S32768x943, .f32⟩
  | .hbm, ⟨32, _⟩ => ⟨S32768x64, .f32⟩
  | .hbm, ⟨33, _⟩ => ⟨S32768x943, .f32⟩
  | .hbm, ⟨34, _⟩ => ⟨S32768x64, .f32⟩
  | .hbm, ⟨35, _⟩ => ⟨S32768x1682, .f32⟩
  | .hbm, ⟨36, _⟩ => ⟨S32768x64, .f32⟩
  | .hbm, ⟨37, _⟩ => ⟨S32768x1682, .f32⟩
  | .hbm, ⟨38, _⟩ => ⟨S32768x64, .f32⟩
  | .hbm, ⟨39, _⟩ => ⟨S32768x64, .f32⟩
  | .hbm, ⟨40, _⟩ => ⟨S32768x64, .f32⟩
  | .hbm, ⟨41, _⟩ => ⟨S32768x64, .f32⟩
  | .hbm, ⟨42, _⟩ => ⟨S32768x64, .f32⟩
  | .hbm, ⟨43, _⟩ => ⟨S32768x64, .f32⟩
  | .hbm, ⟨44, _⟩ => ⟨S32768x64, .f32⟩
  | .hbm, ⟨45, _⟩ => ⟨S32768x64, .f32⟩
  | .hbm, ⟨46, _⟩ => ⟨S32768x64, .f32⟩
  | .hbm, ⟨47, _⟩ => ⟨S32768x64, .f32⟩
  | .hbm, ⟨48, _⟩ => ⟨S32768x64, .f32⟩
  | .hbm, ⟨49, _⟩ => ⟨S32768x64, .f32⟩
  | .hbm, ⟨50, _⟩ => ⟨S32768x64, .f32⟩
  | .hbm, ⟨51, _⟩ => ⟨S32768x64, .f32⟩
  | .hbm, ⟨52, _⟩ => ⟨S32768x64, .f32⟩
  | .hbm, ⟨53, _⟩ => ⟨S32768x64, .f32⟩
  | .hbm, ⟨54, _⟩ => ⟨S32768x64, .f32⟩
  | .hbm, ⟨55, _⟩ => ⟨S32768x64, .f32⟩
  | .hbm, ⟨56, _⟩ => ⟨S32768x64, .f32⟩
  | .hbm, ⟨57, _⟩ => ⟨S32768x64, .f32⟩
  | .hbm, ⟨58, _⟩ => ⟨S32768x64, .f32⟩
  | .hbm, ⟨59, _⟩ => ⟨S32768x64, .f32⟩
  | .hbm, ⟨60, _⟩ => ⟨S32768x64, .f32⟩
  | .hbm, ⟨61, _⟩ => ⟨S32768x64, .f32⟩
  | .hbm, ⟨62, _⟩ => ⟨S32768x64, .f32⟩
  | .hbm, ⟨63, _⟩ => ⟨S32768x64, .f32⟩
  | .hbm, ⟨64, _⟩ => ⟨S32768x64, .f32⟩
  | .hbm, ⟨65, _⟩ => ⟨S32768x64, .f32⟩
  | .hbm, ⟨66, _⟩ => ⟨S32768x64, .f32⟩
  | .hbm, ⟨67, _⟩ => ⟨S32768x64, .f32⟩
  | .hbm, ⟨68, _⟩ => ⟨S_, .f32⟩
  | .hbm, ⟨69, _⟩ => ⟨S32768, .f32⟩
  | .hbm, ⟨70, _⟩ => ⟨S2668x1, .f32⟩
  | .hbm, ⟨71, _⟩ => ⟨S32768x1, .f32⟩
  | .hbm, ⟨72, _⟩ => ⟨S1x1, .f32⟩
  | .hbm, ⟨73, _⟩ => ⟨S32768x1, .f32⟩
  | .hbm, ⟨74, _⟩ => ⟨S32768x1, .f32⟩
  | .hbm, ⟨75, _⟩ => ⟨S32768x1, .f32⟩
  | .hbm, ⟨76, _⟩ => ⟨S32768x1, .f32⟩
  | .hbm, ⟨77, _⟩ => ⟨S32768x1, .f32⟩
  | .hbm, ⟨78, _⟩ => ⟨S32768x1, .f32⟩
  | .hbm, ⟨79, _⟩ => ⟨S_, .f32⟩
  | .hbm, ⟨80, _⟩ => ⟨S32768x1, .f32⟩
  | .hbm, ⟨81, _⟩ => ⟨S32768x1, .f32⟩
  | .hbm, ⟨82, _⟩ => ⟨S_, .f32⟩
  | .hbm, ⟨83, _⟩ => ⟨S32768x1, .f32⟩
  | .hbm, ⟨84, _⟩ => ⟨S32768x1, .f32⟩
  | _, _ => ⟨S32768x2668, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_0 : Ref sig .tc := ⟨.hbm, 79, rfl⟩
abbrev main_v63 : Ref sig .tc := ⟨.hbm, 80, rfl⟩
abbrev main_v64 : Ref sig .tc := ⟨.hbm, 81, rfl⟩
abbrev main_cst_1 : Ref sig .tc := ⟨.hbm, 82, rfl⟩
abbrev main_v65 : Ref sig .tc := ⟨.hbm, 83, rfl⟩
abbrev main_v66 : Ref sig .tc := ⟨.hbm, 84, rfl⟩

abbrev nD : Nat := 1
abbrev τ : Topo := Topo.v7x

variable {F : FTy → Type} [FloatOps F]

class Facts₀ : Prop where
  slices_S32768x2668_S32768x1_0_2626 : S32768x2668.Slices ![0, 2626] S32768x1
  slices_S32768x2668_S32768x2_0_2626 : S32768x2668.Slices ![0, 2626] S32768x2
  slices_S32768x2668_S32768x21_0_2628 : S32768x2668.Slices ![0, 2628] S32768x21
  slices_S32768x2668_S32768x19_0_2649 : S32768x2668.Slices ![0, 2649] S32768x19
  slices_S32768x2668_S32768x943_0_0 : S32768x2668.Slices ![0, 0] S32768x943
  slices_S32768x2668_S32768x1682_0_943 : S32768x2668.Slices ![0, 943] S32768x1682
  reducesTo_S32768x64_S32768_d1 : S32768x64.ReducesTo [1] S32768
  h_S_ : 0 < S_.numel
  transposes_S1x2668_S2668x1_1_0 : S1x2668.Transposes [1, 0] S2668x1
  bcast_S1_S1x1_1 : S1.BroadcastsInDim S1x1 (![1] : Fin 1 → Fin S1x1.rank)
  bcast_S1x1_S32768x1_0_1 : S1x1.BroadcastsInDim S32768x1 (![0, 1] : Fin 2 → Fin S32768x1.rank)
  bcast_S32768_S32768x1_0 : S32768.BroadcastsInDim S32768x1 (![0] : Fin 1 → Fin S32768x1.rank)
  bcast_S_S32768x1 : S_.BroadcastsInDim S32768x1 (![] : Fin 0 → Fin S32768x1.rank)
  dot_S32768x1_S1x64_S32768x64_1_0_0_1_n_n_wf : DotDims.WF S32768x1 S1x64 S32768x64 [1] [0] [0] [1] [] []
  dot_S32768x2_S2x64_S32768x64_1_0_0_1_n_n_wf : DotDims.WF S32768x2 S2x64 S32768x64 [1] [0] [0] [1] [] []
  dot_S32768x21_S21x64_S32768x64_1_0_0_1_n_n_wf : DotDims.WF S32768x21 S21x64 S32768x64 [1] [0] [0] [1] [] []
  dot_S32768x19_S19x64_S32768x64_1_0_0_1_n_n_wf : DotDims.WF S32768x19 S19x64 S32768x64 [1] [0] [0] [1] [] []
  dot_S32768x943_S943x64_S32768x64_1_0_0_1_n_n_wf : DotDims.WF S32768x943 S943x64 S32768x64 [1] [0] [0] [1] [] []
  dot_S32768x1682_S1682x64_S32768x64_1_0_0_1_n_n_wf : DotDims.WF S32768x1682 S1682x64 S32768x64 [1] [0] [0] [1] [] []
  dot_S32768x2668_S2668x1_S32768x1_1_0_0_1_n_n_wf : DotDims.WF S32768x2668 S2668x1 S32768x1 [1] [0] [0] [1] [] []

variable [Facts₀]

def dot_S32768x1_S1x64_S32768x64_1_0_0_1_n_n : DotDims S32768x1 S1x64 S32768x64 where
  lhsContracting := [1]
  rhsContracting := [0]
  lhsNonContracting := [0]
  rhsNonContracting := [1]
  lhsBatch := []
  rhsBatch := []
  wf := dot_S32768x1_S1x64_S32768x64_1_0_0_1_n_n_wf
def dot_S32768x2_S2x64_S32768x64_1_0_0_1_n_n : DotDims S32768x2 S2x64 S32768x64 where
  lhsContracting := [1]
  rhsContracting := [0]
  lhsNonContracting := [0]
  rhsNonContracting := [1]
  lhsBatch := []
  rhsBatch := []
  wf := dot_S32768x2_S2x64_S32768x64_1_0_0_1_n_n_wf
def dot_S32768x21_S21x64_S32768x64_1_0_0_1_n_n : DotDims S32768x21 S21x64 S32768x64 where
  lhsContracting := [1]
  rhsContracting := [0]
  lhsNonContracting := [0]
  rhsNonContracting := [1]
  lhsBatch := []
  rhsBatch := []
  wf := dot_S32768x21_S21x64_S32768x64_1_0_0_1_n_n_wf
def dot_S32768x19_S19x64_S32768x64_1_0_0_1_n_n : DotDims S32768x19 S19x64 S32768x64 where
  lhsContracting := [1]
  rhsContracting := [0]
  lhsNonContracting := [0]
  rhsNonContracting := [1]
  lhsBatch := []
  rhsBatch := []
  wf := dot_S32768x19_S19x64_S32768x64_1_0_0_1_n_n_wf
def dot_S32768x943_S943x64_S32768x64_1_0_0_1_n_n : DotDims S32768x943 S943x64 S32768x64 where
  lhsContracting := [1]
  rhsContracting := [0]
  lhsNonContracting := [0]
  rhsNonContracting := [1]
  lhsBatch := []
  rhsBatch := []
  wf := dot_S32768x943_S943x64_S32768x64_1_0_0_1_n_n_wf
def dot_S32768x1682_S1682x64_S32768x64_1_0_0_1_n_n : DotDims S32768x1682 S1682x64 S32768x64 where
  lhsContracting := [1]
  rhsContracting := [0]
  lhsNonContracting := [0]
  rhsNonContracting := [1]
  lhsBatch := []
  rhsBatch := []
  wf := dot_S32768x1682_S1682x64_S32768x64_1_0_0_1_n_n_wf
def dot_S32768x2668_S2668x1_S32768x1_1_0_0_1_n_n : DotDims S32768x2668 S2668x1 S32768x1 where
  lhsContracting := [1]
  rhsContracting := [0]
  lhsNonContracting := [0]
  rhsNonContracting := [1]
  lhsBatch := []
  rhsBatch := []
  wf := dot_S32768x2668_S2668x1_S32768x1_1_0_0_1_n_n_wf

class Facts : Prop extends Facts₀ where

variable [Facts]
-- ==== Proof.BodyBits.lean ====
/-
  The value the kernel body stores into its output block, as one function of the contents of its nine input
  blocks: the seven column slices of the feature block and the eight whole tables are loaded, each field's
  slice is multiplied with its width-129 table, and the stored value is the logistic of the linear columns, the
  bias and the summed pair products.
-/
import proofs.«124395_j4372276707424_2_alg».proof.Proof.Gen.Kernel.Skeleton
import Idealize.ShloMosaic.Lib.Pipeline.FrameBody

noncomputable section

namespace Cert.Kernel.Hand

open Idealize.ShloMosaic Idealize.ShloMosaic.TcCoe Idealize.SL.Sem
open Cert.Kernel Cert.Kernel.Gen

variable {F : FTy → Type} [FloatOps F]

/-! The rectangles the body loads and stores through. -/
abbrev rUsr : Rect S512x2668 := Rect.unit (s := S512x2668) ![0, 0] S512x943.size inb_S512x2668_S512x943_0_0
abbrev rItm : Rect S512x2668 := Rect.unit (s := S512x2668) ![0, 896] S512x1729.size inb_S512x2668_S512x1729_0_896
abbrev rGap : Rect S512x2668 := Rect.unit (s := S512x2668) ![0, 2625] S512x1.size inb_S512x2668_S512x1_0_2625
abbrev rAge : Rect S512x2668 := Rect.unit (s := S512x2668) ![0, 2626] S512x1.size inb_S512x2668_S512x1_0_2626
abbrev rGen : Rect S512x2668 := Rect.unit (s := S512x2668) ![0, 2626] S512x2.size inb_S512x2668_S512x2_0_2626
abbrev rOcc : Rect S512x2668 := Rect.unit (s := S512x2668) ![0, 2628] S512x21.size inb_S512x2668_S512x21_0_2628
abbrev rMov : Rect S512x2668 := Rect.unit (s := S512x2668) ![0, 2649] S512x19.size inb_S512x2668_S512x19_0_2649
abbrev rT1 : Rect S1x129 := Rect.unit (s := S1x129) ![0, 0] S1x129.size inb_S1x129_S1x129_0_0
abbrev rT2 : Rect S2x129 := Rect.unit (s := S2x129) ![0, 0] S2x129.size inb_S2x129_S2x129_0_0
abbrev rT3 : Rect S21x129 := Rect.unit (s := S21x129) ![0, 0] S21x129.size inb_S21x129_S21x129_0_0
abbrev rT4 : Rect S19x129 := Rect.unit (s := S19x129) ![0, 0] S19x129.size inb_S19x129_S19x129_0_0
abbrev rT5 : Rect S943x129 := Rect.unit (s := S943x129) ![0, 0] S943x129.size inb_S943x129_S943x129_0_0
abbrev rT6 : Rect S1729x129 := Rect.unit (s := S1729x129) ![0, 0] S1729x129.size inb_S1729x129_S1729x129_0_0
abbrev rOne : Rect S1x1 := Rect.unit (s := S1x1) ![0, 0] S1x1.size inb_S1x1_S1x1_0_0
abbrev rOut : Rect S512x1 := Rect.unit (s := S512x1) ![0, 0] S512x1.size inb_S512x1_S512x1_0_0

/-- What the body stores, from the contents of the nine input blocks (window 0: the feature block; windows 1-6: the
    six width-129 tables; window 7: the gap column's weight; window 8: the bias). -/
def bodyVal (x0 : Vec F S512x2668 .f32) (x1 : Vec F S1x129 .bf16) (x2 : Vec F S2x129 .bf16) (x3 : Vec F S21x129 .bf16)
    (x4 : Vec F S19x129 .bf16) (x5 : Vec F S943x129 .bf16) (x6 : Vec F S1729x129 .bf16) (x7 : Vec F S1x1 .bf16)
    (x8 : Vec F S1x1 .f32) : FVec F S512x1 .f32 :=
  k0_pay1 (k0_pay7 (View.ld x0 rMov) (View.ld x4 rT4)) (k0_pay8 (View.ld x0 rUsr) (View.ld x5 rT5))
    (k0_pay9 (k0_pay2 (View.ld x0 rItm)) (View.ld x6 rT6))
    (k0_pay10 (k0_pay2 (View.ld x0 rItm)) (k0_pay4 (View.ld x0 rAge) (View.ld x1 rT1)) (k0_pay5 (View.ld x0 rGen) (View.ld x2 rT2))
      (k0_pay6 (View.ld x0 rOcc) (View.ld x3 rT3)) (k0_pay7 (View.ld x0 rMov) (View.ld x4 rT4))
      (k0_pay8 (View.ld x0 rUsr) (View.ld x5 rT5)) (View.ld x6 rT6))
    (k0_pay11 (k0_pay3 (View.ld x0 rGap)) (View.ld x7 rOne))
    (k0_pay12 (k0_pay4 (View.ld x0 rAge) (View.ld x1 rT1)) (k0_pay5 (View.ld x0 rGen) (View.ld x2 rT2))
      (k0_pay6 (View.ld x0 rOcc) (View.ld x3 rT3)))
    (View.ld x8 rOne)

/-- The output block after the body: the one store covers it. -/
def out0_9 (x0 : Vec F S512x2668 .f32) (x1 : Vec F S1x129 .bf16) (x2 : Vec F S2x129 .bf16) (x3 : Vec F S21x129 .bf16)
    (x4 : Vec F S19x129 .bf16) (x5 : Vec F S943x129 .bf16) (x6 : Vec F S1729x129 .bf16) (x7 : Vec F S1x1 .bf16)
    (x8 : Vec F S1x1 .f32) : Vec F S512x1 .f32 :=
  View.canon [⟨rOut, bodyVal x0 x1 x2 x3 x4 x5 x6 x7 x8⟩]

end Cert.Kernel.Hand

end
-- ==== Proof.FrameDefsBits.lean ====
/-
  The proof data of the one pipelined call: the arrays as the call finds them (after the host operations that build
  the six width-129 tables, the gap weight and the bias), each window's block at a grid point, and what the body leaves
  in each window's buffer — an input's block unchanged, the output's block at the body's stored value.
-/
import proofs.«124395_j4372276707424_2_alg».proof.Proof.Gen.Kernel.Launch
import proofs.«124395_j4372276707424_2_alg».proof.Proof.Gen.Kernel.Skeleton
import proofs.«124395_j4372276707424_2_alg».proof.Proof.Gen.Kernel.Points
import proofs.«124395_j4372276707424_2_alg».proof.Proof.BodyBits
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

/-- Core `c`'s buffers when the call is entered: after the host operations before it. -/
abbrev V (c : Dev nD) (b : Ref sig .tc) : Buf (Elt F) ((c : Thread nD τ).loc b) :=
  StableHlo.after hostOps0 (fun b => m (c, b)) b

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The proof data: the arrays as the call finds them; after the body at point `t` each input window's buffer holds its
    block and the output window's buffer the body's stored value of the nine input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out0_9 (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t
    = out0_9 (iblk m c 0 t) (iblk m c 1 t) (iblk m c 2 t) (iblk m c 3 t) (iblk m c 4 t) (iblk m c 5 t) (iblk m c 6 t) (iblk m c 7 t) (iblk m c 8 t) := by
  dsimp only [dats]

end Cert.Kernel.Hand

end
-- ==== Proof.FrameBits.lean ====
/-
  The frame of the kernel program: the run of its entry function up to and through the one pipelined call, what
  each argument array holds when the call is entered (no host operation before it writes one), each input window's
  staging buffer at every grid point (its block, fetched there or carried over), the body's triple on whole
  staging buffers, the body obligation at a generic point, the run, and the frame claim: the program terminates
  and every argument array ends as it began.
-/
import proofs.«124395_j4372276707424_2_alg».proof.Proof.FrameDefsBits

-- membership in a rectangle of the output block's extent is decided coordinate by coordinate of the long axis
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The entry function up to the pipelined call -/

/-- No host operation allocates a buffer. -/
theorem hostOps0_fresh : (hostOps0 : List (HloOp τ sig (Elt F))).Forall fun op => op.fresh = ∅ := by
  simp only [List.Forall]; repeat' constructor

/-- The entry function is its host operations, in order, then the pipelined call; the call is entered with every
    buffer at what the host operations leave (`V`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the call writes argument 0: the call finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))
/-- No host operation before the call writes argument 1: the call finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))
/-- No host operation before the call writes argument 2: the call finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))
/-- No host operation before the call writes argument 3: the call finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))
/-- No host operation before the call writes argument 4: the call finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))
/-- No host operation before the call writes argument 5: the call finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))
/-- No host operation before the call writes argument 6: the call finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))
/-- No host operation before the call writes argument 7: the call finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))
/-- No host operation before the call writes argument 8: the call finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))
/-- No host operation before the call writes argument 9: the call finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))
/-- No host operation before the call writes argument 10: the call finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))
/-- No host operation before the call writes argument 11: the call finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))
/-- No host operation before the call writes argument 12: the call finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))
/-- No host operation before the call writes argument 13: the call finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))
/-- No host operation before the call writes argument 14: the call finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))

/-! ## The input windows' staging buffers -/

/-- Input window 0's current staging buffer holds its block at every point, fetched there or carried over from the
    point that fetched it (the block index has not moved since), for any proof data whose array is `V`'s and whose
    body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or carried over from the
    point that fetched it (the block index has not moved since), for any proof data whose array is `V`'s and whose
    body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or carried over from the
    point that fetched it (the block index has not moved since), for any proof data whose array is `V`'s and whose
    body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or carried over from the
    point that fetched it (the block index has not moved since), for any proof data whose array is `V`'s and whose
    body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or carried over from the
    point that fetched it (the block index has not moved since), for any proof data whose array is `V`'s and whose
    body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or carried over from the
    point that fetched it (the block index has not moved since), for any proof data whose array is `V`'s and whose
    body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or carried over from the
    point that fetched it (the block index has not moved since), for any proof data whose array is `V`'s and whose
    body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or carried over from the
    point that fetched it (the block index has not moved since), for any proof data whose array is `V`'s and whose
    body leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or carried over from the
    point that fetched it (the block index has not moved since), for any proof data whose array is `V`'s and whose
    body leaves the block in place. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

/-- For any proof data whose arrays are the contents at the call's entry, a run to the pipeline's final state read
    at the argument arrays — the feature matrix as an input window's array, which the pipeline only reads; every
    other argument as a buffer no window stages — gives the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩) h

/-! ## The body's one store -/

/-- The one store is of the whole output block, so it covers it. -/
theorem cover0_9 (p0 : Vec F S512x1 .f32) (y : S512x1.Idx) :
    ∃ pc ∈ ([⟨rOut, p0⟩] : List (View.Piece (Elt F) S512x1 .f32)), y ∈ pc.1.set :=
  View.cover_of_tiled [⟨rOut, p0⟩] S512x1.size (by rfl) y

/-! ## The body's triple -/

set_option maxHeartbeats 1000000 in
/-- The kernel body on whole staging buffers, the nine inputs' at read contents and the output's at anything, runs to
    the continuation holding the inputs' as they were and the output's at the stored value of the inputs': the body
    loads column slices of the feature block and the whole tables, loads the output block once without using what it
    reads, and stores the whole output block once. -/
theorem sound_kernel (c : Dev nD) (E : Set ℕ) (i : grid0.Coords) (arg1 : Memref sig .tc .vmem S512x2668 .f32) (harg1 : arg1.IsWhole) (arg2 : Memref sig .tc .vmem S1x129 .bf16) (harg2 : arg2.IsWhole) (arg3 : Memref sig .tc .vmem S2x129 .bf16) (harg3 : arg3.IsWhole) (arg4 : Memref sig .tc .vmem S21x129 .bf16) (harg4 : arg4.IsWhole) (arg5 : Memref sig .tc .vmem S19x129 .bf16) (harg5 : arg5.IsWhole) (arg6 : Memref sig .tc .vmem S943x129 .bf16) (harg6 : arg6.IsWhole) (arg7 : Memref sig .tc .vmem S1729x129 .bf16) (harg7 : arg7.IsWhole) (arg8 : Memref sig .tc .vmem S1x1 .bf16) (harg8 : arg8.IsWhole) (arg9 : Memref sig .tc .vmem S1x1 .f32) (harg9 : arg9.IsWhole) (arg10 : Memref sig .tc .vmem S512x1 .f32) (harg10 : arg10.IsWhole)
    (x0 : Vec F S512x2668 .f32) (x1 : Vec F S1x129 .bf16) (x2 : Vec F S2x129 .bf16) (x3 : Vec F S21x129 .bf16) (x4 : Vec F S19x129 .bf16) (x5 : Vec F S943x129 .bf16) (x6 : Vec F S1729x129 .bf16) (x7 : Vec F S1x1 .bf16) (x8 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x1 x2 x3 x4 x5 x6 x7 x8)) -∗ K ⟨⟩))
      ⊢ wp frame (wpE (defs₀ (F := F)) Variants.none c none) E (cc0__ffm_kernel i arg1 harg1 arg2 harg2 arg3 harg3 arg4 harg4 arg5 harg5 arg6 harg6 arg7 harg7 arg8 harg8 arg9 harg9 arg10 harg10) K := by
  simp only [cc0__ffm_kernel_eq_skeleton]; unfold cc0__ffm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover0_9 _)

/-! ## The input windows' buffers before the body -/

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

/-- What the body is called with at point `t`: the invariant, what is owed, and the ten windows' current staging buffers, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- The body at any point: the inputs' buffers hold their blocks, so the body's triple applies; the invariant and
    what is owed pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the run theorem's implicit arguments are found by unifying its conclusion with this one, which takes unfolding
-- plain definitions in a metavariable's type
set_option backward.isDefEq.respectTransparency.types false in
/-- From any memory with zero counters, for any values: every weakly fair execution of the entry function on the
    TensorCores terminates, and every final state has every array of the pipeline at what the proof data gives and
    every other unscoped buffer as the call found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program terminates and each of its fifteen argument arrays ends as it began, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.Kernel.Hand

end
-- ==== Proof.BodyIdeal.lean ====
/-
  The value the kernel body stores into its output block, as one function of the contents of its nine input
  blocks: the seven column slices of the feature block and the eight whole tables are loaded, each field's
  slice is multiplied with its width-129 table, and the stored value is the logistic of the linear columns, the
  bias and the summed pair products.
-/
import proofs.«124395_j4372276707424_2_alg».proof.Proof.Gen.KernelIdeal.Skeleton
import Idealize.ShloMosaic.Lib.Pipeline.FrameBody

noncomputable section

namespace Cert.KernelIdeal.Hand

open Idealize.ShloMosaic Idealize.ShloMosaic.TcCoe Idealize.SL.Sem
open Cert.KernelIdeal Cert.KernelIdeal.Gen

variable {F : FTy → Type} [FloatOps F]

/-! The rectangles the body loads and stores through. -/
abbrev rUsr : Rect S512x2668 := Rect.unit (s := S512x2668) ![0, 0] S512x943.size inb_S512x2668_S512x943_0_0
abbrev rItm : Rect S512x2668 := Rect.unit (s := S512x2668) ![0, 896] S512x1729.size inb_S512x2668_S512x1729_0_896
abbrev rGap : Rect S512x2668 := Rect.unit (s := S512x2668) ![0, 2625] S512x1.size inb_S512x2668_S512x1_0_2625
abbrev rAge : Rect S512x2668 := Rect.unit (s := S512x2668) ![0, 2626] S512x1.size inb_S512x2668_S512x1_0_2626
abbrev rGen : Rect S512x2668 := Rect.unit (s := S512x2668) ![0, 2626] S512x2.size inb_S512x2668_S512x2_0_2626
abbrev rOcc : Rect S512x2668 := Rect.unit (s := S512x2668) ![0, 2628] S512x21.size inb_S512x2668_S512x21_0_2628
abbrev rMov : Rect S512x2668 := Rect.unit (s := S512x2668) ![0, 2649] S512x19.size inb_S512x2668_S512x19_0_2649
abbrev rT1 : Rect S1x129 := Rect.unit (s := S1x129) ![0, 0] S1x129.size inb_S1x129_S1x129_0_0
abbrev rT2 : Rect S2x129 := Rect.unit (s := S2x129) ![0, 0] S2x129.size inb_S2x129_S2x129_0_0
abbrev rT3 : Rect S21x129 := Rect.unit (s := S21x129) ![0, 0] S21x129.size inb_S21x129_S21x129_0_0
abbrev rT4 : Rect S19x129 := Rect.unit (s := S19x129) ![0, 0] S19x129.size inb_S19x129_S19x129_0_0
abbrev rT5 : Rect S943x129 := Rect.unit (s := S943x129) ![0, 0] S943x129.size inb_S943x129_S943x129_0_0
abbrev rT6 : Rect S1729x129 := Rect.unit (s := S1729x129) ![0, 0] S1729x129.size inb_S1729x129_S1729x129_0_0
abbrev rOne : Rect S1x1 := Rect.unit (s := S1x1) ![0, 0] S1x1.size inb_S1x1_S1x1_0_0
abbrev rOut : Rect S512x1 := Rect.unit (s := S512x1) ![0, 0] S512x1.size inb_S512x1_S512x1_0_0

/-- What the body stores, from the contents of the nine input blocks (window 0: the feature block; windows 1-6: the
    six width-129 tables; window 7: the gap column's weight; window 8: the bias). -/
def bodyVal (x0 : Vec F S512x2668 .f32) (x1 : Vec F S1x129 .bf16) (x2 : Vec F S2x129 .bf16) (x3 : Vec F S21x129 .bf16)
    (x4 : Vec F S19x129 .bf16) (x5 : Vec F S943x129 .bf16) (x6 : Vec F S1729x129 .bf16) (x7 : Vec F S1x1 .bf16)
    (x8 : Vec F S1x1 .f32) : FVec F S512x1 .f32 :=
  k0_pay1 (k0_pay7 (View.ld x0 rMov) (View.ld x4 rT4)) (k0_pay8 (View.ld x0 rUsr) (View.ld x5 rT5))
    (k0_pay9 (k0_pay2 (View.ld x0 rItm)) (View.ld x6 rT6))
    (k0_pay10 (k0_pay2 (View.ld x0 rItm)) (k0_pay4 (View.ld x0 rAge) (View.ld x1 rT1)) (k0_pay5 (View.ld x0 rGen) (View.ld x2 rT2))
      (k0_pay6 (View.ld x0 rOcc) (View.ld x3 rT3)) (k0_pay7 (View.ld x0 rMov) (View.ld x4 rT4))
      (k0_pay8 (View.ld x0 rUsr) (View.ld x5 rT5)) (View.ld x6 rT6))
    (k0_pay11 (k0_pay3 (View.ld x0 rGap)) (View.ld x7 rOne))
    (k0_pay12 (k0_pay4 (View.ld x0 rAge) (View.ld x1 rT1)) (k0_pay5 (View.ld x0 rGen) (View.ld x2 rT2))
      (k0_pay6 (View.ld x0 rOcc) (View.ld x3 rT3)))
    (View.ld x8 rOne)

/-- The output block after the body: the one store covers it. -/
def out0_9 (x0 : Vec F S512x2668 .f32) (x1 : Vec F S1x129 .bf16) (x2 : Vec F S2x129 .bf16) (x3 : Vec F S21x129 .bf16)
    (x4 : Vec F S19x129 .bf16) (x5 : Vec F S943x129 .bf16) (x6 : Vec F S1729x129 .bf16) (x7 : Vec F S1x1 .bf16)
    (x8 : Vec F S1x1 .f32) : Vec F S512x1 .f32 :=
  View.canon [⟨rOut, bodyVal x0 x1 x2 x3 x4 x5 x6 x7 x8⟩]

end Cert.KernelIdeal.Hand

end
-- ==== Proof.FrameDefsIdeal.lean ====
/-
  The proof data of the one pipelined call: the arrays as the call finds them (after the host operations that build
  the six width-129 tables, the gap weight and the bias), each window's block at a grid point, and what the body leaves
  in each window's buffer — an input's block unchanged, the output's block at the body's stored value.
-/
import proofs.«124395_j4372276707424_2_alg».proof.Proof.Gen.KernelIdeal.Launch
import proofs.«124395_j4372276707424_2_alg».proof.Proof.Gen.KernelIdeal.Skeleton
import proofs.«124395_j4372276707424_2_alg».proof.Proof.Gen.KernelIdeal.Points
import proofs.«124395_j4372276707424_2_alg».proof.Proof.BodyIdeal
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-- Core `c`'s buffers when the call is entered: after the host operations before it. -/
abbrev V (c : Dev nD) (b : Ref sig .tc) : Buf (Elt F) ((c : Thread nD τ).loc b) :=
  StableHlo.after hostOps0 (fun b => m (c, b)) b

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The proof data: the arrays as the call finds them; after the body at point `t` each input window's buffer holds its
    block and the output window's buffer the body's stored value of the nine input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out0_9 (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t
    = out0_9 (iblk m c 0 t) (iblk m c 1 t) (iblk m c 2 t) (iblk m c 3 t) (iblk m c 4 t) (iblk m c 5 t) (iblk m c 6 t) (iblk m c 7 t) (iblk m c 8 t) := by
  dsimp only [dats]

end Cert.KernelIdeal.Hand

end
-- ==== Proof.FrameIdeal.lean ====
/-
  The frame of the kernel program: the run of its entry function up to and through the one pipelined call, what
  each argument array holds when the call is entered (no host operation before it writes one), each input window's
  staging buffer at every grid point (its block, fetched there or carried over), the body's triple on whole
  staging buffers, the body obligation at a generic point, the run, and the frame claim: the program terminates
  and every argument array ends as it began.
-/
import proofs.«124395_j4372276707424_2_alg».proof.Proof.FrameDefsIdeal

-- membership in a rectangle of the output block's extent is decided coordinate by coordinate of the long axis
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The entry function up to the pipelined call -/

/-- No host operation allocates a buffer. -/
theorem hostOps0_fresh : (hostOps0 : List (HloOp τ sig (Elt F))).Forall fun op => op.fresh = ∅ := by
  simp only [List.Forall]; repeat' constructor

/-- The entry function is its host operations, in order, then the pipelined call; the call is entered with every
    buffer at what the host operations leave (`V`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the call writes argument 0: the call finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))
/-- No host operation before the call writes argument 1: the call finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))
/-- No host operation before the call writes argument 2: the call finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))
/-- No host operation before the call writes argument 3: the call finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))
/-- No host operation before the call writes argument 4: the call finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))
/-- No host operation before the call writes argument 5: the call finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))
/-- No host operation before the call writes argument 6: the call finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))
/-- No host operation before the call writes argument 7: the call finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))
/-- No host operation before the call writes argument 8: the call finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))
/-- No host operation before the call writes argument 9: the call finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))
/-- No host operation before the call writes argument 10: the call finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))
/-- No host operation before the call writes argument 11: the call finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))
/-- No host operation before the call writes argument 12: the call finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))
/-- No host operation before the call writes argument 13: the call finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))
/-- No host operation before the call writes argument 14: the call finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))

/-! ## The input windows' staging buffers -/

/-- Input window 0's current staging buffer holds its block at every point, fetched there or carried over from the
    point that fetched it (the block index has not moved since), for any proof data whose array is `V`'s and whose
    body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or carried over from the
    point that fetched it (the block index has not moved since), for any proof data whose array is `V`'s and whose
    body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or carried over from the
    point that fetched it (the block index has not moved since), for any proof data whose array is `V`'s and whose
    body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or carried over from the
    point that fetched it (the block index has not moved since), for any proof data whose array is `V`'s and whose
    body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or carried over from the
    point that fetched it (the block index has not moved since), for any proof data whose array is `V`'s and whose
    body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or carried over from the
    point that fetched it (the block index has not moved since), for any proof data whose array is `V`'s and whose
    body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or carried over from the
    point that fetched it (the block index has not moved since), for any proof data whose array is `V`'s and whose
    body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or carried over from the
    point that fetched it (the block index has not moved since), for any proof data whose array is `V`'s and whose
    body leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or carried over from the
    point that fetched it (the block index has not moved since), for any proof data whose array is `V`'s and whose
    body leaves the block in place. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

/-- For any proof data whose arrays are the contents at the call's entry, a run to the pipeline's final state read
    at the argument arrays — the feature matrix as an input window's array, which the pipeline only reads; every
    other argument as a buffer no window stages — gives the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩) h

/-! ## The body's one store -/

/-- The one store is of the whole output block, so it covers it. -/
theorem cover0_9 (p0 : Vec F S512x1 .f32) (y : S512x1.Idx) :
    ∃ pc ∈ ([⟨rOut, p0⟩] : List (View.Piece (Elt F) S512x1 .f32)), y ∈ pc.1.set :=
  View.cover_of_tiled [⟨rOut, p0⟩] S512x1.size (by rfl) y

/-! ## The body's triple -/

set_option maxHeartbeats 1000000 in
/-- The kernel body on whole staging buffers, the nine inputs' at read contents and the output's at anything, runs to
    the continuation holding the inputs' as they were and the output's at the stored value of the inputs': the body
    loads column slices of the feature block and the whole tables, loads the output block once without using what it
    reads, and stores the whole output block once. -/
theorem sound_kernel (c : Dev nD) (E : Set ℕ) (i : grid0.Coords) (arg1 : Memref sig .tc .vmem S512x2668 .f32) (harg1 : arg1.IsWhole) (arg2 : Memref sig .tc .vmem S1x129 .bf16) (harg2 : arg2.IsWhole) (arg3 : Memref sig .tc .vmem S2x129 .bf16) (harg3 : arg3.IsWhole) (arg4 : Memref sig .tc .vmem S21x129 .bf16) (harg4 : arg4.IsWhole) (arg5 : Memref sig .tc .vmem S19x129 .bf16) (harg5 : arg5.IsWhole) (arg6 : Memref sig .tc .vmem S943x129 .bf16) (harg6 : arg6.IsWhole) (arg7 : Memref sig .tc .vmem S1729x129 .bf16) (harg7 : arg7.IsWhole) (arg8 : Memref sig .tc .vmem S1x1 .bf16) (harg8 : arg8.IsWhole) (arg9 : Memref sig .tc .vmem S1x1 .f32) (harg9 : arg9.IsWhole) (arg10 : Memref sig .tc .vmem S512x1 .f32) (harg10 : arg10.IsWhole)
    (x0 : Vec F S512x2668 .f32) (x1 : Vec F S1x129 .bf16) (x2 : Vec F S2x129 .bf16) (x3 : Vec F S21x129 .bf16) (x4 : Vec F S19x129 .bf16) (x5 : Vec F S943x129 .bf16) (x6 : Vec F S1729x129 .bf16) (x7 : Vec F S1x1 .bf16) (x8 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x1 x2 x3 x4 x5 x6 x7 x8)) -∗ K ⟨⟩))
      ⊢ wp frame (wpE (defs₀ (F := F)) Variants.none c none) E (cc0__ffm_kernel i arg1 harg1 arg2 harg2 arg3 harg3 arg4 harg4 arg5 harg5 arg6 harg6 arg7 harg7 arg8 harg8 arg9 harg9 arg10 harg10) K := by
  simp only [cc0__ffm_kernel_eq_skeleton]; unfold cc0__ffm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover0_9 _)

/-! ## The input windows' buffers before the body -/

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

/-- What the body is called with at point `t`: the invariant, what is owed, and the ten windows' current staging buffers, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- The body at any point: the inputs' buffers hold their blocks, so the body's triple applies; the invariant and
    what is owed pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the run theorem's implicit arguments are found by unifying its conclusion with this one, which takes unfolding
-- plain definitions in a metavariable's type
set_option backward.isDefEq.respectTransparency.types false in
/-- From any memory with zero counters, for any values: every weakly fair execution of the entry function on the
    TensorCores terminates, and every final state has every array of the pipeline at what the proof data gives and
    every other unscoped buffer as the call found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program terminates and each of its fifteen argument arrays ends as it began, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.KernelIdeal.Hand

end
-- ==== Proof.KernelArray.lean ====
/-
  From blocks to the array: what the output array of the pipelined call holds after the run, as one function of the
  arrays the call finds. Each grid point's input blocks are read where the output block's rectangle says (the feature
  block at point t is rows 512 t .. 512 t + 511 of the feature array, the eight small windows are their whole arrays),
  the 64 output blocks tile the 32768 rows, so entry (r, 0) of the output is the body's row function of row r.
-/
import proofs.«124395_j4372276707424_2_alg».proof.Proof.FrameDefsIdeal
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.SL.Sem
open Idealize.ShloMosaic.Pipeline (Dat)
open Idealize.ShloMosaic.ValueIdx
open Cert.KernelIdeal Cert.KernelIdeal.Gen

variable (m : (ℓ : Loc nD τ sig) → Buf (Elt Ideal) ℓ)

/-- The index maps, decided once over the 64 grid points: the feature window and the output window sit at block
    (t, 0), the eight small windows at block (0, 0). -/
theorem idx_facts : ∀ t : Fin cfg0.N,
    win0_0.index t (0 : Fin 2) = t.val ∧ win0_0.index t (1 : Fin 2) = 0
    ∧ win0_9.index t (0 : Fin 2) = t.val ∧ win0_9.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

theorem t_lt (t : Fin cfg0.N) : t.val < 64 := t.isLt

/-- The feature block at point t, entry (p, k), is entry (512 t + p, k) of the feature array. -/
theorem iblk0_apply (c : Dev nD) (t : Fin cfg0.N) (p : Fin 512) (k : Fin 2668) :
    iblk m c 0 t (ix2 p k) = V m c main_arg0 (ix2 (⟨512 * t.val + p.val, by have := t_lt t; omega⟩ : Fin 32768) k) := by
  obtain ⟨e0, e1, -⟩ := idx_facts t
  show V m c main_arg0 (((cfg0.win 0).blk t).view.emb (ix2 p k)) = _
  congr 1
  funext a; apply Fin.ext
  match a with
  | ⟨0, _⟩ => show win0_0.index t (0 : Fin 2) * 512 + 1 * p.val = 512 * t.val + p.val; omega
  | ⟨1, _⟩ => show win0_0.index t (1 : Fin 2) * 2668 + 1 * k.val = k.val; omega

/-- Window 1 is one block: at every point its block is the whole array. -/
theorem iblk1_eq (c : Dev nD) (t : Fin cfg0.N) : iblk m c 1 t = V m c main_v2 := by
  obtain ⟨-, -, -, -, e0, e1, -⟩ := idx_facts t
  funext j
  show V m c main_v2 (((cfg0.win 1).blk t).view.emb j) = V m c main_v2 j
  congr 1
  funext a; apply Fin.ext
  match a with
  | ⟨0, _⟩ => show win0_1.index t (0 : Fin 2) * 1 + 1 * (j 0).val = (j 0).val; omega
  | ⟨1, _⟩ => show win0_1.index t (1 : Fin 2) * 129 + 1 * (j 1).val = (j 1).val; omega

/-- Window 2 is one block: at every point its block is the whole array. -/
theorem iblk2_eq (c : Dev nD) (t : Fin cfg0.N) : iblk m c 2 t = V m c main_v6 := by
  obtain ⟨-, -, -, -, -, -, e0, e1, -⟩ := idx_facts t
  funext j
  show V m c main_v6 (((cfg0.win 2).blk t).view.emb j) = V m c main_v6 j
  congr 1
  funext a; apply Fin.ext
  match a with
  | ⟨0, _⟩ => show win0_2.index t (0 : Fin 2) * 2 + 1 * (j 0).val = (j 0).val; omega
  | ⟨1, _⟩ => show win0_2.index t (1 : Fin 2) * 129 + 1 * (j 1).val = (j 1).val; omega

/-- Window 3 is one block: at every point its block is the whole array. -/
theorem iblk3_eq (c : Dev nD) (t : Fin cfg0.N) : iblk m c 3 t = V m c main_v10 := by
  obtain ⟨-, -, -, -, -, -, -, -, e0, e1, -⟩ := idx_facts t
  funext j
  show V m c main_v10 (((cfg0.win 3).blk t).view.emb j) = V m c main_v10 j
  congr 1
  funext a; apply Fin.ext
  match a with
  | ⟨0, _⟩ => show win0_3.index t (0 : Fin 2) * 21 + 1 * (j 0).val = (j 0).val; omega
  | ⟨1, _⟩ => show win0_3.index t (1 : Fin 2) * 129 + 1 * (j 1).val = (j 1).val; omega

/-- Window 4 is one block: at every point its block is the whole array. -/
theorem iblk4_eq (c : Dev nD) (t : Fin cfg0.N) : iblk m c 4 t = V m c main_v14 := by
  obtain ⟨-, -, -, -, -, -, -, -, -, -, e0, e1, -⟩ := idx_facts t
  funext j
  show V m c main_v14 (((cfg0.win 4).blk t).view.emb j) = V m c main_v14 j
  congr 1
  funext a; apply Fin.ext
  match a with
  | ⟨0, _⟩ => show win0_4.index t (0 : Fin 2) * 19 + 1 * (j 0).val = (j 0).val; omega
  | ⟨1, _⟩ => show win0_4.index t (1 : Fin 2) * 129 + 1 * (j 1).val = (j 1).val; omega

/-- Window 5 is one block: at every point its block is the whole array. -/
theorem iblk5_eq (c : Dev nD) (t : Fin cfg0.N) : iblk m c 5 t = V m c main_v18 := by
  obtain ⟨-, -, -, -, -, -, -, -, -, -, -, -, e0, e1, -⟩ := idx_facts t
  funext j
  show V m c main_v18 (((cfg0.win 5).blk t).view.emb j) = V m c main_v18 j
  congr 1
  funext a; apply Fin.ext
  match a with
  | ⟨0, _⟩ => show win0_5.index t (0 : Fin 2) * 943 + 1 * (j 0).val = (j 0).val; omega
  | ⟨1, _⟩ => show win0_5.index t (1 : Fin 2) * 129 + 1 * (j 1).val = (j 1).val; omega

/-- Window 6 is one block: at every point its block is the whole array. -/
theorem iblk6_eq (c : Dev nD) (t : Fin cfg0.N) : iblk m c 6 t = V m c main_v24 := by
  obtain ⟨-, -, -, -, -, -, -, -, -, -, -, -, -, -, e0, e1, -⟩ := idx_facts t
  funext j
  show V m c main_v24 (((cfg0.win 6).blk t).view.emb j) = V m c main_v24 j
  congr 1
  funext a; apply Fin.ext
  match a with
  | ⟨0, _⟩ => show win0_6.index t (0 : Fin 2) * 1729 + 1 * (j 0).val = (j 0).val; omega
  | ⟨1, _⟩ => show win0_6.index t (1 : Fin 2) * 129 + 1 * (j 1).val = (j 1).val; omega

/-- Window 7 is one block: at every point its block is the whole array. -/
theorem iblk7_eq (c : Dev nD) (t : Fin cfg0.N) : iblk m c 7 t = V m c main_v27 := by
  obtain ⟨-, -, -, -, -, -, -, -, -, -, -, -, -, -, -, -, e0, e1, -⟩ := idx_facts t
  funext j
  show V m c main_v27 (((cfg0.win 7).blk t).view.emb j) = V m c main_v27 j
  congr 1
  funext a; apply Fin.ext
  match a with
  | ⟨0, _⟩ => show win0_7.index t (0 : Fin 2) * 1 + 1 * (j 0).val = (j 0).val; omega
  | ⟨1, _⟩ => show win0_7.index t (1 : Fin 2) * 1 + 1 * (j 1).val = (j 1).val; omega

/-- Window 8 is one block: at every point its block is the whole array. -/
theorem iblk8_eq (c : Dev nD) (t : Fin cfg0.N) : iblk m c 8 t = V m c main_v28 := by
  obtain ⟨-, -, -, -, -, -, -, -, -, -, -, -, -, -, -, -, -, -, e0, e1⟩ := idx_facts t
  funext j
  show V m c main_v28 (((cfg0.win 8).blk t).view.emb j) = V m c main_v28 j
  congr 1
  funext a; apply Fin.ext
  match a with
  | ⟨0, _⟩ => show win0_8.index t (0 : Fin 2) * 1 + 1 * (j 0).val = (j 0).val; omega
  | ⟨1, _⟩ => show win0_8.index t (1 : Fin 2) * 1 + 1 * (j 1).val = (j 1).val; omega

/-- The output array as one function of the arrays the call finds: entry (r, 0) is the row function of row r of the
    feature array and the eight whole tables. -/
def G9 (c : Dev nD) (R : (Fin 2668 → EReal) → Vec Ideal S1x129 .bf16 → Vec Ideal S2x129 .bf16 → Vec Ideal S21x129 .bf16 → Vec Ideal S19x129 .bf16 → Vec Ideal S943x129 .bf16 → Vec Ideal S1729x129 .bf16 → Vec Ideal S1x1 .bf16 → Vec Ideal S1x1 .f32 → EReal) : Buf (Elt Ideal) ((c : Thread nD τ).loc main_v29) :=
  fun i => R (fun k => V m c main_arg0 (ix2 (⟨(i 0).val, idx2_lt0 i⟩ : Fin 32768) k)) (V m c main_v2) (V m c main_v6)
    (V m c main_v10) (V m c main_v14) (V m c main_v18) (V m c main_v24) (V m c main_v27) (V m c main_v28)

/-- What point t writes back is block t of that function. -/
theorem flushed9_eq (c : Dev nD) (R : (Fin 2668 → EReal) → Vec Ideal S1x129 .bf16 → Vec Ideal S2x129 .bf16 → Vec Ideal S21x129 .bf16 → Vec Ideal S19x129 .bf16 → Vec Ideal S943x129 .bf16 → Vec Ideal S1729x129 .bf16 → Vec Ideal S1x1 .bf16 → Vec Ideal S1x1 .f32 → EReal)
    (hR : ∀ x0 x1 x2 x3 x4 x5 x6 x7 x8 (p : Fin 512), out0_9 (F := Ideal) x0 x1 x2 x3 x4 x5 x6 x7 x8 (ix2 p (0 : Fin 1))
      = R (fun k => x0 (ix2 p k)) x1 x2 x3 x4 x5 x6 x7 x8) (t : Fin cfg0.N) :
    (dats m 0 c).flushed 9 t = ((cfg0.win 9).blk t).view.read (Elt Ideal) (G9 m c R) := by
  show (cfg0.win 9).cut (grid0.coords t) ((dats m 0 c).after 9 t) = _
  rw [after0_9, iblk1_eq, iblk2_eq, iblk3_eq, iblk4_eq, iblk5_eq, iblk6_eq, iblk7_eq, iblk8_eq]
  obtain ⟨-, -, e2, e3, -⟩ := idx_facts t
  funext j
  obtain ⟨p, q, rfl⟩ : ∃ (p : Fin 512) (q : Fin 1), j = ix2 p q := ⟨j 0, j 1, eq_ix2 j⟩
  obtain rfl : q = 0 := Subsingleton.elim _ _
  show out0_9 (iblk m c 0 t) (V m c main_v2) (V m c main_v6) (V m c main_v10) (V m c main_v14) (V m c main_v18)
      (V m c main_v24) (V m c main_v27) (V m c main_v28) (ix2 p (0 : Fin 1))
    = G9 m c R (((cfg0.win 9).blk t).view.emb (ix2 p (0 : Fin 1)))
  rw [hR]
  unfold G9
  congr 1
  funext k
  rw [iblk0_apply]
  congr 1
  funext a; apply Fin.ext
  match a with
  | ⟨0, _⟩ => show 512 * t.val + p.val = win0_9.index t (0 : Fin 2) * 512 + 1 * p.val; omega
  | ⟨1, _⟩ => rfl

/-- An index of the output array is in point t's block iff each coordinate is in the block's range on its axis. -/
theorem mem_blk9 (t : Fin cfg0.N) (i : S32768x1.Idx) :
    i ∈ ((cfg0.win 9).blk t).view.set ↔ ∀ a : Fin 2, win0_9.index t a * S512x1.size a ≤ (i a).val ∧ (i a).val < win0_9.index t a * S512x1.size a + S512x1.size a := by
  show i ∈ ((View.whole main_v29).slice (win0_9.rect t)).set ↔ _
  rw [View.set_slice_whole, Rect.mem_set_unit]
  exact Iff.rfl

/-- The 64 output blocks tile the 32768 rows: row r is in the block of point r / 512. -/
theorem cover9 (i : S32768x1.Idx) : ∃ t : Fin cfg0.N, (cfg0.win 9).flush t = true ∧ i ∈ ((cfg0.win 9).blk t).view.set := by
  have hi0 : (i 0).val < 32768 := idx2_lt0 i
  have hi1 : (i 1).val < 1 := idx2_lt1 i
  let t : Fin cfg0.N := ⟨(i 0).val / 512, by show (i 0).val / 512 < grid0.N; rw [N_0]; omega⟩
  have ht : t.val = (i 0).val / 512 := rfl
  obtain ⟨-, -, e2, e3, -⟩ := idx_facts t
  refine ⟨t, flush0_9 t, ?_⟩
  rw [mem_blk9]
  intro a
  match a with
  | ⟨0, _⟩ => show win0_9.index t (0 : Fin 2) * 512 ≤ (i 0).val ∧ (i 0).val < win0_9.index t (0 : Fin 2) * 512 + 512; omega
  | ⟨1, _⟩ => show win0_9.index t (1 : Fin 2) * 1 ≤ (i 1).val ∧ (i 1).val < win0_9.index t (1 : Fin 2) * 1 + 1; omega

/-- THE ARRAY after the run: entry (r, 0) of the output is the row function of row r of the feature array as the call
    finds it and of the eight whole tables as the call finds them. -/
theorem final9 (c : Dev nD) (R : (Fin 2668 → EReal) → Vec Ideal S1x129 .bf16 → Vec Ideal S2x129 .bf16 → Vec Ideal S21x129 .bf16 → Vec Ideal S19x129 .bf16 → Vec Ideal S943x129 .bf16 → Vec Ideal S1729x129 .bf16 → Vec Ideal S1x1 .bf16 → Vec Ideal S1x1 .f32 → EReal)
    (hR : ∀ x0 x1 x2 x3 x4 x5 x6 x7 x8 (p : Fin 512), out0_9 (F := Ideal) x0 x1 x2 x3 x4 x5 x6 x7 x8 (ix2 p (0 : Fin 1))
      = R (fun k => x0 (ix2 p k)) x1 x2 x3 x4 x5 x6 x7 x8) :
    (dats m 0 c).arrAt 9 cfg0.N = fun i => R (fun k => V m c main_arg0 (ix2 (⟨(i 0).val, idx2_lt0 i⟩ : Fin 32768) k))
      (V m c main_v2) (V m c main_v6) (V m c main_v10) (V m c main_v14) (V m c main_v18) (V m c main_v24)
      (V m c main_v27) (V m c main_v28) :=
  (dats m 0 c).arrAt_eq_of_cover 9 (G9 m c R) (fun t _ => flushed9_eq m c R hR t) cover9

end Cert.KernelIdeal.Hand

end
-- ==== Proof.KernelRun.lean ====
/-
  The kernel program's run with the output array named: after the run the output buffer holds the array the
  pipelined call leaves (the blocks written back in point order), and every argument holds what it held at launch
  (the feature matrix is staged by an input window and never written back; no window touches the other arguments).
-/
import proofs.«124395_j4372276707424_2_alg».proof.Proof.FrameIdeal
import proofs.«124395_j4372276707424_2_alg».proof.Proof.KernelArray

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- After the run, the output buffer holds the array the pipelined call leaves. -/
theorem post9 (r : PUnit × MemSt nD τ sig (Elt Ideal)) (h : Pipeline.FramePost cfgs (dats m) 0 (V m) r) (c : Dev nD) :
    r.2.mem ((c.tc : Thread nD τ).loc main_v29) = (dats m 0 c).arrAt 9 cfg0.N :=
  (h c).1 9

/-- After the run, the feature matrix is as launched: input window 0 stages it and never writes it back. -/
theorem kept_main_arg0 (r : PUnit × MemSt nD τ sig (Elt Ideal)) (h : Pipeline.FramePost cfgs (dats m) 0 (V m) r) (c : Dev nD) :
    r.2.mem ((c.tc : Thread nD τ).loc main_arg0) = m ((c.tc : Thread nD τ).loc main_arg0) :=
  ((h c).1 0).trans (((dats m 0 c).arrAt_in 0 rfl _).trans ((A_eq m c 0).trans (V_main_arg0 m c)))

/-- After the run, argument 1 is as launched: no window stages it. -/
theorem kept_main_arg1 (r : PUnit × MemSt nD τ sig (Elt Ideal)) (h : Pipeline.FramePost cfgs (dats m) 0 (V m) r) (c : Dev nD) :
    r.2.mem ((c.tc : Thread nD τ).loc main_arg1) = m ((c.tc : Thread nD τ).loc main_arg1) :=
  ((h c).2 main_arg1 (Pipeline.mem_restRefs_of main_arg1 (by decide) (by decide))).trans (V_main_arg1 m c)

/-- After the run, argument 2 is as launched: no window stages it. -/
theorem kept_main_arg2 (r : PUnit × MemSt nD τ sig (Elt Ideal)) (h : Pipeline.FramePost cfgs (dats m) 0 (V m) r) (c : Dev nD) :
    r.2.mem ((c.tc : Thread nD τ).loc main_arg2) = m ((c.tc : Thread nD τ).loc main_arg2) :=
  ((h c).2 main_arg2 (Pipeline.mem_restRefs_of main_arg2 (by decide) (by decide))).trans (V_main_arg2 m c)

/-- After the run, argument 3 is as launched: no window stages it. -/
theorem kept_main_arg3 (r : PUnit × MemSt nD τ sig (Elt Ideal)) (h : Pipeline.FramePost cfgs (dats m) 0 (V m) r) (c : Dev nD) :
    r.2.mem ((c.tc : Thread nD τ).loc main_arg3) = m ((c.tc : Thread nD τ).loc main_arg3) :=
  ((h c).2 main_arg3 (Pipeline.mem_restRefs_of main_arg3 (by decide) (by decide))).trans (V_main_arg3 m c)

/-- After the run, argument 4 is as launched: no window stages it. -/
theorem kept_main_arg4 (r : PUnit × MemSt nD τ sig (Elt Ideal)) (h : Pipeline.FramePost cfgs (dats m) 0 (V m) r) (c : Dev nD) :
    r.2.mem ((c.tc : Thread nD τ).loc main_arg4) = m ((c.tc : Thread nD τ).loc main_arg4) :=
  ((h c).2 main_arg4 (Pipeline.mem_restRefs_of main_arg4 (by decide) (by decide))).trans (V_main_arg4 m c)

/-- After the run, argument 5 is as launched: no window stages it. -/
theorem kept_main_arg5 (r : PUnit × MemSt nD τ sig (Elt Ideal)) (h : Pipeline.FramePost cfgs (dats m) 0 (V m) r) (c : Dev nD) :
    r.2.mem ((c.tc : Thread nD τ).loc main_arg5) = m ((c.tc : Thread nD τ).loc main_arg5) :=
  ((h c).2 main_arg5 (Pipeline.mem_restRefs_of main_arg5 (by decide) (by decide))).trans (V_main_arg5 m c)

/-- After the run, argument 6 is as launched: no window stages it. -/
theorem kept_main_arg6 (r : PUnit × MemSt nD τ sig (Elt Ideal)) (h : Pipeline.FramePost cfgs (dats m) 0 (V m) r) (c : Dev nD) :
    r.2.mem ((c.tc : Thread nD τ).loc main_arg6) = m ((c.tc : Thread nD τ).loc main_arg6) :=
  ((h c).2 main_arg6 (Pipeline.mem_restRefs_of main_arg6 (by decide) (by decide))).trans (V_main_arg6 m c)

/-- After the run, argument 7 is as launched: no window stages it. -/
theorem kept_main_arg7 (r : PUnit × MemSt nD τ sig (Elt Ideal)) (h : Pipeline.FramePost cfgs (dats m) 0 (V m) r) (c : Dev nD) :
    r.2.mem ((c.tc : Thread nD τ).loc main_arg7) = m ((c.tc : Thread nD τ).loc main_arg7) :=
  ((h c).2 main_arg7 (Pipeline.mem_restRefs_of main_arg7 (by decide) (by decide))).trans (V_main_arg7 m c)

/-- After the run, argument 8 is as launched: no window stages it. -/
theorem kept_main_arg8 (r : PUnit × MemSt nD τ sig (Elt Ideal)) (h : Pipeline.FramePost cfgs (dats m) 0 (V m) r) (c : Dev nD) :
    r.2.mem ((c.tc : Thread nD τ).loc main_arg8) = m ((c.tc : Thread nD τ).loc main_arg8) :=
  ((h c).2 main_arg8 (Pipeline.mem_restRefs_of main_arg8 (by decide) (by decide))).trans (V_main_arg8 m c)

/-- After the run, argument 9 is as launched: no window stages it. -/
theorem kept_main_arg9 (r : PUnit × MemSt nD τ sig (Elt Ideal)) (h : Pipeline.FramePost cfgs (dats m) 0 (V m) r) (c : Dev nD) :
    r.2.mem ((c.tc : Thread nD τ).loc main_arg9) = m ((c.tc : Thread nD τ).loc main_arg9) :=
  ((h c).2 main_arg9 (Pipeline.mem_restRefs_of main_arg9 (by decide) (by decide))).trans (V_main_arg9 m c)

/-- After the run, argument 10 is as launched: no window stages it. -/
theorem kept_main_arg10 (r : PUnit × MemSt nD τ sig (Elt Ideal)) (h : Pipeline.FramePost cfgs (dats m) 0 (V m) r) (c : Dev nD) :
    r.2.mem ((c.tc : Thread nD τ).loc main_arg10) = m ((c.tc : Thread nD τ).loc main_arg10) :=
  ((h c).2 main_arg10 (Pipeline.mem_restRefs_of main_arg10 (by decide) (by decide))).trans (V_main_arg10 m c)

/-- After the run, argument 11 is as launched: no window stages it. -/
theorem kept_main_arg11 (r : PUnit × MemSt nD τ sig (Elt Ideal)) (h : Pipeline.FramePost cfgs (dats m) 0 (V m) r) (c : Dev nD) :
    r.2.mem ((c.tc : Thread nD τ).loc main_arg11) = m ((c.tc : Thread nD τ).loc main_arg11) :=
  ((h c).2 main_arg11 (Pipeline.mem_restRefs_of main_arg11 (by decide) (by decide))).trans (V_main_arg11 m c)

/-- After the run, argument 12 is as launched: no window stages it. -/
theorem kept_main_arg12 (r : PUnit × MemSt nD τ sig (Elt Ideal)) (h : Pipeline.FramePost cfgs (dats m) 0 (V m) r) (c : Dev nD) :
    r.2.mem ((c.tc : Thread nD τ).loc main_arg12) = m ((c.tc : Thread nD τ).loc main_arg12) :=
  ((h c).2 main_arg12 (Pipeline.mem_restRefs_of main_arg12 (by decide) (by decide))).trans (V_main_arg12 m c)

/-- After the run, argument 13 is as launched: no window stages it. -/
theorem kept_main_arg13 (r : PUnit × MemSt nD τ sig (Elt Ideal)) (h : Pipeline.FramePost cfgs (dats m) 0 (V m) r) (c : Dev nD) :
    r.2.mem ((c.tc : Thread nD τ).loc main_arg13) = m ((c.tc : Thread nD τ).loc main_arg13) :=
  ((h c).2 main_arg13 (Pipeline.mem_restRefs_of main_arg13 (by decide) (by decide))).trans (V_main_arg13 m c)

/-- After the run, argument 14 is as launched: no window stages it. -/
theorem kept_main_arg14 (r : PUnit × MemSt nD τ sig (Elt Ideal)) (h : Pipeline.FramePost cfgs (dats m) 0 (V m) r) (c : Dev nD) :
    r.2.mem ((c.tc : Thread nD τ).loc main_arg14) = m ((c.tc : Thread nD τ).loc main_arg14) :=
  ((h c).2 main_arg14 (Pipeline.mem_restRefs_of main_arg14 (by decide) (by decide))).trans (V_main_arg14 m c)

/-- The run with the output array named and the fifteen arguments unchanged. -/
theorem run_blocks : θ_run defs (onTc (τ := τ) (main (F := Ideal))) ⟨m, fun _ => 0, ρ⟩ (fun r => ∀ c : Dev nD,
      r.2.mem ((c.tc : Thread nD τ).loc main_v29) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨post9 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c⟩)
    (run_main m ρ)

end Cert.KernelIdeal.Hand

end
-- ==== Proof.Spec.lean ====
/-
  The mathematics both programs compute, one row of the feature matrix at a time, on the extended reals.

  A row `x` of 2668 features is cut into fields: user id (columns 0..942), item id (943..2624), one gap column
  (2625), age (2626), gender (2626..2627: the age column is used again), occupation (2628..2648) and movie
  (2649..2667). Every field has a "user" and an "item" embedding table of width 64; a field's embedding of the row
  is the product of its columns with its table. The output is the logistic function of

      (sum over all 2668 columns of x k * lw k) + b + sum over the 64 embedding coordinates of fifteen pair products.

  `refRow` writes this with one table per field and side, as the reference does. `kerRow` writes it as the kernel
  does: per field ONE table of width 129 = [user | item | that field's slice of lw], the linear term gathered from
  column 128 of the six products plus the gap column, and the item-id field read from column 896 on against a table
  whose first 47 rows are zero.
-/
import Idealize.ShloMosaic.PureOps.Ideal

noncomputable section

namespace Cert.FFM

open Idealize.ShloMosaic

/-- The fifteen field-pair products at one embedding coordinate, summed left to right in the order both programs use. -/
def pairSum (au ai gu gi ou oi mu mi uu ui tu ti : EReal) : EReal :=
  au * gu + au * ou + ai * mu + au * uu + ai * tu + gu * ou + gi * mu + gu * uu + gi * tu
    + oi * mu + ou * uu + oi * tu + mu * ui + mi * ti + ui * tu

/-- Columns `o, o+1, …, o+n-1` of the row against column `q` of an `n × w` table. -/
def fieldDot {n w : Nat} (x : Fin 2668 → EReal) (o : Nat) (h : o + n ≤ 2668) (T : Fin n → Fin w → EReal) (q : Fin w) : EReal :=
  ∑ k : Fin n, x ⟨o + k.val, by omega⟩ * T k q

/-- The reference's value of one row. -/
def refRow (x : Fin 2668 → EReal)
    (ageU ageI : Fin 1 → Fin 64 → EReal) (genU genI : Fin 2 → Fin 64 → EReal)
    (occU occI : Fin 21 → Fin 64 → EReal) (movU movI : Fin 19 → Fin 64 → EReal)
    (usrU usrI : Fin 943 → Fin 64 → EReal) (itmU itmI : Fin 1682 → Fin 64 → EReal)
    (lw : Fin 2668 → EReal) (b : EReal) : EReal :=
  Ideal.logistic (((∑ k : Fin 2668, x k * lw k) + b)
    + ∑ d : Fin 64, pairSum
        (fieldDot x 2626 (by omega) ageU d) (fieldDot x 2626 (by omega) ageI d)
        (fieldDot x 2626 (by omega) genU d) (fieldDot x 2626 (by omega) genI d)
        (fieldDot x 2628 (by omega) occU d) (fieldDot x 2628 (by omega) occI d)
        (fieldDot x 2649 (by omega) movU d) (fieldDot x 2649 (by omega) movI d)
        (fieldDot x 0 (by omega) usrU d) (fieldDot x 0 (by omega) usrI d)
        (fieldDot x 943 (by omega) itmU d) (fieldDot x 943 (by omega) itmI d))

/-- Column `d` of a width-129 table, and column `64 + d`, and the last column. -/
def lo (d : Fin 64) : Fin 129 := ⟨d.val, by omega⟩
def hi (d : Fin 64) : Fin 129 := ⟨64 + d.val, by omega⟩
def last : Fin 129 := ⟨128, by omega⟩

/-- The kernel's value of one row, from the six width-129 tables, the gap column's weight `g` and the bias `b`. -/
def kerRow (x : Fin 2668 → EReal)
    (T1 : Fin 1 → Fin 129 → EReal) (T2 : Fin 2 → Fin 129 → EReal) (T3 : Fin 21 → Fin 129 → EReal)
    (T4 : Fin 19 → Fin 129 → EReal) (T5 : Fin 943 → Fin 129 → EReal) (T6 : Fin 1729 → Fin 129 → EReal)
    (g b : EReal) : EReal :=
  Ideal.logistic ((((((((fieldDot x 2626 (by omega) T1 last + fieldDot x 2626 (by omega) T2 last)
      + fieldDot x 2628 (by omega) T3 last) + fieldDot x 2649 (by omega) T4 last) + fieldDot x 0 (by omega) T5 last)
      + fieldDot x 896 (by omega) T6 last) + x ⟨2625, by omega⟩ * g) + b)
    + ∑ d : Fin 64, pairSum
        (fieldDot x 2626 (by omega) T1 (lo d)) (fieldDot x 2626 (by omega) T1 (hi d))
        (fieldDot x 2626 (by omega) T2 (lo d)) (fieldDot x 2626 (by omega) T2 (hi d))
        (fieldDot x 2628 (by omega) T3 (lo d)) (fieldDot x 2628 (by omega) T3 (hi d))
        (fieldDot x 2649 (by omega) T4 (lo d)) (fieldDot x 2649 (by omega) T4 (hi d))
        (fieldDot x 0 (by omega) T5 (lo d)) (fieldDot x 0 (by omega) T5 (hi d))
        (fieldDot x 896 (by omega) T6 (lo d)) (fieldDot x 896 (by omega) T6 (hi d)))

/-- A field's width-129 table: the user table, the item table and one more column, side by side. -/
def cat3 {n : Nat} (U I : Fin n → Fin 64 → EReal) (l : Fin n → EReal) : Fin n → Fin 129 → EReal :=
  fun k q => if h : q.val < 64 then U k ⟨q.val, h⟩ else if h2 : q.val < 128 then I k ⟨q.val - 64, by omega⟩ else l k

/-- 47 rows of zeros on top of a 1682-row table. -/
def padTop (T : Fin 1682 → Fin 129 → EReal) : Fin 1729 → Fin 129 → EReal :=
  fun k q => if h : k.val < 47 then 0 else T ⟨k.val - 47, by omega⟩ q

end Cert.FFM

end
-- ==== Proof.Payload.lean ====
/-
  The value the kernel body stores, read at row `p` of its 512 × 1 output block, at the extended reals.

  Every loaded column slice of the feature block at `(p, k)` is the block at `(p, o + k)` for the slice's first column
  `o`; every table is loaded whole. Narrowing to a shorter float format and a shape cast to the same shape change no
  value. A block product accumulated into zeros, at `(p, q)`, is the sum over the contraction coordinate `k` of the left
  operand at `(p, k)` times the right at `(k, q)`; so each field's product, at column `q`, is that field's `fieldDot`.
  The slices of a product at columns 0..63, 64..127 and 128 read it at `lo d`, `hi d` and `last`; the sum along the
  64 lanes is the sum over `d` of the fifteen pair products; and the stored value is the logistic function of the six
  last columns, the gap column's product, the bias and that sum, associated as `kerRow` writes them.
-/
import proofs.«124395_j4372276707424_2_alg».proof.Proof.BodyIdeal
import proofs.«124395_j4372276707424_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Idealize.ShloMosaic Idealize.ShloMosaic.TcCoe Idealize.SL.Sem
open Cert.KernelIdeal Cert.KernelIdeal.Gen
open Idealize.ShloMosaic.ValueIdx
open Cert.FFM

/-- A load through a unit-stride rectangle of all 512 rows and `n` columns from column `o` reads the block at `(p, o + k)`. -/
theorem ld_cols {n : Nat} (o : Nat) (x0 : Vec Ideal S512x2668 .f32)
    (inb : ∀ a, (![0, o] : Fin 2 → Nat) a + (⟨2, ![512, n]⟩ : Shape).size a ≤ S512x2668.size a)
    (p : Fin 512) (k : Fin n) (h : o + k.val < 2668) :
    View.ld x0 (Rect.unit (s := S512x2668) ![0, o] (⟨2, ![512, n]⟩ : Shape).size inb) (ix2 p k) = x0 (ix2 p ⟨o + k.val, h⟩) := by
  show x0 _ = x0 _
  congr 1
  funext a
  apply Fin.ext
  match a with
  | ⟨0, _⟩ => show 0 + 1 * p.val = p.val; omega
  | ⟨1, _⟩ => show o + 1 * k.val = o + k.val; omega

/-- A product of an `M × K` by a `K × N` block accumulated into the zero block, read at `(p, q)`, is the sum over the one
    contraction coordinate `k` of the left operand at `(p, k)` times the right at `(k, q)`. The six hypotheses say what the
    dimension numbers' operand indices are, coordinate by coordinate. -/
theorem dot2_apply {M K N : Nat} {φ₁ φ₂ : FTy} (D : DotDims ⟨2, ![M, K]⟩ ⟨2, ![K, N]⟩ ⟨2, ![M, N]⟩)
    (hr : D.contr.rank = 1) (hs : D.contr.size ⟨0, by omega⟩ = K)
    (l0 : ∀ i q, (D.lhsIdx i q 0).val = (i 0).val)
    (l1 : ∀ i q, (D.lhsIdx i q 1).val = (q ⟨0, by omega⟩).val)
    (r0 : ∀ i q, (D.rhsIdx i q 0).val = (q ⟨0, by omega⟩).val)
    (r1 : ∀ i q, (D.rhsIdx i q 1).val = (i 1).val)
    (prec : Option ContractPrecision) (lhs : FVec Ideal ⟨2, ![M, K]⟩ φ₁) (rhs : FVec Ideal ⟨2, ![K, N]⟩ φ₂)
    (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact l0 _ _
    | ⟨1, _⟩ => exact (l1 _ _).trans hk)
  have er : D.rhsIdx (ix2 p q) ((contrEquiv1 D K hr hs).symm k) = ix2 k q := funext fun a => Fin.ext (by
    match a with
    | ⟨0, _⟩ => exact (r0 _ _).trans hk
    | ⟨1, _⟩ => exact r1 _ _)
  rw [el, er]

/-! The seven block products of the body, each read at `(p, q)` as a sum over its contraction coordinate. -/

theorem pay4_apply (v6 : Vec Ideal S512x1 .f32) (v14 : Vec Ideal S1x129 .bf16) (p : Fin 512) (q : Fin 129) :
    k0_pay4 (F := Ideal) v6 v14 (ix2 p q) = ∑ k : Fin 1, v6 (ix2 p k) * v14 (ix2 k q) := by
  unfold k0_pay4
  simp only [matmul]
  rw [shapeCast_self]
  exact dot2_apply dot_S512x1_S1x129_S512x129_1_0_0_1_n_n rfl rfl
    (fun i q => by
      unfold DotDims.lhsIdx
      rw [dif_neg (show ¬(0 : Fin S512x1.rank) ∈ dot_S512x1_S1x129_S512x129_1_0_0_1_n_n.lhsBatch by decide),
        dif_pos (show (0 : Fin S512x1.rank) ∈ dot_S512x1_S1x129_S512x129_1_0_0_1_n_n.lhsNonContracting by decide)]
      rfl)
    (dot_S512x1_S1x129_S512x129_1_0_0_1_n_n.lhsIdx_val_of_single rfl)
    (dot_S512x1_S1x129_S512x129_1_0_0_1_n_n.rhsIdx_val_of_single rfl)
    (fun i q => by
      unfold DotDims.rhsIdx
      rw [dif_neg (show ¬(1 : Fin S1x129.rank) ∈ dot_S512x1_S1x129_S512x129_1_0_0_1_n_n.rhsBatch by decide),
        dif_pos (show (1 : Fin S1x129.rank) ∈ dot_S512x1_S1x129_S512x129_1_0_0_1_n_n.rhsNonContracting by decide)]
      rfl)
    none _ _ p q

theorem pay5_apply (v8 : Vec Ideal S512x2 .f32) (v17 : Vec Ideal S2x129 .bf16) (p : Fin 512) (q : Fin 129) :
    k0_pay5 (F := Ideal) v8 v17 (ix2 p q) = ∑ k : Fin 2, v8 (ix2 p k) * v17 (ix2 k q) := by
  unfold k0_pay5
  simp only [matmul]
  rw [shapeCast_self]
  exact dot2_apply dot_S512x2_S2x129_S512x129_1_0_0_1_n_n rfl rfl
    (fun i q => by
      unfold DotDims.lhsIdx
      rw [dif_neg (show ¬(0 : Fin S512x2.rank) ∈ dot_S512x2_S2x129_S512x129_1_0_0_1_n_n.lhsBatch by decide),
        dif_pos (show (0 : Fin S512x2.rank) ∈ dot_S512x2_S2x129_S512x129_1_0_0_1_n_n.lhsNonContracting by decide)]
      rfl)
    (dot_S512x2_S2x129_S512x129_1_0_0_1_n_n.lhsIdx_val_of_single rfl)
    (dot_S512x2_S2x129_S512x129_1_0_0_1_n_n.rhsIdx_val_of_single rfl)
    (fun i q => by
      unfold DotDims.rhsIdx
      rw [dif_neg (show ¬(1 : Fin S2x129.rank) ∈ dot_S512x2_S2x129_S512x129_1_0_0_1_n_n.rhsBatch by decide),
        dif_pos (show (1 : Fin S2x129.rank) ∈ dot_S512x2_S2x129_S512x129_1_0_0_1_n_n.rhsNonContracting by decide)]
      rfl)
    none _ _ p q

theorem pay6_apply (v10 : Vec Ideal S512x21 .f32) (v20 : Vec Ideal S21x129 .bf16) (p : Fin 512) (q : Fin 129) :
    k0_pay6 (F := Ideal) v10 v20 (ix2 p q) = ∑ k : Fin 21, v10 (ix2 p k) * v20 (ix2 k q) := by
  unfold k0_pay6
  simp only [matmul]
  rw [shapeCast_self]
  exact dot2_apply dot_S512x21_S21x129_S512x129_1_0_0_1_n_n rfl rfl
    (fun i q => by
      unfold DotDims.lhsIdx
      rw [dif_neg (show ¬(0 : Fin S512x21.rank) ∈ dot_S512x21_S21x129_S512x129_1_0_0_1_n_n.lhsBatch by decide),
        dif_pos (show (0 : Fin S512x21.rank) ∈ dot_S512x21_S21x129_S512x129_1_0_0_1_n_n.lhsNonContracting by decide)]
      rfl)
    (dot_S512x21_S21x129_S512x129_1_0_0_1_n_n.lhsIdx_val_of_single rfl)
    (dot_S512x21_S21x129_S512x129_1_0_0_1_n_n.rhsIdx_val_of_single rfl)
    (fun i q => by
      unfold DotDims.rhsIdx
      rw [dif_neg (show ¬(1 : Fin S21x129.rank) ∈ dot_S512x21_S21x129_S512x129_1_0_0_1_n_n.rhsBatch by decide),
        dif_pos (show (1 : Fin S21x129.rank) ∈ dot_S512x21_S21x129_S512x129_1_0_0_1_n_n.rhsNonContracting by decide)]
      rfl)
    none _ _ p q

theorem pay7_apply (v12 : Vec Ideal S512x19 .f32) (v23 : Vec Ideal S19x129 .bf16) (p : Fin 512) (q : Fin 129) :
    k0_pay7 (F := Ideal) v12 v23 (ix2 p q) = ∑ k : Fin 19, v12 (ix2 p k) * v23 (ix2 k q) := by
  unfold k0_pay7
  simp only [matmul]
  rw [shapeCast_self]
  exact dot2_apply dot_S512x19_S19x129_S512x129_1_0_0_1_n_n rfl rfl
    (fun i q => by
      unfold DotDims.lhsIdx
      rw [dif_neg (show ¬(0 : Fin S512x19.rank) ∈ dot_S512x19_S19x129_S512x129_1_0_0_1_n_n.lhsBatch by decide),
        dif_pos (show (0 : Fin S512x19.rank) ∈ dot_S512x19_S19x129_S512x129_1_0_0_1_n_n.lhsNonContracting by decide)]
      rfl)
    (dot_S512x19_S19x129_S512x129_1_0_0_1_n_n.lhsIdx_val_of_single rfl)
    (dot_S512x19_S19x129_S512x129_1_0_0_1_n_n.rhsIdx_val_of_single rfl)
    (fun i q => by
      unfold DotDims.rhsIdx
      rw [dif_neg (show ¬(1 : Fin S19x129.rank) ∈ dot_S512x19_S19x129_S512x129_1_0_0_1_n_n.rhsBatch by decide),
        dif_pos (show (1 : Fin S19x129.rank) ∈ dot_S512x19_S19x129_S512x129_1_0_0_1_n_n.rhsNonContracting by decide)]
      rfl)
    none _ _ p q

theorem pay8_apply (v0 : Vec Ideal S512x943 .f32) (v26 : Vec Ideal S943x129 .bf16) (p : Fin 512) (q : Fin 129) :
    k0_pay8 (F := Ideal) v0 v26 (ix2 p q) = ∑ k : Fin 943, v0 (ix2 p k) * v26 (ix2 k q) := by
  unfold k0_pay8
  simp only [matmul]
  rw [shapeCast_self]
  exact dot2_apply dot_S512x943_S943x129_S512x129_1_0_0_1_n_n rfl rfl
    (fun i q => by
      unfold DotDims.lhsIdx
      rw [dif_neg (show ¬(0 : Fin S512x943.rank) ∈ dot_S512x943_S943x129_S512x129_1_0_0_1_n_n.lhsBatch by decide),
        dif_pos (show (0 : Fin S512x943.rank) ∈ dot_S512x943_S943x129_S512x129_1_0_0_1_n_n.lhsNonContracting by decide)]
      rfl)
    (dot_S512x943_S943x129_S512x129_1_0_0_1_n_n.lhsIdx_val_of_single rfl)
    (dot_S512x943_S943x129_S512x129_1_0_0_1_n_n.rhsIdx_val_of_single rfl)
    (fun i q => by
      unfold DotDims.rhsIdx
      rw [dif_neg (show ¬(1 : Fin S943x129.rank) ∈ dot_S512x943_S943x129_S512x129_1_0_0_1_n_n.rhsBatch by decide),
        dif_pos (show (1 : Fin S943x129.rank) ∈ dot_S512x943_S943x129_S512x129_1_0_0_1_n_n.rhsNonContracting by decide)]
      rfl)
    none _ _ p q

theorem pay9_apply (v3 : FVec Ideal S512x1729 .bf16) (v29 : Vec Ideal S1729x129 .bf16) (p : Fin 512) (q : Fin 129) :
    k0_pay9 (F := Ideal) v3 v29 (ix2 p q) = ∑ k : Fin 1729, v3 (ix2 p k) * v29 (ix2 k q) := by
  unfold k0_pay9
  simp only [matmul]
  rw [shapeCast_self]
  exact dot2_apply dot_S512x1729_S1729x129_S512x129_1_0_0_1_n_n rfl rfl
    (fun i q => by
      unfold DotDims.lhsIdx
      rw [dif_neg (show ¬(0 : Fin S512x1729.rank) ∈ dot_S512x1729_S1729x129_S512x129_1_0_0_1_n_n.lhsBatch by decide),
        dif_pos (show (0 : Fin S512x1729.rank) ∈ dot_S512x1729_S1729x129_S512x129_1_0_0_1_n_n.lhsNonContracting by decide)]
      rfl)
    (dot_S512x1729_S1729x129_S512x129_1_0_0_1_n_n.lhsIdx_val_of_single rfl)
    (dot_S512x1729_S1729x129_S512x129_1_0_0_1_n_n.rhsIdx_val_of_single rfl)
    (fun i q => by
      unfold DotDims.rhsIdx
      rw [dif_neg (show ¬(1 : Fin S1729x129.rank) ∈ dot_S512x1729_S1729x129_S512x129_1_0_0_1_n_n.rhsBatch by decide),
        dif_pos (show (1 : Fin S1729x129.rank) ∈ dot_S512x1729_S1729x129_S512x129_1_0_0_1_n_n.rhsNonContracting by decide)]
      rfl)
    none _ _ p q

theorem pay11_apply (v5 : FVec Ideal S512x1 .bf16) (v75 : Vec Ideal S1x1 .bf16) (p : Fin 512) (q : Fin 1) :
    k0_pay11 (F := Ideal) v5 v75 (ix2 p q) = ∑ k : Fin 1, v5 (ix2 p k) * v75 (ix2 k q) := by
  unfold k0_pay11
  simp only [matmul]
  rw [shapeCast_self]
  exact dot2_apply dot_S512x1_S1x1_S512x1_1_0_0_1_n_n rfl rfl
    (fun i q => by
      unfold DotDims.lhsIdx
      rw [dif_neg (show ¬(0 : Fin S512x1.rank) ∈ dot_S512x1_S1x1_S512x1_1_0_0_1_n_n.lhsBatch by decide),
        dif_pos (show (0 : Fin S512x1.rank) ∈ dot_S512x1_S1x1_S512x1_1_0_0_1_n_n.lhsNonContracting by decide)]
      rfl)
    (dot_S512x1_S1x1_S512x1_1_0_0_1_n_n.lhsIdx_val_of_single rfl)
    (dot_S512x1_S1x1_S512x1_1_0_0_1_n_n.rhsIdx_val_of_single rfl)
    (fun i q => by
      unfold DotDims.rhsIdx
      rw [dif_neg (show ¬(1 : Fin S1x1.rank) ∈ dot_S512x1_S1x1_S512x1_1_0_0_1_n_n.rhsBatch by decide),
        dif_pos (show (1 : Fin S1x1.rank) ∈ dot_S512x1_S1x1_S512x1_1_0_0_1_n_n.rhsNonContracting by decide)]
      rfl)
    none _ _ p q

/-! The three column slices of a 512 × 129 product: columns `d`, `64 + d` and `128`. -/

theorem sliceLo_apply (v : FVec Ideal S512x129 .f32) (h : S512x129.Slices ![0, 0] S512x64) (p : Fin 512) (d : Fin 64) :
    extractStridedSlice S512x64 ![0, 0] v h (ix2 p d) = v (ix2 p (lo d)) :=
  slice2_axis1_apply 0 v h p d (lo d) (by show d.val = 0 + d.val; omega)

theorem sliceHi_apply (v : FVec Ideal S512x129 .f32) (h : S512x129.Slices ![0, 64] S512x64) (p : Fin 512) (d : Fin 64) :
    extractStridedSlice S512x64 ![0, 64] v h (ix2 p d) = v (ix2 p (hi d)) :=
  slice2_axis1_apply 64 v h p d (hi d) rfl

theorem sliceLast_apply (v : FVec Ideal S512x129 .f32) (h : S512x129.Slices ![0, 128] S512x1) (p : Fin 512) :
    extractStridedSlice S512x1 ![0, 128] v h (ix2 p (0 : Fin 1)) = v (ix2 p last) :=
  slice2_axis1_apply 128 v h p 0 last rfl

/-- The one entry of a 1 × 1 block. -/
theorem extractAt00 {α : Type} (v : S1x1.Idx → α) (h : ∀ a, (![0, 0] : Fin 2 → Nat) a < S1x1.size a) :
    extractAt ![0, 0] v h = v (ix2 (0 : Fin 1) (0 : Fin 1)) :=
  congrArg v (funext fun a => by match a with | ⟨0, _⟩ => rfl | ⟨1, _⟩ => rfl)

/-- The sum of the last columns of the first three products. -/
theorem pay12_apply (v16 v19 v22 : FVec Ideal S512x129 .f32) (p : Fin 512) :
    k0_pay12 (F := Ideal) v16 v19 v22 (ix2 p (0 : Fin 1)) = (v16 (ix2 p last) + v19 (ix2 p last)) + v22 (ix2 p last) := by
  unfold k0_pay12
  simp only [addf_apply, sliceLast_apply]

/-- The stored value: the logistic function of the linear terms, the bias and the lane sum, added in this order. -/
theorem pay1_apply (v25 v28 v31 : FVec Ideal S512x129 .f32) (v74 v77 v82 : FVec Ideal S512x1 .f32) (v90 : Vec Ideal S1x1 .f32) (p : Fin 512) :
    k0_pay1 (F := Ideal) v25 v28 v31 v74 v77 v82 v90 (ix2 p (0 : Fin 1))
      = Ideal.logistic ((((((v82 (ix2 p (0 : Fin 1)) + v25 (ix2 p last)) + v28 (ix2 p last)) + v31 (ix2 p last))
          + v77 (ix2 p (0 : Fin 1))) + v90 (ix2 (0 : Fin 1) (0 : Fin 1))) + v74 (ix2 p (0 : Fin 1))) := by
  unfold k0_pay1
  simp only [logistic, addf_apply, sliceLast_apply, broadcast_apply, extractAt00, Ideal.logistic_def]

/-- The lane sum: over the 64 embedding coordinates `d`, the fifteen pair products of the six products' columns `d` and
    `64 + d`. The reduced vector's entry `p` is read through the cast that appends a unit axis. -/
theorem pay10_apply (v3 : FVec Ideal S512x1729 .bf16) (v16 v19 v22 v25 v28 : FVec Ideal S512x129 .f32) (v29 : Vec Ideal S1729x129 .bf16) (p : Fin 512) :
    k0_pay10 (F := Ideal) v3 v16 v19 v22 v25 v28 v29 (ix2 p (0 : Fin 1))
      = ∑ d : Fin 64, pairSum (v16 (ix2 p (lo d))) (v16 (ix2 p (hi d))) (v19 (ix2 p (lo d))) (v19 (ix2 p (hi d)))
          (v22 (ix2 p (lo d))) (v22 (ix2 p (hi d))) (v25 (ix2 p (lo d))) (v25 (ix2 p (hi d)))
          (v28 (ix2 p (lo d))) (v28 (ix2 p (hi d)))
          (k0_pay9 (F := Ideal) v3 v29 (ix2 p (lo d))) (k0_pay9 (F := Ideal) v3 v29 (ix2 p (hi d))) := by
  unfold k0_pay10
  refine (shapeCast_apply _ shapeCasts_S512_S512x1 (ix2 p (0 : Fin 1)) (ix1 p) ?_).trans ?_
  · rw [Shape.rowMajor_val_one, Shape.rowMajor_val_two]; show p.val = p.val * 1 + 0; omega
  refine (Ideal.multiReduction_add_single _ _ reduces_S512x64_S512 _ _ (ix1 p)).trans ?_
  refine Finset.sum_congr rfl ?_
  intro (d : Fin 64) _
  have hl : reduces_S512x64_S512.lift (ix1 p) d = ix2 p d := by
    funext a
    match a with
    | ⟨0, _⟩ => rfl
    | ⟨1, _⟩ => rfl
  rw [hl]
  simp only [addf_apply, mulf_apply, sliceLo_apply, sliceHi_apply]
  rfl

/-- The zero offsets of a whole-block rectangle. -/
theorem off00 : (![0, 0] : Fin 2 → Nat) = fun _ => 0 := by
  funext a
  match a with
  | ⟨0, _⟩ => rfl
  | ⟨1, _⟩ => rfl

/-! Each field's product of its loaded column slice with its loaded table is that field's `fieldDot`. -/

theorem field1 (x0 : Vec Ideal S512x2668 .f32) (x1 : Vec Ideal S1x129 .bf16) (p : Fin 512) (q : Fin 129) :
    k0_pay4 (F := Ideal) (View.ld x0 rAge) (View.ld x1 rT1) (ix2 p q)
      = fieldDot (fun k => x0 (ix2 p k)) 2626 (by omega) (fun k q => x1 (ix2 k q)) q := by
  rw [pay4_apply, View.ld_unit_zero off00]
  unfold fieldDot
  exact Finset.sum_congr rfl fun k _ => congrArg (· * _) (ld_cols 2626 x0 _ p k _)

theorem field2 (x0 : Vec Ideal S512x2668 .f32) (x2 : Vec Ideal S2x129 .bf16) (p : Fin 512) (q : Fin 129) :
    k0_pay5 (F := Ideal) (View.ld x0 rGen) (View.ld x2 rT2) (ix2 p q)
      = fieldDot (fun k => x0 (ix2 p k)) 2626 (by omega) (fun k q => x2 (ix2 k q)) q := by
  rw [pay5_apply, View.ld_unit_zero off00]
  unfold fieldDot
  exact Finset.sum_congr rfl fun k _ => congrArg (· * _) (ld_cols 2626 x0 _ p k _)

theorem field3 (x0 : Vec Ideal S512x2668 .f32) (x3 : Vec Ideal S21x129 .bf16) (p : Fin 512) (q : Fin 129) :
    k0_pay6 (F := Ideal) (View.ld x0 rOcc) (View.ld x3 rT3) (ix2 p q)
      = fieldDot (fun k => x0 (ix2 p k)) 2628 (by omega) (fun k q => x3 (ix2 k q)) q := by
  rw [pay6_apply, View.ld_unit_zero off00]
  unfold fieldDot
  exact Finset.sum_congr rfl fun k _ => congrArg (· * _) (ld_cols 2628 x0 _ p k _)

theorem field4 (x0 : Vec Ideal S512x2668 .f32) (x4 : Vec Ideal S19x129 .bf16) (p : Fin 512) (q : Fin 129) :
    k0_pay7 (F := Ideal) (View.ld x0 rMov) (View.ld x4 rT4) (ix2 p q)
      = fieldDot (fun k => x0 (ix2 p k)) 2649 (by omega) (fun k q => x4 (ix2 k q)) q := by
  rw [pay7_apply, View.ld_unit_zero off00]
  unfold fieldDot
  exact Finset.sum_congr rfl fun k _ => congrArg (· * _) (ld_cols 2649 x0 _ p k _)

theorem field5 (x0 : Vec Ideal S512x2668 .f32) (x5 : Vec Ideal S943x129 .bf16) (p : Fin 512) (q : Fin 129) :
    k0_pay8 (F := Ideal) (View.ld x0 rUsr) (View.ld x5 rT5) (ix2 p q)
      = fieldDot (fun k => x0 (ix2 p k)) 0 (by omega) (fun k q => x5 (ix2 k q)) q := by
  rw [pay8_apply, View.ld_unit_zero off00]
  unfold fieldDot
  exact Finset.sum_congr rfl fun k _ => congrArg (· * _) (ld_cols 0 x0 _ p k _)

theorem field6 (x0 : Vec Ideal S512x2668 .f32) (x6 : Vec Ideal S1729x129 .bf16) (p : Fin 512) (q : Fin 129) :
    k0_pay9 (F := Ideal) (k0_pay2 (View.ld x0 rItm)) (View.ld x6 rT6) (ix2 p q)
      = fieldDot (fun k => x0 (ix2 p k)) 896 (by omega) (fun k q => x6 (ix2 k q)) q := by
  rw [pay9_apply, View.ld_unit_zero off00]
  unfold fieldDot
  exact Finset.sum_congr rfl fun k _ => congrArg (· * _) (ld_cols 896 x0 _ p k _)

/-- The gap column's product: a sum over one contraction coordinate, so one product. -/
theorem gap_apply (x0 : Vec Ideal S512x2668 .f32) (x7 : Vec Ideal S1x1 .bf16) (p : Fin 512) :
    k0_pay11 (F := Ideal) (k0_pay3 (View.ld x0 rGap)) (View.ld x7 rOne) (ix2 p (0 : Fin 1))
      = x0 (ix2 p ⟨2625, by omega⟩) * x7 (ix2 (0 : Fin 1) (0 : Fin 1)) := by
  rw [pay11_apply, Fin.sum_univ_one, View.ld_unit_zero off00]
  exact congrArg (· * _) (ld_cols 2625 x0 _ p 0 _)

/-- Row `p` of the stored block is `kerRow` of row `p` of the feature block, the six tables, the gap weight and the bias. -/
theorem bodyVal_row (x0 : Vec Ideal S512x2668 .f32) (x1 : Vec Ideal S1x129 .bf16) (x2 : Vec Ideal S2x129 .bf16) (x3 : Vec Ideal S21x129 .bf16)
    (x4 : Vec Ideal S19x129 .bf16) (x5 : Vec Ideal S943x129 .bf16) (x6 : Vec Ideal S1729x129 .bf16) (x7 : Vec Ideal S1x1 .bf16) (x8 : Vec Ideal S1x1 .f32)
    (p : Fin 512) :
    bodyVal (F := Ideal) x0 x1 x2 x3 x4 x5 x6 x7 x8 (ix2 p (0 : Fin 1))
      = Cert.FFM.kerRow (fun k => x0 (ix2 p k)) (fun k q => x1 (ix2 k q)) (fun k q => x2 (ix2 k q)) (fun k q => x3 (ix2 k q))
          (fun k q => x4 (ix2 k q)) (fun k q => x5 (ix2 k q)) (fun k q => x6 (ix2 k q)) (x7 (ix2 (0 : Fin 1) (0 : Fin 1))) (x8 (ix2 (0 : Fin 1) (0 : Fin 1))) := by
  unfold bodyVal
  rw [pay1_apply, pay12_apply, pay10_apply, gap_apply, View.ld_unit_zero off00 _ x8]
  simp only [field1, field2, field3, field4, field5, field6]
  rfl

/-- The one store covers the output block, so the block after the body is the stored value. -/
theorem out0_9_row (x0 : Vec Ideal S512x2668 .f32) (x1 : Vec Ideal S1x129 .bf16) (x2 : Vec Ideal S2x129 .bf16) (x3 : Vec Ideal S21x129 .bf16)
    (x4 : Vec Ideal S19x129 .bf16) (x5 : Vec Ideal S943x129 .bf16) (x6 : Vec Ideal S1729x129 .bf16) (x7 : Vec Ideal S1x1 .bf16) (x8 : Vec Ideal S1x1 .f32)
    (p : Fin 512) :
    out0_9 (F := Ideal) x0 x1 x2 x3 x4 x5 x6 x7 x8 (ix2 p (0 : Fin 1))
      = Cert.FFM.kerRow (fun k => x0 (ix2 p k)) (fun k q => x1 (ix2 k q)) (fun k q => x2 (ix2 k q)) (fun k q => x3 (ix2 k q))
          (fun k q => x4 (ix2 k q)) (fun k q => x5 (ix2 k q)) (fun k q => x6 (ix2 k q)) (x7 (ix2 (0 : Fin 1) (0 : Fin 1))) (x8 (ix2 (0 : Fin 1) (0 : Fin 1))) := by
  unfold out0_9
  rw [View.canon_unit_zero off00]
  exact bodyVal_row x0 x1 x2 x3 x4 x5 x6 x7 x8 p

end Cert.KernelIdeal.Hand

end
-- ==== Proof.SpecArray.lean ====
/-
  The whole result array as one function of the fifteen argument arrays: entry (r, 0) is the reference's value
  `Cert.FFM.refRow` of row r of the feature matrix, against the twelve embedding tables, the linear weights and the bias.
-/
import proofs.«124395_j4372276707424_2_alg».proof.Proof.Spec
import Idealize.ShloMosaic.Lib.ValueIdx

noncomputable section

namespace Cert.FFM

open Idealize.ShloMosaic Idealize.ShloMosaic.ValueIdx

/-- An `[n, w]` array as a function of its two coordinates. -/
def tab {n w : Nat} (a : (⟨2, ![n, w]⟩ : Shape).Idx → EReal) : Fin n → Fin w → EReal := fun k d => a (ix2 k d)

/-- Row `r` of the feature matrix. -/
def rowOf (a0 : (⟨2, ![32768, 2668]⟩ : Shape).Idx → EReal) (r : Fin 32768) : Fin 2668 → EReal := fun k => a0 (ix2 r k)

/-- The result array of both programs, from the argument arrays. -/
def G (a0 : (⟨2, ![32768, 2668]⟩ : Shape).Idx → EReal)
    (a1 a2 : (⟨2, ![1, 64]⟩ : Shape).Idx → EReal) (a3 a4 : (⟨2, ![2, 64]⟩ : Shape).Idx → EReal)
    (a5 a6 : (⟨2, ![21, 64]⟩ : Shape).Idx → EReal) (a7 a8 : (⟨2, ![19, 64]⟩ : Shape).Idx → EReal)
    (a9 a10 : (⟨2, ![943, 64]⟩ : Shape).Idx → EReal) (a11 a12 : (⟨2, ![1682, 64]⟩ : Shape).Idx → EReal)
    (a13 : (⟨2, ![1, 2668]⟩ : Shape).Idx → EReal) (a14 : (⟨1, ![1]⟩ : Shape).Idx → EReal) :
    (⟨2, ![32768, 1]⟩ : Shape).Idx → EReal :=
  fun i => refRow (rowOf a0 ⟨(i 0).val, idx2_lt0 i⟩) (tab a1) (tab a2) (tab a3) (tab a4) (tab a5) (tab a6) (tab a7) (tab a8)
    (tab a9) (tab a10) (tab a11) (tab a12) (fun k => a13 (ix2 (0 : Fin 1) k)) (a14 (ix1 (0 : Fin 1)))

end Cert.FFM

end
-- ==== Proof.LibNary3.lean ====
/-
  Two general facts about a straight line of host operations: two stretches run one after the other are their
  concatenation run as one; and a host operation with THREE operands given as a literal family (a concatenation of
  three arrays) leaves, at its result, its function of the three operands' contents, each read at its own reference.
-/
import Idealize.ShloMosaic.Lib.StableHlo.Run

noncomputable section

namespace Cert.Nary3

open Idealize.ShloMosaic Idealize.ShloMosaic.StableHlo

variable {τ : Topo} {sig : RefSig} {Val : EltTy → Type} {x a b y : Ref sig .tc}

/-- Two stretches of operations run one after the other. -/
theorem after_append (A B : List (HloOp τ sig Val)) (V : Valuation τ sig Val) :
    StableHlo.after (A ++ B) V = StableHlo.after B (StableHlo.after A V) := by
  induction A generalizing V with
  | nil => rfl
  | cons op A ih => exact ih _

/-- A three-operand operation leaves, at its result, its function of the three operands' contents. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Cert.Nary3

end
-- ==== Proof.HostTables.lean ====
/-
  What the host operations before the call leave in the eight arrays the kernel's table windows stage, read at an
  index: each field's width-129 table is its user table, its item table and its slice of the linear weights side by
  side; the item-id table has 47 rows of zeros on top; the gap column's weight and the bias are single entries.
-/
import proofs.«124395_j4372276707424_2_alg».proof.Proof.FrameDefsIdeal
import proofs.«124395_j4372276707424_2_alg».proof.Proof.SpecArray
import proofs.«124395_j4372276707424_2_alg».proof.Proof.LibNary3
import Idealize.ShloMosaic.Lib.StableHlo.Run
import Idealize.ShloMosaic.Lib.ValueIdx
import Idealize.ShloMosaic.Lib.ValueLayout
import Idealize.ShloMosaic.Lib.Pipeline.Value
import Idealize.ShloMosaic.Lib.IdealHost

set_option maxRecDepth 16384

noncomputable section

namespace Cert.KernelIdeal.Hand

open Idealize.ShloMosaic Idealize.ShloMosaic.TcCoe Idealize.ShloMosaic.Tactic
open Idealize.ShloMosaic.ValueIdx Cert.FFM
open Cert.KernelIdeal Cert.KernelIdeal.Gen

/-- Three arrays of widths 64, 64 and 1 laid side by side, read at row k, column q. -/
theorem concat3_apply {n : Nat} (Uu Ii : (⟨2, ![n, 64]⟩ : Shape).Idx → EReal) (l : (⟨2, ![n, 1]⟩ : Shape).Idx → EReal)
    (h : Shape.Concatenates ([(⟨(⟨2, ![n, 64]⟩ : Shape), Uu⟩ : (s : Shape) × (s.Idx → EReal)), ⟨(⟨2, ![n, 64]⟩ : Shape), Ii⟩, ⟨(⟨2, ![n, 1]⟩ : Shape), l⟩].map (·.1))
      (⟨2, ![n, 129]⟩ : Shape) 1) (k : Fin n) (q : Fin 129) :
    concatenate (⟨2, ![n, 129]⟩ : Shape) 1 [⟨(⟨2, ![n, 64]⟩ : Shape), Uu⟩, ⟨(⟨2, ![n, 64]⟩ : Shape), Ii⟩, ⟨(⟨2, ![n, 1]⟩ : Shape), l⟩] h (ix2 k q)
      = cat3 (tab Uu) (tab Ii) (fun k => l (ix2 k (0 : Fin 1))) k q := by
  unfold cat3 tab
  by_cases h1 : q.val < 64
  · rw [dif_pos h1]
    refine concatenate_apply_piece 1 _ h (ix2 k q) 0 (by simp) _ Uu rfl rfl 0 rfl (ix2 k ⟨q.val, h1⟩) (fun b hb => ?_) ?_
    · match b with
      | ⟨0, _⟩ => rfl
      | ⟨1, _⟩ => exact absurd rfl hb
    · exact Nat.zero_add _
  · rw [dif_neg h1]
    by_cases h2 : q.val < 128
    · rw [dif_pos h2]
      refine concatenate_apply_piece 1 _ h (ix2 k q) 1 (by simp) _ Ii rfl rfl 64 rfl (ix2 k ⟨q.val - 64, by omega⟩) (fun b hb => ?_) ?_
      · match b with
        | ⟨0, _⟩ => rfl
        | ⟨1, _⟩ => exact absurd rfl hb
      · show 64 + (q.val - 64) = q.val
        omega
    · rw [dif_neg h2]
      refine concatenate_apply_piece 1 _ h (ix2 k q) 2 (by simp) _ l rfl rfl 128 rfl (ix2 k (0 : Fin 1)) (fun b hb => ?_) ?_
      · match b with
        | ⟨0, _⟩ => rfl
        | ⟨1, _⟩ => exact absurd rfl hb
      · show 128 + 0 = q.val
        have := q.isLt
        omega

section SimpResult3
open Idealize.ShloMosaic.StableHlo
variable {τ' : Topo} {sig' : RefSig} {Val : EltTy → Type} {x a b y : Ref sig' .tc}

/-- The three-operand result, stated for one rewriting pass (the result reference left unindexed). -/
theorem nary3_result'
    (f : ((k : Fin 3) → ((![x, a, b] : Fin 3 → Ref sig' .tc) k).ty.Contents Val) → y.ty.Contents Val) (hxs hy)
    (F : Valuation τ' sig' Val) :
    (nary (τ := τ') ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  Cert.Nary3.nary3_result f hxs hy F

end SimpResult3

open Idealize.ShloMosaic.StableHlo in
/-- The operations' results in one rewriting pass, a three-operand operation's operands each at its own reference. -/
macro "after_results3" : tactic =>
  `(tactic| (simp (disch := decide) only [after_cons, after_nil,
      nullary_result', unary_result', binary_result', reshape_result', nary3_result',
      nullary_result_ne', unary_result_ne', binary_result_ne', reshape_result_ne', nary_result_ne']))

/-- Three arrays of widths 64, 64 and 1 side by side, the last one's entries given as w. -/
theorem concat3_read {n : Nat} (Uu Ii : (⟨2, ![n, 64]⟩ : Shape).Idx → EReal) (l : (⟨2, ![n, 1]⟩ : Shape).Idx → EReal)
    (h : Shape.Concatenates ([(⟨(⟨2, ![n, 64]⟩ : Shape), Uu⟩ : (s : Shape) × (s.Idx → EReal)), ⟨(⟨2, ![n, 64]⟩ : Shape), Ii⟩, ⟨(⟨2, ![n, 1]⟩ : Shape), l⟩].map (·.1))
      (⟨2, ![n, 129]⟩ : Shape) 1) (w : Fin n → EReal) (hw : ∀ k, l (ix2 k (0 : Fin 1)) = w k)
    (k : Fin n) (q : Fin 129) :
    concatenate (⟨2, ![n, 129]⟩ : Shape) 1 [⟨(⟨2, ![n, 64]⟩ : Shape), Uu⟩, ⟨(⟨2, ![n, 64]⟩ : Shape), Ii⟩, ⟨(⟨2, ![n, 1]⟩ : Shape), l⟩] h (ix2 k q)
      = cat3 (tab Uu) (tab Ii) w k q := by
  obtain rfl : (fun k => l (ix2 k (0 : Fin 1))) = w := funext hw
  exact concat3_apply Uu Ii l h k q

/-- A width-129 table written in the narrow format: the same entries, its three pieces side by side. -/
theorem table_read {n : Nat} (Uu Ii : (⟨2, ![n, 64]⟩ : Shape).Idx → EReal) (l : (⟨2, ![n, 1]⟩ : Shape).Idx → EReal)
    (h : Shape.Concatenates ([(⟨(⟨2, ![n, 64]⟩ : Shape), Uu⟩ : (s : Shape) × (s.Idx → EReal)), ⟨(⟨2, ![n, 64]⟩ : Shape), Ii⟩, ⟨(⟨2, ![n, 1]⟩ : Shape), l⟩].map (·.1))
      (⟨2, ![n, 129]⟩ : Shape) 1) (hb : FTy.bf16.bits < FTy.f32.bits) (w : Fin n → EReal) (hw : ∀ k, l (ix2 k (0 : Fin 1)) = w k)
    (k : Fin n) (q : Fin 129) :
    (truncf (F := Ideal) (φ := .f32) .bf16
        (concatenate (⟨2, ![n, 129]⟩ : Shape) 1 [⟨(⟨2, ![n, 64]⟩ : Shape), Uu⟩, ⟨(⟨2, ![n, 64]⟩ : Shape), Ii⟩, ⟨(⟨2, ![n, 1]⟩ : Shape), l⟩] h) hb) (ix2 k q)
      = cat3 (tab Uu) (tab Ii) w k q :=
  concat3_read Uu Ii l h w hw k q

/-- A stretch of the weight row from column o on, stood up as a column: entry k is the row's entry o + k. -/
theorem wcol_apply {n : Nat} (o : Nat) (X : (⟨2, ![1, 2668]⟩ : Shape).Idx → EReal)
    (hs : (⟨2, ![1, 2668]⟩ : Shape).Slices ![0, o] ⟨2, ![1, n]⟩)
    (ht : (⟨2, ![1, n]⟩ : Shape).Transposes [1, 0] ⟨2, ![n, 1]⟩) (k : Fin n) (j : Fin 2668) (hj : j.val = o + k.val) :
    transpose (⟨2, ![n, 1]⟩ : Shape) [1, 0] (extractStridedSlice (⟨2, ![1, n]⟩ : Shape) ![0, o] X hs) ht (ix2 k (0 : Fin 1))
      = X (ix2 (0 : Fin 1) j) := by
  rw [transpose_ix2_apply]
  exact slice2_axis1_apply o X hs 0 k j hj

variable (m : (ℓ : Loc nD τ sig) → Buf (Elt Ideal) ℓ) (c : Dev nD)

/-- The one-row field's table as the call finds it: its last column is zero. -/
theorem tbl1 (k : Fin 1) (q : Fin 129) :
    V (F := Ideal) m c main_v2 (ix2 k q)
      = cat3 (tab (m ((c : Thread nD τ).loc main_arg1))) (tab (m ((c : Thread nD τ).loc main_arg2))) (fun _ => 0) k q := by
  have e : (V (F := Ideal) m c main_v2 : S1x129.Idx → EReal)
      = truncf (F := Ideal) .bf16 (concatenate S1x129 1 [⟨S1x64, m (c, Proc.devRef .tc main_arg1)⟩, ⟨S1x64, m (c, Proc.devRef .tc main_arg2)⟩,
          ⟨S1x1, broadcastInDim S1x1 ![] bcast_S_S1x1 (constant (F := Ideal) S_ .f32 0x00000000#32)⟩]
          concatenates_S1x64_S1x64_S1x1_S1x129_d1) bitsLt_bf16_f32 := by
    dsimp only [V, hostOps0]
    after_results3 <;> rfl
  refine (congrFun e (ix2 k q)).trans ?_
  refine table_read _ _ _ _ _ _ (fun k => ?_) k q
  rw [broadcastInDim_scalar_apply, constant_apply, Ideal.ofBits_zero_f32]

/-- The 2-row field's table as the call finds it. -/
theorem tbl2 (k : Fin 2) (q : Fin 129) :
    V (F := Ideal) m c main_v6 (ix2 k q)
      = cat3 (tab (m ((c : Thread nD τ).loc main_arg3))) (tab (m ((c : Thread nD τ).loc main_arg4)))
          (fun k => m ((c : Thread nD τ).loc main_arg13) (ix2 (0 : Fin 1) (⟨2626 + k.val, by omega⟩ : Fin 2668))) k q := by
  have e : (V (F := Ideal) m c main_v6 : S2x129.Idx → EReal)
      = truncf (F := Ideal) .bf16 (concatenate S2x129 1 [⟨S2x64, m (c, Proc.devRef .tc main_arg3)⟩, ⟨S2x64, m (c, Proc.devRef .tc main_arg4)⟩,
          ⟨S2x1, transpose S2x1 [1, 0] (extractStridedSlice S1x2 ![0, 2626] (m (c, Proc.devRef .tc main_arg13)) slices_S1x2668_S1x2_0_2626) transposes_S1x2_S2x1_1_0⟩]
          concatenates_S2x64_S2x64_S2x1_S2x129_d1) bitsLt_bf16_f32 := by
    dsimp only [V, hostOps0]
    after_results3 <;> rfl
  refine (congrFun e (ix2 k q)).trans ?_
  refine table_read _ _ _ _ _ _ (fun k => ?_) k q
  exact wcol_apply 2626 _ _ _ k _ rfl

/-- The 21-row field's table as the call finds it. -/
theorem tbl3 (k : Fin 21) (q : Fin 129) :
    V (F := Ideal) m c main_v10 (ix2 k q)
      = cat3 (tab (m ((c : Thread nD τ).loc main_arg5))) (tab (m ((c : Thread nD τ).loc main_arg6)))
          (fun k => m ((c : Thread nD τ).loc main_arg13) (ix2 (0 : Fin 1) (⟨2628 + k.val, by omega⟩ : Fin 2668))) k q := by
  have e : (V (F := Ideal) m c main_v10 : S21x129.Idx → EReal)
      = truncf (F := Ideal) .bf16 (concatenate S21x129 1 [⟨S21x64, m (c, Proc.devRef .tc main_arg5)⟩, ⟨S21x64, m (c, Proc.devRef .tc main_arg6)⟩,
          ⟨S21x1, transpose S21x1 [1, 0] (extractStridedSlice S1x21 ![0, 2628] (m (c, Proc.devRef .tc main_arg13)) slices_S1x2668_S1x21_0_2628) transposes_S1x21_S21x1_1_0⟩]
          concatenates_S21x64_S21x64_S21x1_S21x129_d1) bitsLt_bf16_f32 := by
    dsimp only [V, hostOps0]
    after_results3 <;> rfl
  refine (congrFun e (ix2 k q)).trans ?_
  refine table_read _ _ _ _ _ _ (fun k => ?_) k q
  exact wcol_apply 2628 _ _ _ k _ rfl

/-- The 19-row field's table as the call finds it. -/
theorem tbl4 (k : Fin 19) (q : Fin 129) :
    V (F := Ideal) m c main_v14 (ix2 k q)
      = cat3 (tab (m ((c : Thread nD τ).loc main_arg7))) (tab (m ((c : Thread nD τ).loc main_arg8)))
          (fun k => m ((c : Thread nD τ).loc main_arg13) (ix2 (0 : Fin 1) (⟨2649 + k.val, by omega⟩ : Fin 2668))) k q := by
  have e : (V (F := Ideal) m c main_v14 : S19x129.Idx → EReal)
      = truncf (F := Ideal) .bf16 (concatenate S19x129 1 [⟨S19x64, m (c, Proc.devRef .tc main_arg7)⟩, ⟨S19x64, m (c, Proc.devRef .tc main_arg8)⟩,
          ⟨S19x1, transpose S19x1 [1, 0] (extractStridedSlice S1x19 ![0, 2649] (m (c, Proc.devRef .tc main_arg13)) slices_S1x2668_S1x19_0_2649) transposes_S1x19_S19x1_1_0⟩]
          concatenates_S19x64_S19x64_S19x1_S19x129_d1) bitsLt_bf16_f32 := by
    dsimp only [V, hostOps0]
    after_results3 <;> rfl
  refine (congrFun e (ix2 k q)).trans ?_
  refine table_read _ _ _ _ _ _ (fun k => ?_) k q
  exact wcol_apply 2649 _ _ _ k _ rfl

/-- The 943-row field's table as the call finds it. -/
theorem tbl5 (k : Fin 943) (q : Fin 129) :
    V (F := Ideal) m c main_v18 (ix2 k q)
      = cat3 (tab (m ((c : Thread nD τ).loc main_arg9))) (tab (m ((c : Thread nD τ).loc main_arg10)))
          (fun k => m ((c : Thread nD τ).loc main_arg13) (ix2 (0 : Fin 1) (⟨k.val, by omega⟩ : Fin 2668))) k q := by
  have e : (V (F := Ideal) m c main_v18 : S943x129.Idx → EReal)
      = truncf (F := Ideal) .bf16 (concatenate S943x129 1 [⟨S943x64, m (c, Proc.devRef .tc main_arg9)⟩, ⟨S943x64, m (c, Proc.devRef .tc main_arg10)⟩,
          ⟨S943x1, transpose S943x1 [1, 0] (extractStridedSlice S1x943 ![0, 0] (m (c, Proc.devRef .tc main_arg13)) slices_S1x2668_S1x943_0_0) transposes_S1x943_S943x1_1_0⟩]
          concatenates_S943x64_S943x64_S943x1_S943x129_d1) bitsLt_bf16_f32 := by
    dsimp only [V, hostOps0]
    after_results3 <;> rfl
  refine (congrFun e (ix2 k q)).trans ?_
  refine table_read _ _ _ _ _ _ (fun k => ?_) k q
  exact wcol_apply 0 _ _ _ k _ (Nat.zero_add _).symm

/-- The item-id field's table as the call finds it: 47 rows of zeros, then the 1682 rows of the three pieces. -/
theorem tbl6 (k : Fin 1729) (q : Fin 129) :
    V (F := Ideal) m c main_v24 (ix2 k q)
      = padTop (cat3 (tab (m ((c : Thread nD τ).loc main_arg11))) (tab (m ((c : Thread nD τ).loc main_arg12)))
          (fun k => m ((c : Thread nD τ).loc main_arg13) (ix2 (0 : Fin 1) (⟨943 + k.val, by omega⟩ : Fin 2668)))) k q := by
  have e : (V (F := Ideal) m c main_v24 : S1729x129.Idx → EReal)
      = truncf (F := Ideal) .bf16 (concatenate S1729x129 0
          [⟨S47x129, broadcastInDim S47x129 ![] bcast_S_S47x129 (constant (F := Ideal) S_ .f32 0x00000000#32)⟩,
           ⟨S1682x129, concatenate S1682x129 1 [⟨S1682x64, m (c, Proc.devRef .tc main_arg11)⟩, ⟨S1682x64, m (c, Proc.devRef .tc main_arg12)⟩,
              ⟨S1682x1, transpose S1682x1 [1, 0] (extractStridedSlice S1x1682 ![0, 943] (m (c, Proc.devRef .tc main_arg13)) slices_S1x2668_S1x1682_0_943) transposes_S1x1682_S1682x1_1_0⟩]
              concatenates_S1682x64_S1682x64_S1682x1_S1682x129_d1⟩]
          concatenates_S47x129_S1682x129_S1729x129_d0) bitsLt_bf16_f32 := by
    dsimp only [V, hostOps0]
    after_results3 <;> rfl
  refine (congrFun e (ix2 k q)).trans ?_
  rw [truncf_apply]
  unfold padTop
  by_cases h1 : k.val < 47
  · rw [dif_pos h1]
    refine (concatenate_pair_apply_left (s₁ := S47x129) (s₂ := S1682x129) 0 _ _ _ (ix2 k q) rfl (ix2 (⟨k.val, h1⟩ : Fin 47) q) (fun b => ?_)).trans ?_
    · match b with
      | ⟨0, _⟩ => rfl
      | ⟨1, _⟩ => rfl
    · rw [broadcastInDim_scalar_apply, constant_apply, Ideal.ofBits_zero_f32]
  · rw [dif_neg h1]
    refine (concatenate_pair_apply_right (s₁ := S47x129) (s₂ := S1682x129) 0 _ _ _ (ix2 k q) rfl rfl (ix2 (⟨k.val - 47, by omega⟩ : Fin 1682) q) (fun b hb => ?_) ?_).trans ?_
    · match b with
      | ⟨0, _⟩ => exact absurd rfl hb
      | ⟨1, _⟩ => rfl
    · show (k.val - 47) + 47 = k.val
      omega
    · refine concat3_read _ _ _ _ _ (fun k => ?_) _ q
      exact wcol_apply 943 _ _ _ k _ rfl

/-- The gap column's weight as the call finds it. -/
theorem gapw :
    V (F := Ideal) m c main_v27 (ix2 (0 : Fin 1) (0 : Fin 1))
      = m ((c : Thread nD τ).loc main_arg13) (ix2 (0 : Fin 1) (⟨2625, by omega⟩ : Fin 2668)) := by
  have e : (V (F := Ideal) m c main_v27 : S1x1.Idx → EReal)
      = truncf (F := Ideal) .bf16 (transpose S1x1 [1, 0] (extractStridedSlice S1x1 ![0, 2625] (m (c, Proc.devRef .tc main_arg13)) slices_S1x2668_S1x1_0_2625) transposes_S1x1_S1x1_1_0)
          bitsLt_bf16_f32 := by
    dsimp only [V, hostOps0]
    after_results3 <;> rfl
  refine ((congrFun e (ix2 0 0)).trans (truncf_apply _ _ _)).trans ?_
  exact wcol_apply 2625 _ _ _ 0 _ rfl

/-- The bias as the call finds it. -/
theorem bias :
    V (F := Ideal) m c main_v28 (ix2 (0 : Fin 1) (0 : Fin 1)) = m ((c : Thread nD τ).loc main_arg14) (ix1 (0 : Fin 1)) := by
  have e : (V (F := Ideal) m c main_v28 : S1x1.Idx → EReal)
      = shapeCast S1x1 (m (c, Proc.devRef .tc main_arg14)) shapeCasts_S1_S1x1 := by
    dsimp only [V, hostOps0]
    after_results3 <;> rfl
  refine (congrFun e (ix2 0 0)).trans ?_
  exact shapeCast_a_1a_apply _ _ 0 0

end Cert.KernelIdeal.Hand

end
-- ==== Proof.SpecLaw.lean ====
/-
  The algebraic law between the two row formulas of `Spec.lean`.

  Three facts, all on the extended reals, none needing any finiteness:
  1. against a side-by-side table `[U | I | l]`, column `d` of the product is the product with `U`, column `64 + d`
     the product with `I`, and column 128 the product with `l`;
  2. reading the row from column 896 against a table with 47 zero rows on top equals reading it from column
     943 = 896 + 47 against the table itself (the first 47 terms are `x * 0 = 0`);
  3. the linear term: the columns 0..2667 are the disjoint union of the fields' column ranges and the gap column
     2625 (the age field's own last column is zero, so it contributes nothing), and addition is commutative and
     associative.
-/
import proofs.«124395_j4372276707424_2_alg».proof.Proof.Spec

noncomputable section

namespace Cert.FFM

open Idealize.ShloMosaic Finset

/-! ### 1. Columns of a side-by-side table -/

theorem cat3_lo {n : Nat} (U I : Fin n → Fin 64 → EReal) (l : Fin n → EReal) (k : Fin n) (d : Fin 64) :
    cat3 U I l k (lo d) = U k d := by
  have h : (lo d).val < 64 := d.isLt
  show (if h : (lo d).val < 64 then U k ⟨(lo d).val, h⟩ else _) = _
  rw [dif_pos h]
  rfl

theorem cat3_hi {n : Nat} (U I : Fin n → Fin 64 → EReal) (l : Fin n → EReal) (k : Fin n) (d : Fin 64) :
    cat3 U I l k (hi d) = I k d := by
  have h1 : ¬ (hi d).val < 64 := by show ¬ (64 + d.val < 64); omega
  have h2 : (hi d).val < 128 := by show 64 + d.val < 128; omega
  show (if h : (hi d).val < 64 then U k ⟨(hi d).val, h⟩
    else if h2 : (hi d).val < 128 then I k ⟨(hi d).val - 64, by omega⟩ else l k) = _
  rw [dif_neg h1, dif_pos h2]
  refine congrArg (I k) (Fin.ext ?_)
  show 64 + d.val - 64 = d.val
  omega

theorem cat3_last {n : Nat} (U I : Fin n → Fin 64 → EReal) (l : Fin n → EReal) (k : Fin n) :
    cat3 U I l k last = l k := by
  have h1 : ¬ (last).val < 64 := by show ¬ (128 < 64); omega
  have h2 : ¬ (last).val < 128 := by show ¬ (128 < 128); omega
  show (if h : (last).val < 64 then U k ⟨(last).val, h⟩
    else if h2 : (last).val < 128 then I k ⟨(last).val - 64, by omega⟩ else l k) = _
  rw [dif_neg h1, dif_neg h2]

/-- Two tables that agree on the columns read give the same product. -/
theorem fieldDot_congr {n w w' : Nat} (x : Fin 2668 → EReal) (o : Nat) (h : o + n ≤ 2668)
    (T : Fin n → Fin w → EReal) (T' : Fin n → Fin w' → EReal) (q : Fin w) (q' : Fin w')
    (hT : ∀ k, T k q = T' k q') : fieldDot x o h T q = fieldDot x o h T' q' := by
  unfold fieldDot
  exact Finset.sum_congr rfl (fun k _ => by rw [hT k])

theorem fieldDot_cat3_lo {n : Nat} (x : Fin 2668 → EReal) (o : Nat) (h : o + n ≤ 2668)
    (U I : Fin n → Fin 64 → EReal) (l : Fin n → EReal) (d : Fin 64) :
    fieldDot x o h (cat3 U I l) (lo d) = fieldDot x o h U d :=
  fieldDot_congr x o h _ _ _ _ (fun k => cat3_lo U I l k d)

theorem fieldDot_cat3_hi {n : Nat} (x : Fin 2668 → EReal) (o : Nat) (h : o + n ≤ 2668)
    (U I : Fin n → Fin 64 → EReal) (l : Fin n → EReal) (d : Fin 64) :
    fieldDot x o h (cat3 U I l) (hi d) = fieldDot x o h I d :=
  fieldDot_congr x o h _ _ _ _ (fun k => cat3_hi U I l k d)

/-! ### 2. Zero rows on top of a table -/

theorem padTop_castAdd (T : Fin 1682 → Fin 129 → EReal) (i : Fin 47) (q : Fin 129) :
    padTop T (Fin.castAdd 1682 i) q = 0 := by
  have h : (Fin.castAdd 1682 i).val < 47 := i.isLt
  show (if h : (Fin.castAdd 1682 i).val < 47 then (0 : EReal) else _) = _
  rw [dif_pos h]

theorem padTop_natAdd (T : Fin 1682 → Fin 129 → EReal) (i : Fin 1682) (q : Fin 129) :
    padTop T (Fin.natAdd 47 i) q = T i q := by
  have h : ¬ (Fin.natAdd 47 i).val < 47 := by show ¬ (47 + i.val < 47); omega
  show (if h : (Fin.natAdd 47 i).val < 47 then (0 : EReal)
    else T ⟨(Fin.natAdd 47 i).val - 47, by omega⟩ q) = _
  rw [dif_neg h]
  refine congrArg (fun j => T j q) (Fin.ext ?_)
  show 47 + i.val - 47 = i.val
  omega

/-- Reading from column 896 against 47 zero rows on top of `T` is reading from column 943 against `T`. -/
theorem fieldDot_padTop (x : Fin 2668 → EReal) (T : Fin 1682 → Fin 129 → EReal) (q : Fin 129) :
    fieldDot x 896 (by omega) (padTop T) q = fieldDot x 943 (by omega) T q := by
  have hs := Fin.sum_univ_add (a := 47) (b := 1682)
    (fun k : Fin (47 + 1682) => x ⟨896 + k.val, by omega⟩ * padTop T k q)
  unfold fieldDot
  refine hs.trans ?_
  have h0 : (∑ i : Fin 47, (fun k : Fin (47 + 1682) => x ⟨896 + k.val, by omega⟩ * padTop T k q)
      (Fin.castAdd 1682 i)) = 0 := by
    refine Finset.sum_eq_zero (fun i _ => ?_)
    show x _ * padTop T (Fin.castAdd 1682 i) q = 0
    rw [padTop_castAdd, mul_zero]
  rw [h0, zero_add]
  refine Finset.sum_congr rfl (fun i _ => ?_)
  show x _ * padTop T (Fin.natAdd 47 i) q = _
  rw [padTop_natAdd]
  refine congrArg (fun j => x j * T i q) (Fin.ext ?_)
  show 896 + (47 + i.val) = 943 + i.val
  omega

/-! ### 3. The linear term -/

/-- One term of the linear sum as a function of the column number (zero past the last column). -/
def linTerm (x lw : Fin 2668 → EReal) (m : Nat) : EReal :=
  if h : m < 2668 then x ⟨m, h⟩ * lw ⟨m, h⟩ else 0

theorem linTerm_of_lt (x lw : Fin 2668 → EReal) (m : Nat) (h : m < 2668) :
    linTerm x lw m = x ⟨m, h⟩ * lw ⟨m, h⟩ := dif_pos h

theorem sum_lin_eq_range (x lw : Fin 2668 → EReal) :
    (∑ k : Fin 2668, x k * lw k) = ∑ m ∈ range 2668, linTerm x lw m := by
  rw [← Fin.sum_univ_eq_sum_range (linTerm x lw) 2668]
  exact Finset.sum_congr rfl (fun k _ => (linTerm_of_lt x lw k.val k.isLt).symm)

/-- A field's product with a column that holds the field's slice of the weights. -/
theorem fieldDot_lin {n w : Nat} (x lw : Fin 2668 → EReal) (o : Nat) (h : o + n ≤ 2668)
    (T : Fin n → Fin w → EReal) (q : Fin w) (hl : ∀ k : Fin n, T k q = lw ⟨o + k.val, by omega⟩) :
    fieldDot x o h T q = ∑ m ∈ range n, linTerm x lw (o + m) := by
  rw [← Fin.sum_univ_eq_sum_range (fun m => linTerm x lw (o + m)) n]
  unfold fieldDot
  refine Finset.sum_congr rfl (fun k _ => ?_)
  rw [hl k, linTerm_of_lt x lw (o + k.val) (by omega)]

/-- A field's product with a zero column is zero. -/
theorem fieldDot_zero {n w : Nat} (x : Fin 2668 → EReal) (o : Nat) (h : o + n ≤ 2668)
    (T : Fin n → Fin w → EReal) (q : Fin w) (hl : ∀ k : Fin n, T k q = 0) :
    fieldDot x o h T q = 0 := by
  unfold fieldDot
  refine Finset.sum_eq_zero (fun k _ => ?_)
  rw [hl k, mul_zero]

/-- The columns 0..2667 cut into 0..942, 943..2624, 2625, 2626..2627, 2628..2648, 2649..2667. -/
theorem range_split (X : Nat → EReal) :
    (∑ m ∈ range 2668, X m)
      = (((((∑ m ∈ range 943, X m) + ∑ m ∈ range 1682, X (943 + m)) + X 2625)
          + ∑ m ∈ range 2, X (2626 + m)) + ∑ m ∈ range 21, X (2628 + m)) + ∑ m ∈ range 19, X (2649 + m) := by
  have h1 : (∑ m ∈ range 2668, X m) = (∑ m ∈ range 2649, X m) + ∑ m ∈ range 19, X (2649 + m) :=
    Finset.sum_range_add X 2649 19
  have h2 : (∑ m ∈ range 2649, X m) = (∑ m ∈ range 2628, X m) + ∑ m ∈ range 21, X (2628 + m) :=
    Finset.sum_range_add X 2628 21
  have h3 : (∑ m ∈ range 2628, X m) = (∑ m ∈ range 2626, X m) + ∑ m ∈ range 2, X (2626 + m) :=
    Finset.sum_range_add X 2626 2
  have h4 : (∑ m ∈ range 2626, X m) = (∑ m ∈ range 2625, X m) + X 2625 :=
    Finset.sum_range_succ X 2625
  have h5 : (∑ m ∈ range 2625, X m) = (∑ m ∈ range 943, X m) + ∑ m ∈ range 1682, X (943 + m) :=
    Finset.sum_range_add X 943 1682
  rw [h1, h2, h3, h4, h5]

/-! ### The law -/

theorem kerRow_eq_refRow (x : Fin 2668 → EReal)
    (ageU ageI : Fin 1 → Fin 64 → EReal) (genU genI : Fin 2 → Fin 64 → EReal)
    (occU occI : Fin 21 → Fin 64 → EReal) (movU movI : Fin 19 → Fin 64 → EReal)
    (usrU usrI : Fin 943 → Fin 64 → EReal) (itmU itmI : Fin 1682 → Fin 64 → EReal)
    (lw : Fin 2668 → EReal) (b : EReal) :
    kerRow x (cat3 ageU ageI (fun _ => 0))
      (cat3 genU genI (fun k => lw ⟨2626 + k.val, by omega⟩))
      (cat3 occU occI (fun k => lw ⟨2628 + k.val, by omega⟩))
      (cat3 movU movI (fun k => lw ⟨2649 + k.val, by omega⟩))
      (cat3 usrU usrI (fun k => lw ⟨k.val, by omega⟩))
      (padTop (cat3 itmU itmI (fun k => lw ⟨943 + k.val, by omega⟩)))
      (lw ⟨2625, by omega⟩) b
    = refRow x ageU ageI genU genI occU occI movU movI usrU usrI itmU itmI lw b := by
  unfold kerRow refRow
  refine congrArg Ideal.logistic ?_
  refine congrArg₂ (· + ·) (congrArg (· + b) ?_) (Finset.sum_congr rfl (fun d _ => ?_))
  · -- the linear term
    rw [fieldDot_zero x 2626 _ _ last (fun k => cat3_last _ _ _ k),
      fieldDot_lin x lw 2626 _ _ last (fun k => cat3_last _ _ _ k),
      fieldDot_lin x lw 2628 _ _ last (fun k => cat3_last _ _ _ k),
      fieldDot_lin x lw 2649 _ _ last (fun k => cat3_last _ _ _ k),
      fieldDot_lin x lw 0 _ (cat3 usrU usrI (fun k => lw ⟨k.val, by omega⟩)) last
        (fun k => (cat3_last usrU usrI _ k).trans (congrArg lw (Fin.ext (Nat.zero_add k.val).symm))),
      fieldDot_padTop,
      fieldDot_lin x lw 943 _ _ last (fun k => cat3_last _ _ _ k),
      ← linTerm_of_lt x lw 2625 (by omega), sum_lin_eq_range, range_split, zero_add]
    simp only [Nat.zero_add]
    ac_rfl
  · -- the pair products: the twelve embeddings agree one by one
    rw [fieldDot_padTop, fieldDot_padTop]
    simp only [fieldDot_cat3_lo, fieldDot_cat3_hi]
-- ==== Proof.KernelValue.lean ====
/-
  The output array of the idealized kernel program is the common function of the argument arrays.

  After the call, entry (r, 0) of the output is the kernel's row value `Cert.FFM.kerRow` of row r of the feature array
  against the six width-129 tables, the gap weight and the bias as the call finds them. The host operations before
  the call make those tables the side-by-side concatenations of each field's user table, item table and slice of the
  linear weights (the item-id table under 47 rows of zeros), so the row value is the reference's `Cert.FFM.refRow`
  by the algebraic law `Cert.FFM.kerRow_eq_refRow`: the zero rows and the zero column contribute nothing, and the
  six last-column products with the gap column make up the whole linear term.
-/
import proofs.«124395_j4372276707424_2_alg».proof.Proof.FrameIdeal
import proofs.«124395_j4372276707424_2_alg».proof.Proof.KernelArray
import proofs.«124395_j4372276707424_2_alg».proof.Proof.Payload
import proofs.«124395_j4372276707424_2_alg».proof.Proof.HostTables
import proofs.«124395_j4372276707424_2_alg».proof.Proof.SpecLaw
import proofs.«124395_j4372276707424_2_alg».proof.Proof.SpecArray

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat Cfg Window BodyObligation cellOf)
open Cert.KernelIdeal Cert.KernelIdeal.Gen Cert.FFM

variable (m : (ℓ : Loc nD τ sig) → Buf (Elt Ideal) ℓ) (ρ : Dev nD → PrngReg) (c : Dev nD)

/-- Argument array `K` as launched, on core `c`. -/
abbrev argA (K : Ref sig .tc) : Buf (Elt Ideal) ((c : Thread nD τ).loc K) := m ((c : Thread nD τ).loc K)

/-- The output array after the call is the common function of the argument arrays. -/
theorem kernel_G : (dats m 0 c).arrAt 9 cfg0.N
    = Cert.FFM.G (argA m c main_arg0) (argA m c main_arg1) (argA m c main_arg2) (argA m c main_arg3) (argA m c main_arg4) (argA m c main_arg5) (argA m c main_arg6) (argA m c main_arg7)
        (argA m c main_arg8) (argA m c main_arg9) (argA m c main_arg10) (argA m c main_arg11) (argA m c main_arg12) (argA m c main_arg13) (argA m c main_arg14) := by
  rw [final9 m c (fun x x1 x2 x3 x4 x5 x6 x7 x8 => Cert.FFM.kerRow x (fun k q => x1 (ix2 k q)) (fun k q => x2 (ix2 k q)) (fun k q => x3 (ix2 k q))
          (fun k q => x4 (ix2 k q)) (fun k q => x5 (ix2 k q)) (fun k q => x6 (ix2 k q)) (x7 (ix2 (0 : Fin 1) (0 : Fin 1))) (x8 (ix2 (0 : Fin 1) (0 : Fin 1))))
        (fun x0 x1 x2 x3 x4 x5 x6 x7 x8 p => out0_9_row x0 x1 x2 x3 x4 x5 x6 x7 x8 p)]
  funext i
  dsimp only
  rw [V_main_arg0 m c]
  simp only [tbl1 m c, tbl2 m c, tbl3 m c, tbl4 m c, tbl5 m c, tbl6 m c, gapw m c, bias m c]
  exact Cert.FFM.kerRow_eq_refRow _ _ _ _ _ _ _ _ _ _ _ _ _ (fun k => (argA m c main_arg13) (ix2 (0 : Fin 1) k)) _

end Cert.KernelIdeal.Hand
end
-- ==== Proof.RefValue.lean ====
/-
  The reference program's result array is the array `Cert.FFM.G` of the fifteen argument arrays: entry (r, 0) is the
  logistic function of the linear term plus the bias plus the sum over the 64 embedding coordinates of the fifteen
  field-pair products, each field embedding being a slice of row r against that field's table.
-/
import proofs.«124395_j4372276707424_2_alg».proof.Proof.Gen.ReferenceIdeal.Read
import proofs.«124395_j4372276707424_2_alg».proof.Proof.SpecArray
import Idealize.ShloMosaic.Lib.IdealHost

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.FFM

/-! ## The twelve field embeddings: a column slice of row r against a table -/

theorem dot_v1 (x0 : (⟨S32768x2668, .f32⟩ : BufTy).Contents (Elt Ideal)) (x1 : (⟨S1x64, .f32⟩ : BufTy).Contents (Elt Ideal))
    (r : Fin 32768) (d : Fin 64) :
    val_main_v1 (F := Ideal) x0 x1 (ix2 r d) = fieldDot (rowOf x0 r) 2626 (by omega) (tab x1) d := by
  rw [val_main_v1_apply]
  unfold fieldDot rowOf tab
  refine Finset.sum_congr rfl fun k _ => ?_
  rw [val_main_v0_apply]
  have e1 : idx_main_v0 (lidx_main_v1 (ix2 r d) k) = ix2 r ⟨2626 + k.val, by omega⟩ :=
    funext fun a => Fin.ext (by match a with | ⟨0, _⟩ => rfl | ⟨1, _⟩ => rfl)
  have e2 : ridx_main_v1 (ix2 r d) k = ix2 k d :=
    funext fun a => Fin.ext (by match a with | ⟨0, _⟩ => rfl | ⟨1, _⟩ => rfl)
  rw [e1, e2]

theorem dot_v3 (x0 : (⟨S32768x2668, .f32⟩ : BufTy).Contents (Elt Ideal)) (x2 : (⟨S1x64, .f32⟩ : BufTy).Contents (Elt Ideal))
    (r : Fin 32768) (d : Fin 64) :
    val_main_v3 (F := Ideal) x0 x2 (ix2 r d) = fieldDot (rowOf x0 r) 2626 (by omega) (tab x2) d := by
  rw [val_main_v3_apply]
  unfold fieldDot rowOf tab
  refine Finset.sum_congr rfl fun k _ => ?_
  rw [val_main_v2_apply]
  have e1 : idx_main_v2 (lidx_main_v3 (ix2 r d) k) = ix2 r ⟨2626 + k.val, by omega⟩ :=
    funext fun a => Fin.ext (by match a with | ⟨0, _⟩ => rfl | ⟨1, _⟩ => rfl)
  have e2 : ridx_main_v3 (ix2 r d) k = ix2 k d :=
    funext fun a => Fin.ext (by match a with | ⟨0, _⟩ => rfl | ⟨1, _⟩ => rfl)
  rw [e1, e2]

theorem dot_v5 (x0 : (⟨S32768x2668, .f32⟩ : BufTy).Contents (Elt Ideal)) (x3 : (⟨S2x64, .f32⟩ : BufTy).Contents (Elt Ideal))
    (r : Fin 32768) (d : Fin 64) :
    val_main_v5 (F := Ideal) x0 x3 (ix2 r d) = fieldDot (rowOf x0 r) 2626 (by omega) (tab x3) d := by
  rw [val_main_v5_apply]
  unfold fieldDot rowOf tab
  refine Finset.sum_congr rfl fun k _ => ?_
  rw [val_main_v4_apply]
  have e1 : idx_main_v4 (lidx_main_v5 (ix2 r d) k) = ix2 r ⟨2626 + k.val, by omega⟩ :=
    funext fun a => Fin.ext (by match a with | ⟨0, _⟩ => rfl | ⟨1, _⟩ => rfl)
  have e2 : ridx_main_v5 (ix2 r d) k = ix2 k d :=
    funext fun a => Fin.ext (by match a with | ⟨0, _⟩ => rfl | ⟨1, _⟩ => rfl)
  rw [e1, e2]

theorem dot_v7 (x0 : (⟨S32768x2668, .f32⟩ : BufTy).Contents (Elt Ideal)) (x4 : (⟨S2x64, .f32⟩ : BufTy).Contents (Elt Ideal))
    (r : Fin 32768) (d : Fin 64) :
    val_main_v7 (F := Ideal) x0 x4 (ix2 r d) = fieldDot (rowOf x0 r) 2626 (by omega) (tab x4) d := by
  rw [val_main_v7_apply]
  unfold fieldDot rowOf tab
  refine Finset.sum_congr rfl fun k _ => ?_
  rw [val_main_v6_apply]
  have e1 : idx_main_v6 (lidx_main_v7 (ix2 r d) k) = ix2 r ⟨2626 + k.val, by omega⟩ :=
    funext fun a => Fin.ext (by match a with | ⟨0, _⟩ => rfl | ⟨1, _⟩ => rfl)
  have e2 : ridx_main_v7 (ix2 r d) k = ix2 k d :=
    funext fun a => Fin.ext (by match a with | ⟨0, _⟩ => rfl | ⟨1, _⟩ => rfl)
  rw [e1, e2]

theorem dot_v9 (x0 : (⟨S32768x2668, .f32⟩ : BufTy).Contents (Elt Ideal)) (x5 : (⟨S21x64, .f32⟩ : BufTy).Contents (Elt Ideal))
    (r : Fin 32768) (d : Fin 64) :
    val_main_v9 (F := Ideal) x0 x5 (ix2 r d) = fieldDot (rowOf x0 r) 2628 (by omega) (tab x5) d := by
  rw [val_main_v9_apply]
  unfold fieldDot rowOf tab
  refine Finset.sum_congr rfl fun k _ => ?_
  rw [val_main_v8_apply]
  have e1 : idx_main_v8 (lidx_main_v9 (ix2 r d) k) = ix2 r ⟨2628 + k.val, by omega⟩ :=
    funext fun a => Fin.ext (by match a with | ⟨0, _⟩ => rfl | ⟨1, _⟩ => rfl)
  have e2 : ridx_main_v9 (ix2 r d) k = ix2 k d :=
    funext fun a => Fin.ext (by match a with | ⟨0, _⟩ => rfl | ⟨1, _⟩ => rfl)
  rw [e1, e2]

theorem dot_v11 (x0 : (⟨S32768x2668, .f32⟩ : BufTy).Contents (Elt Ideal)) (x6 : (⟨S21x64, .f32⟩ : BufTy).Contents (Elt Ideal))
    (r : Fin 32768) (d : Fin 64) :
    val_main_v11 (F := Ideal) x0 x6 (ix2 r d) = fieldDot (rowOf x0 r) 2628 (by omega) (tab x6) d := by
  rw [val_main_v11_apply]
  unfold fieldDot rowOf tab
  refine Finset.sum_congr rfl fun k _ => ?_
  rw [val_main_v10_apply]
  have e1 : idx_main_v10 (lidx_main_v11 (ix2 r d) k) = ix2 r ⟨2628 + k.val, by omega⟩ :=
    funext fun a => Fin.ext (by match a with | ⟨0, _⟩ => rfl | ⟨1, _⟩ => rfl)
  have e2 : ridx_main_v11 (ix2 r d) k = ix2 k d :=
    funext fun a => Fin.ext (by match a with | ⟨0, _⟩ => rfl | ⟨1, _⟩ => rfl)
  rw [e1, e2]

theorem dot_v13 (x0 : (⟨S32768x2668, .f32⟩ : BufTy).Contents (Elt Ideal)) (x7 : (⟨S19x64, .f32⟩ : BufTy).Contents (Elt Ideal))
    (r : Fin 32768) (d : Fin 64) :
    val_main_v13 (F := Ideal) x0 x7 (ix2 r d) = fieldDot (rowOf x0 r) 2649 (by omega) (tab x7) d := by
  rw [val_main_v13_apply]
  unfold fieldDot rowOf tab
  refine Finset.sum_congr rfl fun k _ => ?_
  rw [val_main_v12_apply]
  have e1 : idx_main_v12 (lidx_main_v13 (ix2 r d) k) = ix2 r ⟨2649 + k.val, by omega⟩ :=
    funext fun a => Fin.ext (by match a with | ⟨0, _⟩ => rfl | ⟨1, _⟩ => rfl)
  have e2 : ridx_main_v13 (ix2 r d) k = ix2 k d :=
    funext fun a => Fin.ext (by match a with | ⟨0, _⟩ => rfl | ⟨1, _⟩ => rfl)
  rw [e1, e2]

theorem dot_v15 (x0 : (⟨S32768x2668, .f32⟩ : BufTy).Contents (Elt Ideal)) (x8 : (⟨S19x64, .f32⟩ : BufTy).Contents (Elt Ideal))
    (r : Fin 32768) (d : Fin 64) :
    val_main_v15 (F := Ideal) x0 x8 (ix2 r d) = fieldDot (rowOf x0 r) 2649 (by omega) (tab x8) d := by
  rw [val_main_v15_apply]
  unfold fieldDot rowOf tab
  refine Finset.sum_congr rfl fun k _ => ?_
  rw [val_main_v14_apply]
  have e1 : idx_main_v14 (lidx_main_v15 (ix2 r d) k) = ix2 r ⟨2649 + k.val, by omega⟩ :=
    funext fun a => Fin.ext (by match a with | ⟨0, _⟩ => rfl | ⟨1, _⟩ => rfl)
  have e2 : ridx_main_v15 (ix2 r d) k = ix2 k d :=
    funext fun a => Fin.ext (by match a with | ⟨0, _⟩ => rfl | ⟨1, _⟩ => rfl)
  rw [e1, e2]

theorem dot_v17 (x0 : (⟨S32768x2668, .f32⟩ : BufTy).Contents (Elt Ideal)) (x9 : (⟨S943x64, .f32⟩ : BufTy).Contents (Elt Ideal))
    (r : Fin 32768) (d : Fin 64) :
    val_main_v17 (F := Ideal) x0 x9 (ix2 r d) = fieldDot (rowOf x0 r) 0 (by omega) (tab x9) d := by
  rw [val_main_v17_apply]
  unfold fieldDot rowOf tab
  refine Finset.sum_congr rfl fun k _ => ?_
  rw [val_main_v16_apply]
  have e1 : idx_main_v16 (lidx_main_v17 (ix2 r d) k) = ix2 r ⟨0 + k.val, by omega⟩ :=
    funext fun a => Fin.ext (by match a with | ⟨0, _⟩ => rfl | ⟨1, _⟩ => exact (Nat.zero_add _).symm)
  have e2 : ridx_main_v17 (ix2 r d) k = ix2 k d :=
    funext fun a => Fin.ext (by match a with | ⟨0, _⟩ => rfl | ⟨1, _⟩ => rfl)
  rw [e1, e2]

theorem dot_v19 (x0 : (⟨S32768x2668, .f32⟩ : BufTy).Contents (Elt Ideal)) (x10 : (⟨S943x64, .f32⟩ : BufTy).Contents (Elt Ideal))
    (r : Fin 32768) (d : Fin 64) :
    val_main_v19 (F := Ideal) x0 x10 (ix2 r d) = fieldDot (rowOf x0 r) 0 (by omega) (tab x10) d := by
  rw [val_main_v19_apply]
  unfold fieldDot rowOf tab
  refine Finset.sum_congr rfl fun k _ => ?_
  rw [val_main_v18_apply]
  have e1 : idx_main_v18 (lidx_main_v19 (ix2 r d) k) = ix2 r ⟨0 + k.val, by omega⟩ :=
    funext fun a => Fin.ext (by match a with | ⟨0, _⟩ => rfl | ⟨1, _⟩ => exact (Nat.zero_add _).symm)
  have e2 : ridx_main_v19 (ix2 r d) k = ix2 k d :=
    funext fun a => Fin.ext (by match a with | ⟨0, _⟩ => rfl | ⟨1, _⟩ => rfl)
  rw [e1, e2]

theorem dot_v21 (x0 : (⟨S32768x2668, .f32⟩ : BufTy).Contents (Elt Ideal)) (x11 : (⟨S1682x64, .f32⟩ : BufTy).Contents (Elt Ideal))
    (r : Fin 32768) (d : Fin 64) :
    val_main_v21 (F := Ideal) x0 x11 (ix2 r d) = fieldDot (rowOf x0 r) 943 (by omega) (tab x11) d := by
  rw [val_main_v21_apply]
  unfold fieldDot rowOf tab
  refine Finset.sum_congr rfl fun k _ => ?_
  rw [val_main_v20_apply]
  have e1 : idx_main_v20 (lidx_main_v21 (ix2 r d) k) = ix2 r ⟨943 + k.val, by omega⟩ :=
    funext fun a => Fin.ext (by match a with | ⟨0, _⟩ => rfl | ⟨1, _⟩ => rfl)
  have e2 : ridx_main_v21 (ix2 r d) k = ix2 k d :=
    funext fun a => Fin.ext (by match a with | ⟨0, _⟩ => rfl | ⟨1, _⟩ => rfl)
  rw [e1, e2]

theorem dot_v23 (x0 : (⟨S32768x2668, .f32⟩ : BufTy).Contents (Elt Ideal)) (x12 : (⟨S1682x64, .f32⟩ : BufTy).Contents (Elt Ideal))
    (r : Fin 32768) (d : Fin 64) :
    val_main_v23 (F := Ideal) x0 x12 (ix2 r d) = fieldDot (rowOf x0 r) 943 (by omega) (tab x12) d := by
  rw [val_main_v23_apply]
  unfold fieldDot rowOf tab
  refine Finset.sum_congr rfl fun k _ => ?_
  rw [val_main_v22_apply]
  have e1 : idx_main_v22 (lidx_main_v23 (ix2 r d) k) = ix2 r ⟨943 + k.val, by omega⟩ :=
    funext fun a => Fin.ext (by match a with | ⟨0, _⟩ => rfl | ⟨1, _⟩ => rfl)
  have e2 : ridx_main_v23 (ix2 r d) k = ix2 k d :=
    funext fun a => Fin.ext (by match a with | ⟨0, _⟩ => rfl | ⟨1, _⟩ => rfl)
  rw [e1, e2]

/-! ## The fifteen pair products, added left to right -/

theorem pair_v52 (x0 : (⟨S32768x2668, .f32⟩ : BufTy).Contents (Elt Ideal)) (x1 : (⟨S1x64, .f32⟩ : BufTy).Contents (Elt Ideal)) (x2 : (⟨S1x64, .f32⟩ : BufTy).Contents (Elt Ideal)) (x3 : (⟨S2x64, .f32⟩ : BufTy).Contents (Elt Ideal)) (x4 : (⟨S2x64, .f32⟩ : BufTy).Contents (Elt Ideal)) (x5 : (⟨S21x64, .f32⟩ : BufTy).Contents (Elt Ideal)) (x6 : (⟨S21x64, .f32⟩ : BufTy).Contents (Elt Ideal)) (x7 : (⟨S19x64, .f32⟩ : BufTy).Contents (Elt Ideal)) (x8 : (⟨S19x64, .f32⟩ : BufTy).Contents (Elt Ideal)) (x9 : (⟨S943x64, .f32⟩ : BufTy).Contents (Elt Ideal)) (x10 : (⟨S943x64, .f32⟩ : BufTy).Contents (Elt Ideal)) (x11 : (⟨S1682x64, .f32⟩ : BufTy).Contents (Elt Ideal)) (x12 : (⟨S1682x64, .f32⟩ : BufTy).Contents (Elt Ideal))
    (r : Fin 32768) (d : Fin 64) :
    val_main_v52 (F := Ideal) x0 x1 x2 x3 x4 x5 x6 x7 x8 x9 x10 x11 x12 (ix2 r d)
      = pairSum (fieldDot (rowOf x0 r) 2626 (by omega) (tab x1) d) (fieldDot (rowOf x0 r) 2626 (by omega) (tab x2) d)
        (fieldDot (rowOf x0 r) 2626 (by omega) (tab x3) d) (fieldDot (rowOf x0 r) 2626 (by omega) (tab x4) d)
        (fieldDot (rowOf x0 r) 2628 (by omega) (tab x5) d) (fieldDot (rowOf x0 r) 2628 (by omega) (tab x6) d)
        (fieldDot (rowOf x0 r) 2649 (by omega) (tab x7) d) (fieldDot (rowOf x0 r) 2649 (by omega) (tab x8) d)
        (fieldDot (rowOf x0 r) 0 (by omega) (tab x9) d) (fieldDot (rowOf x0 r) 0 (by omega) (tab x10) d)
        (fieldDot (rowOf x0 r) 943 (by omega) (tab x11) d) (fieldDot (rowOf x0 r) 943 (by omega) (tab x12) d) := by
  simp only [val_main_v52_apply, val_main_v51_apply, val_main_v50_apply, val_main_v49_apply, val_main_v48_apply, val_main_v47_apply, val_main_v46_apply, val_main_v45_apply, val_main_v44_apply, val_main_v43_apply, val_main_v42_apply, val_main_v41_apply, val_main_v40_apply, val_main_v39_apply, val_main_v38_apply, val_main_v37_apply, val_main_v36_apply, val_main_v35_apply, val_main_v34_apply, val_main_v33_apply, val_main_v32_apply, val_main_v31_apply, val_main_v30_apply, val_main_v29_apply, val_main_v28_apply, val_main_v27_apply, val_main_v26_apply, val_main_v25_apply, val_main_v24_apply, Ideal.addf_def, Ideal.mulf_def]
  rw [dot_v1, dot_v3, dot_v5, dot_v7, dot_v9, dot_v11, dot_v13, dot_v15, dot_v17, dot_v19, dot_v21, dot_v23]
  rfl

/-! ## The sum over the 64 embedding coordinates -/

theorem sum_v53 (x0 : (⟨S32768x2668, .f32⟩ : BufTy).Contents (Elt Ideal)) (x1 : (⟨S1x64, .f32⟩ : BufTy).Contents (Elt Ideal)) (x2 : (⟨S1x64, .f32⟩ : BufTy).Contents (Elt Ideal)) (x3 : (⟨S2x64, .f32⟩ : BufTy).Contents (Elt Ideal)) (x4 : (⟨S2x64, .f32⟩ : BufTy).Contents (Elt Ideal)) (x5 : (⟨S21x64, .f32⟩ : BufTy).Contents (Elt Ideal)) (x6 : (⟨S21x64, .f32⟩ : BufTy).Contents (Elt Ideal)) (x7 : (⟨S19x64, .f32⟩ : BufTy).Contents (Elt Ideal)) (x8 : (⟨S19x64, .f32⟩ : BufTy).Contents (Elt Ideal)) (x9 : (⟨S943x64, .f32⟩ : BufTy).Contents (Elt Ideal)) (x10 : (⟨S943x64, .f32⟩ : BufTy).Contents (Elt Ideal)) (x11 : (⟨S1682x64, .f32⟩ : BufTy).Contents (Elt Ideal)) (x12 : (⟨S1682x64, .f32⟩ : BufTy).Contents (Elt Ideal))
    (r : Fin 32768) :
    val_main_v53 (F := Ideal) x0 x1 x2 x3 x4 x5 x6 x7 x8 x9 x10 x11 x12 (ix1 r)
      = ∑ d : Fin 64, pairSum (fieldDot (rowOf x0 r) 2626 (by omega) (tab x1) d) (fieldDot (rowOf x0 r) 2626 (by omega) (tab x2) d)
        (fieldDot (rowOf x0 r) 2626 (by omega) (tab x3) d) (fieldDot (rowOf x0 r) 2626 (by omega) (tab x4) d)
        (fieldDot (rowOf x0 r) 2628 (by omega) (tab x5) d) (fieldDot (rowOf x0 r) 2628 (by omega) (tab x6) d)
        (fieldDot (rowOf x0 r) 2649 (by omega) (tab x7) d) (fieldDot (rowOf x0 r) 2649 (by omega) (tab x8) d)
        (fieldDot (rowOf x0 r) 0 (by omega) (tab x9) d) (fieldDot (rowOf x0 r) 0 (by omega) (tab x10) d)
        (fieldDot (rowOf x0 r) 943 (by omega) (tab x11) d) (fieldDot (rowOf x0 r) 943 (by omega) (tab x12) d) := by
  rw [val_main_v53_apply, val_main_cst_apply, Ideal.ofBits_def, Ideal.ofBits_zero_f32, zero_add]
  refine Finset.sum_congr rfl fun d _ => ?_
  have e : idx_main_v53 (ix1 r) d = ix2 r d :=
    funext fun a => Fin.ext (by match a with | ⟨0, _⟩ => rfl | ⟨1, _⟩ => rfl)
  rw [e, pair_v52]

/-! ## The linear term and the bias -/

theorem lin_v55 (x0 : (⟨S32768x2668, .f32⟩ : BufTy).Contents (Elt Ideal)) (x13 : (⟨S1x2668, .f32⟩ : BufTy).Contents (Elt Ideal))
    (r : Fin 32768) (u : Fin 1) :
    val_main_v55 (F := Ideal) x0 x13 (ix2 r u) = ∑ k : Fin 2668, rowOf x0 r k * x13 (ix2 (0 : Fin 1) k) := by
  rw [val_main_v55_apply]
  refine Finset.sum_congr rfl fun k _ => ?_
  rw [val_main_v54_apply]
  have e1 : lidx_main_v55 (ix2 r u) k = ix2 r k :=
    funext fun a => Fin.ext (by match a with | ⟨0, _⟩ => rfl | ⟨1, _⟩ => rfl)
  have e2 : idx_main_v54 (ridx_main_v55 (ix2 r u) k) = ix2 (0 : Fin 1) k :=
    funext fun a => Fin.ext (by match a with | ⟨0, _⟩ => exact Nat.lt_one_iff.mp u.isLt | ⟨1, _⟩ => rfl)
  rw [e1, e2]
  rfl

theorem bias_v57 (x14 : (⟨S1, .f32⟩ : BufTy).Contents (Elt Ideal)) (i : S32768x1.Idx) :
    val_main_v57 (F := Ideal) x14 i = x14 (ix1 (0 : Fin 1)) := by
  rw [val_main_v57_apply, val_main_v56_apply]
  have e : idx_main_v56 (idx_main_v57 i) = ix1 (0 : Fin 1) :=
    funext fun a => Fin.ext (by match a with | ⟨0, _⟩ => rfl)
  rw [e]

/-! ## The whole result array -/

theorem val_eq (x0 : (⟨S32768x2668, .f32⟩ : BufTy).Contents (Elt Ideal)) (x1 : (⟨S1x64, .f32⟩ : BufTy).Contents (Elt Ideal)) (x2 : (⟨S1x64, .f32⟩ : BufTy).Contents (Elt Ideal)) (x3 : (⟨S2x64, .f32⟩ : BufTy).Contents (Elt Ideal)) (x4 : (⟨S2x64, .f32⟩ : BufTy).Contents (Elt Ideal)) (x5 : (⟨S21x64, .f32⟩ : BufTy).Contents (Elt Ideal)) (x6 : (⟨S21x64, .f32⟩ : BufTy).Contents (Elt Ideal)) (x7 : (⟨S19x64, .f32⟩ : BufTy).Contents (Elt Ideal)) (x8 : (⟨S19x64, .f32⟩ : BufTy).Contents (Elt Ideal)) (x9 : (⟨S943x64, .f32⟩ : BufTy).Contents (Elt Ideal)) (x10 : (⟨S943x64, .f32⟩ : BufTy).Contents (Elt Ideal)) (x11 : (⟨S1682x64, .f32⟩ : BufTy).Contents (Elt Ideal)) (x12 : (⟨S1682x64, .f32⟩ : BufTy).Contents (Elt Ideal)) (x13 : (⟨S1x2668, .f32⟩ : BufTy).Contents (Elt Ideal)) (x14 : (⟨S1, .f32⟩ : BufTy).Contents (Elt Ideal)) :
    val_main_v66 (F := Ideal) x0 x1 x2 x3 x4 x5 x6 x7 x8 x9 x10 x11 x12 x13 x14 = G x0 x1 x2 x3 x4 x5 x6 x7 x8 x9 x10 x11 x12 x13 x14 := by
  funext i
  obtain ⟨r, u, rfl⟩ : ∃ (r : Fin 32768) (u : Fin 1), i = ix2 r u := ⟨i 0, i 1, eq_ix2 i⟩
  rw [val_main_v66_apply, val_main_v65_apply, val_main_cst_1_apply, val_main_v64_apply, val_main_v63_apply,
    val_main_cst_0_apply, val_main_v62_apply, val_main_v61_apply, val_main_v60_apply, val_main_v59_apply,
    val_main_v58_apply, lin_v55, bias_v57]
  have e : idx_main_v59 (ix2 r u) = ix1 r :=
    funext fun a => Fin.ext (by match a with | ⟨0, _⟩ => rfl)
  rw [e, sum_v53]
  simp only [Ideal.hostDivf_def, Ideal.hostUnary_exp_def, Ideal.hostNegf_def, Ideal.negf_def, Ideal.addf_def,
    Ideal.ofBits_def, Ideal.ofBits_one_f32]
  rfl

/-- The reference's result buffer, as the run module names it, is `G` of the fifteen argument arrays. -/
theorem res_eq (m : (ℓ : Loc nD τ sig) → Buf (Elt Ideal) ℓ) (c : Dev nD) :
    Cert.ReferenceIdeal.Value.res_main_v66 (F := Ideal) m c
      = G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  rw [val_main_v66_eq]
  exact val_eq _ _ _ _ _ _ _ _ _ _ _ _ _ _ _

/-- Every weakly fair execution of the reference ends with `G` of the arguments in the result buffer and the arguments
    unchanged. -/
theorem run_G (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v66)
        = G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨(h c).1.trans (res_eq m c), (h c).2⟩) (Cert.ReferenceIdeal.Value.run (F := Ideal) m ρ)

end Cert.ReferenceIdeal.RefValue

end
-- ==== Proof.lean ====
/-
  The certificate of a factorization-machine forward kernel against its jnp reference.

  Both programs compute, for each row x of the 32768 × 2668 feature matrix, the logistic function of

      sum over the 2668 columns of x k · lin_w k  +  lin_b  +  sum over 64 embedding coordinates of fifteen pair products

  of the row's field embeddings (user id, item id, age, gender, occupation, movie; each field with a user-side and an
  item-side table of width 64). The reference multiplies each field's columns with each table separately. The kernel is
  handed, per field, ONE table of width 129 — user table, item table and that field's slice of lin_w side by side, the
  item-id table under 47 rows of zeros so that its column slice can start at column 896 — multiplies once per field,
  and gathers the linear term from column 128 of the six products plus the gap column. On the extended reals the two
  are the same function (`Cert.FFM.kerRow_eq_refRow`): a product with a zero entry is zero whatever the other factor,
  and sums may be split and reordered freely, so no finiteness of the inputs is used.

  The frames of the two kernel programs are proved by running the body once at a symbolic grid point (its one
  whole-block store covers the output block); the kernel's output array is then read block by block
  (`Cert.KernelIdeal.Hand.run_blocks`, `kernel_G`), the reference's result through its operations one at a time
  (`Cert.ReferenceIdeal.RefValue.run_G`). The idealization rewrote nothing, so `preserves` is trivial.
-/
import proofs.«124395_j4372276707424_2_alg».proof.Defs
import proofs.«124395_j4372276707424_2_alg».proof.Proof.Gen.Kernel
import proofs.«124395_j4372276707424_2_alg».proof.Proof.Gen.KernelIdeal
import proofs.«124395_j4372276707424_2_alg».proof.Proof.Gen.ReferenceIdeal
import proofs.«124395_j4372276707424_2_alg».proof.Proof.Gen.ReferenceIdeal.Run
import proofs.«124395_j4372276707424_2_alg».proof.Proof.Gen.ReferenceIdeal.Read
import proofs.«124395_j4372276707424_2_alg».proof.Proof.Gen.Pre_finite_inputs
import proofs.«124395_j4372276707424_2_alg».proof.Proof.FrameBits
import proofs.«124395_j4372276707424_2_alg».proof.Proof.FrameIdeal
import proofs.«124395_j4372276707424_2_alg».proof.Proof.KernelRun
import proofs.«124395_j4372276707424_2_alg».proof.Proof.KernelValue
import proofs.«124395_j4372276707424_2_alg».proof.Proof.RefValue
import Idealize.ShloMosaic.Adequacy
import Idealize.ShloMosaic.Init

noncomputable section

namespace Cert.Proof

open Idealize.ShloMosaic Idealize.SL.Sem

/-- The word-level kernel program runs to the end, faults nowhere and leaves its arguments unchanged. -/
theorem frame_kernel : Cert.frame_Kernel (hKernel := Cert.Kernel.Gen.facts) (hPre_finite_inputs := Cert.Pre_finite_inputs.Gen.facts) :=
  fun m ρ _ => Cert.Kernel.Hand.frame m ρ

/-- So does its idealization. -/
theorem frame_kernelIdeal : Cert.frame_KernelIdeal (hKernelIdeal := Cert.KernelIdeal.Gen.facts) (hPre_finite_inputs := Cert.Pre_finite_inputs.Gen.facts) :=
  fun m ρ _ => Cert.KernelIdeal.Hand.frame m ρ

/-- The reference has no kernel: its frame is its run with the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the arguments both idealized programs end with the result array at `Cert.FFM.G` of the
    argument arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.FFM.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono
      (fun _ h c => ⟨(h c).1.trans (Cert.KernelIdeal.Hand.kernel_G m c), (h c).2⟩) (Cert.KernelIdeal.Hand.run_blocks m ρ)
  · refine (θ_run Cert.ReferenceIdeal.defs _ _).mono (fun _ h c => ⟨(h c).1.trans ?_, (h c).2⟩)
      (Cert.ReferenceIdeal.RefValue.run_G m' ρ')
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
